-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v199_1)) (v1 : (c : Dev Cert.KernelIdeal.nD) → Buf (Elt Ideal) ((c.tc : Thread Cert.KernelIdeal.nD Cert.KernelIdeal.τ).loc Cert.KernelIdeal.main_v200_1)) (v2 : (c : Dev Cert.KernelIdeal.nD) → Buf (Elt Ideal) ((c.tc : Thread Cert.KernelIdeal.nD Cert.KernelIdeal.τ).loc Cert.KernelIdeal.main_v198)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v199_1) = v0 c
          ∧ r.2.mem ((c.tc : Thread Cert.KernelIdeal.nD Cert.KernelIdeal.τ).loc Cert.KernelIdeal.main_v200_1) = v1 c
          ∧ r.2.mem ((c.tc : Thread Cert.KernelIdeal.nD Cert.KernelIdeal.τ).loc Cert.KernelIdeal.main_v198) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v208) = v0 c
          ∧ r.2.mem ((c.tc : Thread Cert.ReferenceIdeal.nD Cert.ReferenceIdeal.τ).loc Cert.ReferenceIdeal.main_v210) = v1 c
          ∧ r.2.mem ((c.tc : Thread Cert.ReferenceIdeal.nD Cert.ReferenceIdeal.τ).loc Cert.ReferenceIdeal.main_v204) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S1000x64 : Shape := ⟨2, ![1000, 64]⟩
abbrev S2000000 : Shape := ⟨1, ![2000000]⟩
abbrev S1000000 : Shape := ⟨1, ![1000000]⟩
abbrev S150000 : Shape := ⟨1, ![150000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S1000x64 : S_.BroadcastsInDim S1000x64 (![] : Fin 0 → Fin S1000x64.rank)
  reducesTo_S1000x64_S_d0_1 : S1000x64.ReducesTo [0, 1] S_
  bcast_S_S2000000 : S_.BroadcastsInDim S2000000 (![] : Fin 0 → Fin S2000000.rank)
  reducesTo_S2000000_S_d0 : S2000000.ReducesTo [0] S_
  bcast_S_S1000000 : S_.BroadcastsInDim S1000000 (![] : Fin 0 → Fin S1000000.rank)
  reducesTo_S1000000_S_d0 : S1000000.ReducesTo [0] S_
  bcast_S_S150000 : S_.BroadcastsInDim S150000 (![] : Fin 0 → Fin S150000.rank)
  reducesTo_S150000_S_d0 : S150000.ReducesTo [0] S_

variable [Facts]

def fn_part2 {F : FTy → Type} [FloatOps F] (main_arg7 : FVec F S150000 .f32) (main_v33 : IVec S_ 1) : IVec S_ 1 :=
  let main_v34 : FVec F S150000 .f32 := Host.absf main_arg7
  let main_cst_12 : FVec F S_ .f32 := constant S_ .f32 0x7F800000#32
  let main_v35 : FVec F S150000 .f32 := broadcastInDim S150000 ![] bcast_S_S150000 main_cst_12
  let main_v36 : IVec S150000 1 := cmpf .olt main_v34 main_v35
  let main_c_13 : IVec S_ 1 := constantI S_ 1 1#1
  let main_v37 : IVec S_ 1 := (fun x v => Host.reduce IntOp.andi x v reducesTo_S150000_S_d0 h_S_) main_v36 main_c_13
  let main_v38 : IVec S_ 1 := andi main_v33 main_v37
  main_v38

def fn_part1 {F : FTy → Type} [FloatOps F] (main_arg4 : FVec F S2000000 .f32) (main_arg5 : FVec F S1000000 .f32) (main_arg6 : FVec F S150000 .f32) (main_arg7 : FVec F S150000 .f32) (main_v13 : IVec S_ 1) (main_v16 : IVec S2000000 1) : IVec S_ 1 :=
  let main_c_5 : IVec S_ 1 := constantI S_ 1 1#1
  let main_v17 : IVec S_ 1 := (fun x v => Host.reduce IntOp.andi x v reducesTo_S2000000_S_d0 h_S_) main_v16 main_c_5
  let main_v18 : IVec S_ 1 := andi main_v13 main_v17
  let main_v19 : FVec F S2000000 .f32 := Host.absf main_arg4
  let main_cst_6 : FVec F S_ .f32 := constant S_ .f32 0x7F800000#32
  let main_v20 : FVec F S2000000 .f32 := broadcastInDim S2000000 ![] bcast_S_S2000000 main_cst_6
  let main_v21 : IVec S2000000 1 := cmpf .olt main_v19 main_v20
  let main_c_7 : IVec S_ 1 := constantI S_ 1 1#1
  let main_v22 : IVec S_ 1 := (fun x v => Host.reduce IntOp.andi x v reducesTo_S2000000_S_d0 h_S_) main_v21 main_c_7
  let main_v23 : IVec S_ 1 := andi main_v18 main_v22
  let main_v24 : FVec F S1000000 .f32 := Host.absf main_arg5
  let main_cst_8 : FVec F S_ .f32 := constant S_ .f32 0x7F800000#32
  let main_v25 : FVec F S1000000 .f32 := broadcastInDim S1000000 ![] bcast_S_S1000000 main_cst_8
  let main_v26 : IVec S1000000 1 := cmpf .olt main_v24 main_v25
  let main_c_9 : IVec S_ 1 := constantI S_ 1 1#1
  let main_v27 : IVec S_ 1 := (fun x v => Host.reduce IntOp.andi x v reducesTo_S1000000_S_d0 h_S_) main_v26 main_c_9
  let main_v28 : IVec S_ 1 := andi main_v23 main_v27
  let main_v29 : FVec F S150000 .f32 := Host.absf main_arg6
  let main_cst_10 : FVec F S_ .f32 := constant S_ .f32 0x7F800000#32
  let main_v30 : FVec F S150000 .f32 := broadcastInDim S150000 ![] bcast_S_S150000 main_cst_10
  let main_v31 : IVec S150000 1 := cmpf .olt main_v29 main_v30
  let main_c_11 : IVec S_ 1 := constantI S_ 1 1#1
  let main_v32 : IVec S_ 1 := (fun x v => Host.reduce IntOp.andi x v reducesTo_S150000_S_d0 h_S_) main_v31 main_c_11
  let main_v33 : IVec S_ 1 := andi main_v28 main_v32
  fn_part2 (F := F) main_arg7 main_v33

def fn {F : FTy → Type} [FloatOps F] (main_arg0 : FVec F S100000x64 .f32) (main_arg1 : FVec F S50000x64 .f32) (main_arg2 : FVec F S1000x64 .f32) (main_arg3 : FVec F S2000000 .f32) (main_arg4 : FVec F S2000000 .f32) (main_arg5 : FVec F S1000000 .f32) (main_arg6 : FVec F S150000 .f32) (main_arg7 : FVec F S150000 .f32) (main_arg8 : IVec S2000000 32) (main_arg9 : IVec S2000000 32) (main_arg10 : IVec S2000000 32) (main_arg11 : IVec S2000000 32) (main_arg12 : IVec S1000000 32) (main_arg13 : IVec S1000000 32) (main_arg14 : IVec S150000 32) (main_arg15 : IVec S150000 32) (main_arg16 : IVec S150000 32) (main_arg17 : IVec S150000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S1000x64 .f32 := Host.absf main_arg2
  let main_cst_2 : FVec F S_ .f32 := constant S_ .f32 0x7F800000#32
  let main_v10 : FVec F S1000x64 .f32 := broadcastInDim S1000x64 ![] bcast_S_S1000x64 main_cst_2
  let main_v11 : IVec S1000x64 1 := cmpf .olt main_v9 main_v10
  let main_c_3 : IVec S_ 1 := constantI S_ 1 1#1
  let main_v12 : IVec S_ 1 := (fun x v => Host.reduce IntOp.andi x v reducesTo_S1000x64_S_d0_1 h_S_) main_v11 main_c_3
  let main_v13 : IVec S_ 1 := andi main_v8 main_v12
  let main_v14 : FVec F S2000000 .f32 := Host.absf main_arg3
  let main_cst_4 : FVec F S_ .f32 := constant S_ .f32 0x7F800000#32
  let main_v15 : FVec F S2000000 .f32 := broadcastInDim S2000000 ![] bcast_S_S2000000 main_cst_4
  let main_v16 : IVec S2000000 1 := cmpf .olt main_v14 main_v15
  fn_part1 (F := F) main_arg4 main_arg5 main_arg6 main_arg7 main_v13 main_v16
-- ==== Kernel.lean ====
abbrev S100000x64 : Shape := ⟨2, ![100000, 64]⟩
abbrev S50000x64 : Shape := ⟨2, ![50000, 64]⟩
abbrev S1000x64 : Shape := ⟨2, ![1000, 64]⟩
abbrev S2000000 : Shape := ⟨1, ![2000000]⟩
abbrev S1000000 : Shape := ⟨1, ![1000000]⟩
abbrev S150000 : Shape := ⟨1, ![150000]⟩
abbrev S2000000x1 : Shape := ⟨2, ![2000000, 1]⟩
abbrev S_ : Shape := ⟨0, ![]⟩
abbrev S2000000x64 : Shape := ⟨2, ![2000000, 64]⟩
abbrev S1000000x1 : Shape := ⟨2, ![1000000, 1]⟩
abbrev S1000000x64 : Shape := ⟨2, ![1000000, 64]⟩
abbrev S150000x1 : Shape := ⟨2, ![150000, 1]⟩
abbrev S150000x64 : Shape := ⟨2, ![150000, 64]⟩
abbrev S2000x64 : Shape := ⟨2, ![2000, 64]⟩

abbrev nBuf : Space → Nat
  | .hbm => 270
  | .vmem => 60
  | .smem => 0
  | _ => 0

abbrev hbmTy0_0 (i : Nat) : BufTy := match i % 128 with
  | 0 => ⟨S100000x64, .f32⟩
  | 1 => ⟨S50000x64, .f32⟩
  | 2 => ⟨S1000x64, .f32⟩
  | 3 => ⟨S2000000, .f32⟩
  | 4 => ⟨S2000000, .f32⟩
  | 5 => ⟨S1000000, .f32⟩
  | 6 => ⟨S150000, .f32⟩
  | 7 => ⟨S150000, .f32⟩
  | 8 => ⟨S2000000, .i32⟩
  | 9 => ⟨S2000000, .i32⟩
  | 10 => ⟨S2000000, .i32⟩
  | 11 => ⟨S2000000, .i32⟩
  | 12 => ⟨S1000000, .i32⟩
  | 13 => ⟨S1000000, .i32⟩
  | 14 => ⟨S150000, .i32⟩
  | 15 => ⟨S150000, .i32⟩
  | 16 => ⟨S150000, .i32⟩
  | 17 => ⟨S150000, .i32⟩
  | 18 => ⟨S2000000x1, .f32⟩
  | 19 => ⟨S_, .i32⟩
  | 20 => ⟨S2000000, .i32⟩
  | 21 => ⟨S2000000, .i1⟩
  | 22 => ⟨S_, .i32⟩
  | 23 => ⟨S2000000, .i32⟩
  | 24 => ⟨S2000000, .i32⟩
  | 25 => ⟨S2000000, .i32⟩
  | 26 => ⟨S2000000x1, .i32⟩
  | 27 => ⟨S2000000x64, .f32⟩
  | 28 => ⟨S2000000x64, .f32⟩
  | 29 => ⟨S2000000x64, .f32⟩
  | 30 => ⟨S_, .f32⟩
  | 31 => ⟨S100000x64, .f32⟩
  | 32 => ⟨S2000000x1, .i32⟩
  | 33 => ⟨S100000x64, .f32⟩
  | 34 => ⟨S1000000x1, .f32⟩
  | 35 => ⟨S_, .i32⟩
  | 36 => ⟨S1000000, .i32⟩
  | 37 => ⟨S1000000, .i1⟩
  | 38 => ⟨S_, .i32⟩
  | 39 => ⟨S1000000, .i32⟩
  | 40 => ⟨S1000000, .i32⟩
  | 41 => ⟨S1000000, .i32⟩
  | 42 => ⟨S1000000x1, .i32⟩
  | 43 => ⟨S1000000x64, .f32⟩
  | 44 => ⟨S1000000x64, .f32⟩
  | 45 => ⟨S1000000x64, .f32⟩
  | 46 => ⟨S_, .f32⟩
  | 47 => ⟨S100000x64, .f32⟩
  | 48 => ⟨S1000000x1, .i32⟩
  | 49 => ⟨S100000x64, .f32⟩
  | 50 => ⟨S2000000x1, .f32⟩
  | 51 => ⟨S_, .i32⟩
  | 52 => ⟨S2000000, .i32⟩
  | 53 => ⟨S2000000, .i1⟩
  | 54 => ⟨S_, .i32⟩
  | 55 => ⟨S2000000, .i32⟩
  | 56 => ⟨S2000000, .i32⟩
  | 57 => ⟨S2000000, .i32⟩
  | 58 => ⟨S2000000x1, .i32⟩
  | 59 => ⟨S2000000x64, .f32⟩
  | 60 => ⟨S2000000x64, .f32⟩
  | 61 => ⟨S2000000x64, .f32⟩
  | 62 => ⟨S_, .f32⟩
  | 63 => ⟨S50000x64, .f32⟩
  | 64 => ⟨S2000000x1, .i32⟩
  | 65 => ⟨S50000x64, .f32⟩
  | 66 => ⟨S150000x1, .f32⟩
  | 67 => ⟨S_, .i32⟩
  | 68 => ⟨S150000, .i32⟩
  | 69 => ⟨S150000, .i1⟩
  | 70 => ⟨S_, .i32⟩
  | 71 => ⟨S150000, .i32⟩
  | 72 => ⟨S150000, .i32⟩
  | 73 => ⟨S150000, .i32⟩
  | 74 => ⟨S150000x1, .i32⟩
  | 75 => ⟨S150000x64, .f32⟩
  | 76 => ⟨S150000x64, .f32⟩
  | 77 => ⟨S150000x64, .f32⟩
  | 78 => ⟨S_, .f32⟩
  | 79 => ⟨S50000x64, .f32⟩
  | 80 => ⟨S150000x1, .i32⟩
  | 81 => ⟨S50000x64, .f32⟩
  | 82 => ⟨S150000x1, .f32⟩
  | 83 => ⟨S_, .i32⟩
  | 84 => ⟨S150000, .i32⟩
  | 85 => ⟨S150000, .i1⟩
  | 86 => ⟨S_, .i32⟩
  | 87 => ⟨S150000, .i32⟩
  | 88 => ⟨S150000, .i32⟩
  | 89 => ⟨S150000, .i32⟩
  | 90 => ⟨S150000x1, .i32⟩
  | 91 => ⟨S150000x64, .f32⟩
  | 92 => ⟨S150000x64, .f32⟩
  | 93 => ⟨S150000x64, .f32⟩
  | 94 => ⟨S_, .f32⟩
  | 95 => ⟨S1000x64, .f32⟩
  | 96 => ⟨S150000x1, .i32⟩
  | 97 => ⟨S1000x64, .f32⟩
  | 98 => ⟨S100000x64, .f32⟩
  | 99 => ⟨S100000x64, .f32⟩
  | 100 => ⟨S50000x64, .f32⟩
  | 101 => ⟨S50000x64, .f32⟩
  | 102 => ⟨S2000000x1, .f32⟩
  | 103 => ⟨S_, .i32⟩
  | 104 => ⟨S2000000, .i32⟩
  | 105 => ⟨S2000000, .i1⟩
  | 106 => ⟨S_, .i32⟩
  | 107 => ⟨S2000000, .i32⟩
  | 108 => ⟨S2000000, .i32⟩
  | 109 => ⟨S2000000, .i32⟩
  | 110 => ⟨S2000000x1, .i32⟩
  | 111 => ⟨S2000000x64, .f32⟩
  | 112 => ⟨S2000000x64, .f32⟩
  | 113 => ⟨S2000000x64, .f32⟩
  | 114 => ⟨S_, .f32⟩
  | 115 => ⟨S100000x64, .f32⟩
  | 116 => ⟨S2000000x1, .i32⟩
  | 117 => ⟨S100000x64, .f32⟩
  | 118 => ⟨S1000000x1, .f32⟩
  | 119 => ⟨S_, .i32⟩
  | 120 => ⟨S1000000, .i32⟩
  | 121 => ⟨S1000000, .i1⟩
  | 122 => ⟨S_, .i32⟩
  | 123 => ⟨S1000000, .i32⟩
  | 124 => ⟨S1000000, .i32⟩
  | 125 => ⟨S1000000, .i32⟩
  | 126 => ⟨S1000000x1, .i32⟩
  | 127 => ⟨S1000000x64, .f32⟩
  | _ => ⟨S100000x64, .f32⟩

abbrev hbmTy0_1 (i : Nat) : BufTy := match i % 128 with
  | 0 => ⟨S1000000x64, .f32⟩
  | 1 => ⟨S1000000x64, .f32⟩
  | 2 => ⟨S_, .f32⟩
  | 3 => ⟨S100000x64, .f32⟩
  | 4 => ⟨S1000000x1, .i32⟩
  | 5 => ⟨S100000x64, .f32⟩
  | 6 => ⟨S2000000x1, .f32⟩
  | 7 => ⟨S_, .i32⟩
  | 8 => ⟨S2000000, .i32⟩
  | 9 => ⟨S2000000, .i1⟩
  | 10 => ⟨S_, .i32⟩
  | 11 => ⟨S2000000, .i32⟩
  | 12 => ⟨S2000000, .i32⟩
  | 13 => ⟨S2000000, .i32⟩
  | 14 => ⟨S2000000x1, .i32⟩
  | 15 => ⟨S2000000x64, .f32⟩
  | 16 => ⟨S2000000x64, .f32⟩
  | 17 => ⟨S2000000x64, .f32⟩
  | 18 => ⟨S_, .f32⟩
  | 19 => ⟨S50000x64, .f32⟩
  | 20 => ⟨S2000000x1, .i32⟩
  | 21 => ⟨S50000x64, .f32⟩
  | 22 => ⟨S150000x1, .f32⟩
  | 23 => ⟨S_, .i32⟩
  | 24 => ⟨S150000, .i32⟩
  | 25 => ⟨S150000, .i1⟩
  | 26 => ⟨S_, .i32⟩
  | 27 => ⟨S150000, .i32⟩
  | 28 => ⟨S150000, .i32⟩
  | 29 => ⟨S150000, .i32⟩
  | 30 => ⟨S150000x1, .i32⟩
  | 31 => ⟨S150000x64, .f32⟩
  | 32 => ⟨S150000x64, .f32⟩
  | 33 => ⟨S150000x64, .f32⟩
  | 34 => ⟨S_, .f32⟩
  | 35 => ⟨S50000x64, .f32⟩
  | 36 => ⟨S150000x1, .i32⟩
  | 37 => ⟨S50000x64, .f32⟩
  | 38 => ⟨S150000x1, .f32⟩
  | 39 => ⟨S_, .i32⟩
  | 40 => ⟨S150000, .i32⟩
  | 41 => ⟨S150000, .i1⟩
  | 42 => ⟨S_, .i32⟩
  | 43 => ⟨S150000, .i32⟩
  | 44 => ⟨S150000, .i32⟩
  | 45 => ⟨S150000, .i32⟩
  | 46 => ⟨S150000x1, .i32⟩
  | 47 => ⟨S150000x64, .f32⟩
  | 48 => ⟨S150000x64, .f32⟩
  | 49 => ⟨S150000x64, .f32⟩
  | 50 => ⟨S_, .f32⟩
  | 51 => ⟨S1000x64, .f32⟩
  | 52 => ⟨S150000x1, .i32⟩
  | 53 => ⟨S1000x64, .f32⟩
  | 54 => ⟨S100000x64, .f32⟩
  | 55 => ⟨S100000x64, .f32⟩
  | 56 => ⟨S50000x64, .f32⟩
  | 57 => ⟨S50000x64, .f32⟩
  | 58 => ⟨S2000000x1, .f32⟩
  | 59 => ⟨S_, .i32⟩
  | 60 => ⟨S2000000, .i32⟩
  | 61 => ⟨S2000000, .i1⟩
  | 62 => ⟨S_, .i32⟩
  | 63 => ⟨S2000000, .i32⟩
  | 64 => ⟨S2000000, .i32⟩
  | 65 => ⟨S2000000, .i32⟩
  | 66 => ⟨S2000000x1, .i32⟩
  | 67 => ⟨S2000000x64, .f32⟩
  | 68 => ⟨S2000000x64, .f32⟩
  | 69 => ⟨S2000000x64, .f32⟩
  | 70 => ⟨S_, .f32⟩
  | 71 => ⟨S100000x64, .f32⟩
  | 72 => ⟨S2000000x1, .i32⟩
  | 73 => ⟨S100000x64, .f32⟩
  | 74 => ⟨S1000000x1, .f32⟩
  | 75 => ⟨S_, .i32⟩
  | 76 => ⟨S1000000, .i32⟩
  | 77 => ⟨S1000000, .i1⟩
  | 78 => ⟨S_, .i32⟩
  | 79 => ⟨S1000000, .i32⟩
  | 80 => ⟨S1000000, .i32⟩
  | 81 => ⟨S1000000, .i32⟩
  | 82 => ⟨S1000000x1, .i32⟩
  | 83 => ⟨S1000000x64, .f32⟩
  | 84 => ⟨S1000000x64, .f32⟩
  | 85 => ⟨S1000000x64, .f32⟩
  | 86 => ⟨S_, .f32⟩
  | 87 => ⟨S100000x64, .f32⟩
  | 88 => ⟨S1000000x1, .i32⟩
  | 89 => ⟨S100000x64, .f32⟩
  | 90 => ⟨S2000000x1, .f32⟩
  | 91 => ⟨S_, .i32⟩
  | 92 => ⟨S2000000, .i32⟩
  | 93 => ⟨S2000000, .i1⟩
  | 94 => ⟨S_, .i32⟩
  | 95 => ⟨S2000000, .i32⟩
  | 96 => ⟨S2000000, .i32⟩
  | 97 => ⟨S2000000, .i32⟩
  | 98 => ⟨S2000000x1, .i32⟩
  | 99 => ⟨S2000000x64, .f32⟩
  | 100 => ⟨S2000000x64, .f32⟩
  | 101 => ⟨S2000000x64, .f32⟩
  | 102 => ⟨S_, .f32⟩
  | 103 => ⟨S50000x64, .f32⟩
  | 104 => ⟨S2000000x1, .i32⟩
  | 105 => ⟨S50000x64, .f32⟩
  | 106 => ⟨S150000x1, .f32⟩
  | 107 => ⟨S_, .i32⟩
  | 108 => ⟨S150000, .i32⟩
  | 109 => ⟨S150000, .i1⟩
  | 110 => ⟨S_, .i32⟩
  | 111 => ⟨S150000, .i32⟩
  | 112 => ⟨S150000, .i32⟩
  | 113 => ⟨S150000, .i32⟩
  | 114 => ⟨S150000x1, .i32⟩
  | 115 => ⟨S150000x64, .f32⟩
  | 116 => ⟨S150000x64, .f32⟩
  | 117 => ⟨S150000x64, .f32⟩
  | 118 => ⟨S_, .f32⟩
  | 119 => ⟨S50000x64, .f32⟩
  | 120 => ⟨S150000x1, .i32⟩
  | 121 => ⟨S50000x64, .f32⟩
  | 122 => ⟨S150000x1, .f32⟩
  | 123 => ⟨S_, .i32⟩
  | 124 => ⟨S150000, .i32⟩
  | 125 => ⟨S150000, .i1⟩
  | 126 => ⟨S_, .i32⟩
  | 127 => ⟨S150000, .i32⟩
  | _ => ⟨S100000x64, .f32⟩

abbrev hbmTy0_2 (i : Nat) : BufTy := match i % 128 with
  | 0 => ⟨S150000, .i32⟩
  | 1 => ⟨S150000, .i32⟩
  | 2 => ⟨S150000x1, .i32⟩
  | 3 => ⟨S150000x64, .f32⟩
  | 4 => ⟨S150000x64, .f32⟩
  | 5 => ⟨S150000x64, .f32⟩
  | 6 => ⟨S_, .f32⟩
  | 7 => ⟨S1000x64, .f32⟩
  | 8 => ⟨S150000x1, .i32⟩
  | 9 => ⟨S1000x64, .f32⟩
  | 10 => ⟨S100000x64, .f32⟩
  | 11 => ⟨S100000x64, .f32⟩
  | 12 => ⟨S50000x64, .f32⟩
  | 13 => ⟨S50000x64, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S2000x64, .f32⟩
  | .local _ .vmem, ⟨30, _⟩ => ⟨S2000x64, .f32⟩
  | .local _ .vmem, ⟨31, _⟩ => ⟨S2000x64, .f32⟩
  | .local _ .vmem, ⟨32, _⟩ => ⟨S2000x64, .f32⟩
  | .local _ .vmem, ⟨33, _⟩ => ⟨S2000x64, .f32⟩
  | .local _ .vmem, ⟨34, _⟩ => ⟨S2000x64, .f32⟩
  | .local _ .vmem, ⟨35, _⟩ => ⟨S2000x64, .f32⟩
  | .local _ .vmem, ⟨36, _⟩ => ⟨S2000x64, .f32⟩
  | .local _ .vmem, ⟨37, _⟩ => ⟨S2000x64, .f32⟩
  | .local _ .vmem, ⟨38, _⟩ => ⟨S2000x64, .f32⟩
  | .local _ .vmem, ⟨39, _⟩ => ⟨S2000x64, .f32⟩
  | .local _ .vmem, ⟨40, _⟩ => ⟨S2000x64, .f32⟩
  | .local _ .vmem, ⟨41, _⟩ => ⟨S2000x64, .f32⟩
  | .local _ .vmem, ⟨42, _⟩ => ⟨S2000x64, .f32⟩
  | .local _ .vmem, ⟨43, _⟩ => ⟨S2000x64, .f32⟩
  | .local _ .vmem, ⟨44, _⟩ => ⟨S2000x64, .f32⟩
  | .local _ .vmem, ⟨45, _⟩ => ⟨S2000x64, .f32⟩
  | .local _ .vmem, ⟨46, _⟩ => ⟨S2000x64, .f32⟩
  | .local _ .vmem, ⟨47, _⟩ => ⟨S2000x64, .f32⟩
  | .local _ .vmem, ⟨48, _⟩ => ⟨S2000x64, .f32⟩
  | .local _ .vmem, ⟨49, _⟩ => ⟨S2000x64, .f32⟩
  | .local _ .vmem, ⟨50, _⟩ => ⟨S2000x64, .f32⟩
  | .local _ .vmem, ⟨51, _⟩ => ⟨S2000x64, .f32⟩
  | .local _ .vmem, ⟨52, _⟩ => ⟨S2000x64, .f32⟩
  | .local _ .vmem, ⟨53, _⟩ => ⟨S2000x64, .f32⟩
  | .local _ .vmem, ⟨54, _⟩ => ⟨S2000x64, .f32⟩
  | .local _ .vmem, ⟨55, _⟩ => ⟨S2000x64, .f32⟩
  | .local _ .vmem, ⟨56, _⟩ => ⟨S2000x64, .f32⟩
  | .local _ .vmem, ⟨57, _⟩ => ⟨S2000x64, .f32⟩
  | .local _ .vmem, ⟨58, _⟩ => ⟨S2000x64, .f32⟩
  | .local _ .vmem, ⟨59, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_c : Ref sig .tc := ⟨.hbm, 19, rfl⟩
abbrev main_v1 : Ref sig .tc := ⟨.hbm, 20, rfl⟩
abbrev main_v2 : Ref sig .tc := ⟨.hbm, 21, rfl⟩
abbrev main_c_0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_1 : Ref sig .tc := ⟨.hbm, 35, rfl⟩
abbrev main_v14 : Ref sig .tc := ⟨.hbm, 36, rfl⟩
abbrev main_v15 : Ref sig .tc := ⟨.hbm, 37, rfl⟩
abbrev main_c_2 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_3 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_4 : Ref sig .tc := ⟨.hbm, 51, rfl⟩
abbrev main_v27 : Ref sig .tc := ⟨.hbm, 52, rfl⟩
abbrev main_v28 : Ref sig .tc := ⟨.hbm, 53, rfl⟩
abbrev main_c_5 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_6 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_c_7 : Ref sig .tc := ⟨.hbm, 67, rfl⟩
abbrev main_v40 : Ref sig .tc := ⟨.hbm, 68, rfl⟩
abbrev main_v41 : Ref sig .tc := ⟨.hbm, 69, rfl⟩
abbrev main_c_8 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_9 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_c_10 : Ref sig .tc := ⟨.hbm, 83, rfl⟩
abbrev main_v53 : Ref sig .tc := ⟨.hbm, 84, rfl⟩
abbrev main_v54 : Ref sig .tc := ⟨.hbm, 85, rfl⟩
abbrev main_c_11 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_12 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65_0 : Ref sig .tc := ⟨.hbm, 98, rfl⟩
abbrev main_v65_1 : Ref sig .tc := ⟨.hbm, 99, rfl⟩
abbrev main_v66_0 : Ref sig .tc := ⟨.hbm, 100, rfl⟩
abbrev main_v66_1 : Ref sig .tc := ⟨.hbm, 101, rfl⟩
abbrev main_v67 : Ref sig .tc := ⟨.hbm, 102, rfl⟩
abbrev main_c_13 : Ref sig .tc := ⟨.hbm, 103, rfl⟩
abbrev main_v68 : Ref sig .tc := ⟨.hbm, 104, rfl⟩
abbrev main_v69 : Ref sig .tc := ⟨.hbm, 105, rfl⟩
abbrev main_c_14 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_15 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_c_16 : Ref sig .tc := ⟨.hbm, 119, rfl⟩
abbrev main_v81 : Ref sig .tc := ⟨.hbm, 120, rfl⟩
abbrev main_v82 : Ref sig .tc := ⟨.hbm, 121, rfl⟩
abbrev main_c_17 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_cst_18 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_c_19 : Ref sig .tc := ⟨.hbm, 135, rfl⟩
abbrev main_v94 : Ref sig .tc := ⟨.hbm, 136, rfl⟩
abbrev main_v95 : Ref sig .tc := ⟨.hbm, 137, rfl⟩
abbrev main_c_20 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_cst_21 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_c_22 : Ref sig .tc := ⟨.hbm, 151, rfl⟩
abbrev main_v107 : Ref sig .tc := ⟨.hbm, 152, rfl⟩
abbrev main_v108 : Ref sig .tc := ⟨.hbm, 153, rfl⟩
abbrev main_c_23 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_cst_24 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_c_25 : Ref sig .tc := ⟨.hbm, 167, rfl⟩
abbrev main_v120 : Ref sig .tc := ⟨.hbm, 168, rfl⟩
abbrev main_v121 : Ref sig .tc := ⟨.hbm, 169, rfl⟩
abbrev main_c_26 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_cst_27 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132_0 : Ref sig .tc := ⟨.hbm, 182, rfl⟩
abbrev main_v132_1 : Ref sig .tc := ⟨.hbm, 183, rfl⟩
abbrev main_v133_0 : Ref sig .tc := ⟨.hbm, 184, rfl⟩
abbrev main_v133_1 : Ref sig .tc := ⟨.hbm, 185, rfl⟩
abbrev main_v134 : Ref sig .tc := ⟨.hbm, 186, rfl⟩
abbrev main_c_28 : Ref sig .tc := ⟨.hbm, 187, rfl⟩
abbrev main_v135 : Ref sig .tc := ⟨.hbm, 188, rfl⟩
abbrev main_v136 : Ref sig .tc := ⟨.hbm, 189, rfl⟩
abbrev main_c_29 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_cst_30 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_c_31 : Ref sig .tc := ⟨.hbm, 203, rfl⟩
abbrev main_v148 : Ref sig .tc := ⟨.hbm, 204, rfl⟩
abbrev main_v149 : Ref sig .tc := ⟨.hbm, 205, rfl⟩
abbrev main_c_32 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_cst_33 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_c_34 : Ref sig .tc := ⟨.hbm, 219, rfl⟩
abbrev main_v161 : Ref sig .tc := ⟨.hbm, 220, rfl⟩
abbrev main_v162 : Ref sig .tc := ⟨.hbm, 221, rfl⟩
abbrev main_c_35 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_cst_36 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_c_37 : Ref sig .tc := ⟨.hbm, 235, rfl⟩
abbrev main_v174 : Ref sig .tc := ⟨.hbm, 236, rfl⟩
abbrev main_v175 : Ref sig .tc := ⟨.hbm, 237, rfl⟩
abbrev main_c_38 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_cst_39 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_v186 : Ref sig .tc := ⟨.hbm, 250, rfl⟩
abbrev main_c_40 : Ref sig .tc := ⟨.hbm, 251, rfl⟩
abbrev main_v187 : Ref sig .tc := ⟨.hbm, 252, rfl⟩
abbrev main_v188 : Ref sig .tc := ⟨.hbm, 253, rfl⟩
abbrev main_c_41 : Ref sig .tc := ⟨.hbm, 254, rfl⟩
abbrev main_v189 : Ref sig .tc := ⟨.hbm, 255, rfl⟩
abbrev main_v190 : Ref sig .tc := ⟨.hbm, 256, rfl⟩
abbrev main_v191 : Ref sig .tc := ⟨.hbm, 257, rfl⟩
abbrev main_v192 : Ref sig .tc := ⟨.hbm, 258, rfl⟩
abbrev main_v193 : Ref sig .tc := ⟨.hbm, 259, rfl⟩
abbrev main_v194 : Ref sig .tc := ⟨.hbm, 260, rfl⟩
abbrev main_v195 : Ref sig .tc := ⟨.hbm, 261, rfl⟩
abbrev main_cst_42 : Ref sig .tc := ⟨.hbm, 262, rfl⟩
abbrev main_v196 : Ref sig .tc := ⟨.hbm, 263, rfl⟩
abbrev main_v197 : Ref sig .tc := ⟨.hbm, 264, rfl⟩
abbrev main_v198 : Ref sig .tc := ⟨.hbm, 265, rfl⟩
abbrev main_v199_0 : Ref sig .tc := ⟨.hbm, 266, rfl⟩
abbrev main_v199_1 : Ref sig .tc := ⟨.hbm, 267, rfl⟩
abbrev main_v200_0 : Ref sig .tc := ⟨.hbm, 268, rfl⟩
abbrev main_v200_1 : Ref sig .tc := ⟨.hbm, 269, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg3_1 : Ref sig .tc := ⟨.vmem, 37, rfl⟩
abbrev cc3_stg4_0 : Ref sig .tc := ⟨.vmem, 38, rfl⟩
abbrev cc3_stg4_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg2_1 : Ref sig .tc := ⟨.vmem, 45, rfl⟩
abbrev cc4_stg3_0 : Ref sig .tc := ⟨.vmem, 46, rfl⟩
abbrev cc4_stg3_1 : Ref sig .tc := ⟨.vmem, 47, rfl⟩
abbrev cc4_stg4_0 : Ref sig .tc := ⟨.vmem, 48, rfl⟩
abbrev cc4_stg4_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg1_1 : Ref sig .tc := ⟨.vmem, 53, rfl⟩
abbrev cc5_stg2_0 : Ref sig .tc := ⟨.vmem, 54, rfl⟩
abbrev cc5_stg2_1 : Ref sig .tc := ⟨.vmem, 55, rfl⟩
abbrev cc5_stg3_0 : Ref sig .tc := ⟨.vmem, 56, rfl⟩
abbrev cc5_stg3_1 : Ref sig .tc := ⟨.vmem, 57, rfl⟩
abbrev cc5_stg4_0 : Ref sig .tc := ⟨.vmem, 58, rfl⟩
abbrev cc5_stg4_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem3_1 : DmaSem sig := 37
abbrev cc3_sem4_0 : DmaSem sig := 38
abbrev cc3_sem4_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem2_1 : DmaSem sig := 45
abbrev cc4_sem3_0 : DmaSem sig := 46
abbrev cc4_sem3_1 : DmaSem sig := 47
abbrev cc4_sem4_0 : DmaSem sig := 48
abbrev cc4_sem4_1 : DmaSem sig := 49
abbrev cc5_sem0_0 : DmaSem sig := 50
abbrev cc5_sem0_1 : DmaSem sig := 51
abbrev cc5_sem1_0 : DmaSem sig := 52
abbrev cc5_sem1_1 : DmaSem sig := 53
abbrev cc5_sem2_0 : DmaSem sig := 54
abbrev cc5_sem2_1 : DmaSem sig := 55
abbrev cc5_sem3_0 : DmaSem sig := 56
abbrev cc5_sem3_1 : DmaSem sig := 57
abbrev cc5_sem4_0 : DmaSem sig := 58
abbrev cc5_sem4_1 : DmaSem sig := 59

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S2000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S2000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S2000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S2000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x64_0_1 : S2000000x1.BroadcastsInDim S2000000x64 (![0, 1] : Fin 2 → Fin S2000000x64.rank)
  bcast_S_S100000x64 : S_.BroadcastsInDim S100000x64 (![] : Fin 0 → Fin S100000x64.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S50000x64 : S_.BroadcastsInDim S50000x64 (![] : Fin 0 → Fin S50000x64.rank)
  bcast_S150000_S150000x1_0 : S150000.BroadcastsInDim S150000x1 (![0] : Fin 1 → Fin S150000x1.rank)
  bcast_S_S150000 : S_.BroadcastsInDim S150000 (![] : Fin 0 → Fin S150000.rank)
  bcast_S150000x1_S150000x64_0_1 : S150000x1.BroadcastsInDim S150000x64 (![0, 1] : Fin 2 → Fin S150000x64.rank)
  bcast_S_S1000x64 : S_.BroadcastsInDim S1000x64 (![] : Fin 0 → Fin S1000x64.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  gather_S50000x64_S2000000x1_S2000000x64_1_0_n_n_0_1_164_wf : GatherDims.WF S50000x64 S2000000x1 S2000000x64 [1] [0] [] [0] [] 1 ![1, 64]
  scatter_S100000x64_S2000000x1_S2000000x64_1_0_0_1_wf : ScatterDims.WF S100000x64 S2000000x1 S2000000x64 [1] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  gather_S100000x64_S2000000x1_S2000000x64_1_0_n_n_0_1_164_wf : GatherDims.WF S100000x64 S2000000x1 S2000000x64 [1] [0] [] [0] [] 1 ![1, 64]
  scatter_S50000x64_S2000000x1_S2000000x64_1_0_0_1_wf : ScatterDims.WF S50000x64 S2000000x1 S2000000x64 [1] [0] [0] 1
  gather_S1000x64_S150000x1_S150000x64_1_0_n_n_0_1_164_wf : GatherDims.WF S1000x64 S150000x1 S150000x64 [1] [0] [] [0] [] 1 ![1, 64]
  scatter_S50000x64_S150000x1_S150000x64_1_0_0_1_wf : ScatterDims.WF S50000x64 S150000x1 S150000x64 [1] [0] [0] 1
  gather_S50000x64_S150000x1_S150000x64_1_0_n_n_0_1_164_wf : GatherDims.WF S50000x64 S150000x1 S150000x64 [1] [0] [] [0] [] 1 ![1, 64]
  scatter_S1000x64_S150000x1_S150000x64_1_0_0_1_wf : ScatterDims.WF S1000x64 S150000x1 S150000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x64.size a ≤ S100000x64.size a
  hwx0_4 : ∀ i : grid0.Coords, EltTy.bits .f32 = 32 ∨ (Rect.block (s := S100000x64) S2000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .f32 = 32 ∨ (Rect.block (s := S50000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S50000x64.size a
  hwx1_3 : ∀ i : grid1.Coords, EltTy.bits .f32 = 32 ∨ (Rect.block (s := S50000x64) S2000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S50000x64.size a
  hwx1_4 : ∀ i : grid1.Coords, EltTy.bits .f32 = 32 ∨ (Rect.block (s := S50000x64) S2000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S100000x64.size a
  hwx2_1 : ∀ i : grid2.Coords, EltTy.bits .f32 = 32 ∨ (Rect.block (s := S100000x64) S2000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S100000x64.size a
  hwx2_3 : ∀ i : grid2.Coords, EltTy.bits .f32 = 32 ∨ (Rect.block (s := S100000x64) S2000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x64.size a ≤ S100000x64.size a
  hwx2_4 : ∀ i : grid2.Coords, EltTy.bits .f32 = 32 ∨ (Rect.block (s := S100000x64) S2000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S50000x64.size a
  hwx3_1 : ∀ i : grid3.Coords, EltTy.bits .f32 = 32 ∨ (Rect.block (s := S50000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S50000x64.size a
  hwx3_2 : ∀ i : grid3.Coords, EltTy.bits .f32 = 32 ∨ (Rect.block (s := S50000x64) S2000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x64.size a ≤ S50000x64.size a
  hwx3_3 : ∀ i : grid3.Coords, EltTy.bits .f32 = 32 ∨ (Rect.block (s := S50000x64) S2000x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S50000x64.size a
  hwx3_4 : ∀ i : grid3.Coords, EltTy.bits .f32 = 32 ∨ (Rect.block (s := S50000x64) S2000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S100000x64.size a
  hwx4_0 : ∀ i : grid4.Coords, EltTy.bits .f32 = 32 ∨ (Rect.block (s := S100000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x64.size a ≤ S100000x64.size a
  hwx4_1 : ∀ i : grid4.Coords, EltTy.bits .f32 = 32 ∨ (Rect.block (s := S100000x64) S2000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x64.size a ≤ S100000x64.size a
  hwx4_2 : ∀ i : grid4.Coords, EltTy.bits .f32 = 32 ∨ (Rect.block (s := S100000x64) S2000x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x64.size a ≤ S100000x64.size a
  hwx4_3 : ∀ i : grid4.Coords, EltTy.bits .f32 = 32 ∨ (Rect.block (s := S100000x64) S2000x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x64.size a ≤ S100000x64.size a
  hwx4_4 : ∀ i : grid4.Coords, EltTy.bits .f32 = 32 ∨ (Rect.block (s := S100000x64) S2000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S50000x64.size a
  hwx5_0 : ∀ i : grid5.Coords, EltTy.bits .f32 = 32 ∨ (Rect.block (s := S50000x64) S2000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x64.size a ≤ S50000x64.size a
  hwx5_1 : ∀ i : grid5.Coords, EltTy.bits .f32 = 32 ∨ (Rect.block (s := S50000x64) S2000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x64.size a ≤ S50000x64.size a
  hwx5_2 : ∀ i : grid5.Coords, EltTy.bits .f32 = 32 ∨ (Rect.block (s := S50000x64) S2000x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x64.size a ≤ S50000x64.size a
  hwx5_3 : ∀ i : grid5.Coords, EltTy.bits .f32 = 32 ∨ (Rect.block (s := S50000x64) S2000x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x64.size a ≤ S50000x64.size a
  hwx5_4 : ∀ i : grid5.Coords, EltTy.bits .f32 = 32 ∨ (Rect.block (s := S50000x64) S2000x64.size (cc5_transform_4 i) (hinb5_4 i)).WholeWords (EltTy.packing .f32)

variable [Facts₀]

def gather_S50000x64_S2000000x1_S2000000x64_1_0_n_n_0_1_164 : GatherDims S50000x64 S2000000x1 S2000000x64 where
  offsetDims := [1]
  collapsedSliceDims := [0]
  operandBatchingDims := []
  startIndicesBatchingDims := []
  startIndexMap := [0]
  indexVectorDim := 1
  sliceSizes := ![1, 64]
  wf := gather_S50000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S50000x64_S2000000x1_S2000000x64_1_0_0_1 : ScatterDims S50000x64 S2000000x1 S2000000x64 where
  updateWindowDims := [1]
  insertedWindowDims := [0]
  scatterDimsToOperandDims := [0]
  indexVectorDim := 1
  wf := scatter_S50000x64_S2000000x1_S2000000x64_1_0_0_1_wf
def gather_S1000x64_S150000x1_S150000x64_1_0_n_n_0_1_164 : GatherDims S1000x64 S150000x1 S150000x64 where
  offsetDims := [1]
  collapsedSliceDims := [0]
  operandBatchingDims := []
  startIndicesBatchingDims := []
  startIndexMap := [0]
  indexVectorDim := 1
  sliceSizes := ![1, 64]
  wf := gather_S1000x64_S150000x1_S150000x64_1_0_n_n_0_1_164_wf
def scatter_S50000x64_S150000x1_S150000x64_1_0_0_1 : ScatterDims S50000x64 S150000x1 S150000x64 where
  updateWindowDims := [1]
  insertedWindowDims := [0]
  scatterDimsToOperandDims := [0]
  indexVectorDim := 1
  wf := scatter_S50000x64_S150000x1_S150000x64_1_0_0_1_wf
def gather_S50000x64_S150000x1_S150000x64_1_0_n_n_0_1_164 : GatherDims S50000x64 S150000x1 S150000x64 where
  offsetDims := [1]
  collapsedSliceDims := [0]
  operandBatchingDims := []
  startIndicesBatchingDims := []
  startIndexMap := [0]
  indexVectorDim := 1
  sliceSizes := ![1, 64]
  wf := gather_S50000x64_S150000x1_S150000x64_1_0_n_n_0_1_164_wf
def scatter_S1000x64_S150000x1_S150000x64_1_0_0_1 : ScatterDims S1000x64 S150000x1 S150000x64 where
  updateWindowDims := [1]
  insertedWindowDims := [0]
  scatterDimsToOperandDims := [0]
  indexVectorDim := 1
  wf := scatter_S1000x64_S150000x1_S150000x64_1_0_0_1_wf

abbrev win0_0 : Pipeline.Window sig grid0 :=
  Pipeline.Window.ofSpec (Memref.whole main_v12) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v65_0) S2000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v65_1) S2000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v38) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v66_0) S2000x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v66_1) S2000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v79) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v92) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v65_1) S2000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v132_0) S2000x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v132_1) S2000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v105) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v118) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v66_1) S2000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v133_0) S2000x64.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v133_1) S2000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v146) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v159) S2000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v132_1) S2000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v199_0) S2000x64.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v199_1) S2000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v172) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v185) S2000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v133_1) S2000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v200_0) S2000x64.size cc5_transform_3 reads5_3 true false 2 stage5_3 sem5_3
    hrank5 hreads5_3 hinb5_3 nbuf5_3 (Memref.isWhole_whole _) hwx5_3 hstage5_3

abbrev win5_4 : Pipeline.Window sig grid5 :=
  Pipeline.Window.ofSpec (Memref.whole main_v200_1) S2000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S1000x64 : Shape := ⟨2, ![1000, 64]⟩
abbrev S2000000 : Shape := ⟨1, ![2000000]⟩
abbrev S1000000 : Shape := ⟨1, ![1000000]⟩
abbrev S150000 : Shape := ⟨1, ![150000]⟩
abbrev S2000000x1 : Shape := ⟨2, ![2000000, 1]⟩
abbrev S_ : Shape := ⟨0, ![]⟩
abbrev S2000000x64 : Shape := ⟨2, ![2000000, 64]⟩
abbrev S1000000x1 : Shape := ⟨2, ![1000000, 1]⟩
abbrev S1000000x64 : Shape := ⟨2, ![1000000, 64]⟩
abbrev S150000x1 : Shape := ⟨2, ![150000, 1]⟩
abbrev S150000x64 : Shape := ⟨2, ![150000, 64]⟩

abbrev nBuf : Space → Nat
  | .hbm => 276
  | .vmem => 0
  | .smem => 0
  | _ => 0

abbrev hbmTy0_0 (i : Nat) : BufTy := match i % 128 with
  | 0 => ⟨S100000x64, .f32⟩
  | 1 => ⟨S50000x64, .f32⟩
  | 2 => ⟨S1000x64, .f32⟩
  | 3 => ⟨S2000000, .f32⟩
  | 4 => ⟨S2000000, .f32⟩
  | 5 => ⟨S1000000, .f32⟩
  | 6 => ⟨S150000, .f32⟩
  | 7 => ⟨S150000, .f32⟩
  | 8 => ⟨S2000000, .i32⟩
  | 9 => ⟨S2000000, .i32⟩
  | 10 => ⟨S2000000, .i32⟩
  | 11 => ⟨S2000000, .i32⟩
  | 12 => ⟨S1000000, .i32⟩
  | 13 => ⟨S1000000, .i32⟩
  | 14 => ⟨S150000, .i32⟩
  | 15 => ⟨S150000, .i32⟩
  | 16 => ⟨S150000, .i32⟩
  | 17 => ⟨S150000, .i32⟩
  | 18 => ⟨S2000000x1, .f32⟩
  | 19 => ⟨S_, .i32⟩
  | 20 => ⟨S2000000, .i32⟩
  | 21 => ⟨S2000000, .i1⟩
  | 22 => ⟨S_, .i32⟩
  | 23 => ⟨S2000000, .i32⟩
  | 24 => ⟨S2000000, .i32⟩
  | 25 => ⟨S2000000, .i32⟩
  | 26 => ⟨S2000000x1, .i32⟩
  | 27 => ⟨S2000000x64, .f32⟩
  | 28 => ⟨S2000000x64, .f32⟩
  | 29 => ⟨S2000000x64, .f32⟩
  | 30 => ⟨S_, .f32⟩
  | 31 => ⟨S100000x64, .f32⟩
  | 32 => ⟨S2000000x1, .i32⟩
  | 33 => ⟨S100000x64, .f32⟩
  | 34 => ⟨S1000000x1, .f32⟩
  | 35 => ⟨S_, .i32⟩
  | 36 => ⟨S1000000, .i32⟩
  | 37 => ⟨S1000000, .i1⟩
  | 38 => ⟨S_, .i32⟩
  | 39 => ⟨S1000000, .i32⟩
  | 40 => ⟨S1000000, .i32⟩
  | 41 => ⟨S1000000, .i32⟩
  | 42 => ⟨S1000000x1, .i32⟩
  | 43 => ⟨S1000000x64, .f32⟩
  | 44 => ⟨S1000000x64, .f32⟩
  | 45 => ⟨S1000000x64, .f32⟩
  | 46 => ⟨S_, .f32⟩
  | 47 => ⟨S100000x64, .f32⟩
  | 48 => ⟨S1000000x1, .i32⟩
  | 49 => ⟨S100000x64, .f32⟩
  | 50 => ⟨S100000x64, .f32⟩
  | 51 => ⟨S2000000x1, .f32⟩
  | 52 => ⟨S_, .i32⟩
  | 53 => ⟨S2000000, .i32⟩
  | 54 => ⟨S2000000, .i1⟩
  | 55 => ⟨S_, .i32⟩
  | 56 => ⟨S2000000, .i32⟩
  | 57 => ⟨S2000000, .i32⟩
  | 58 => ⟨S2000000, .i32⟩
  | 59 => ⟨S2000000x1, .i32⟩
  | 60 => ⟨S2000000x64, .f32⟩
  | 61 => ⟨S2000000x64, .f32⟩
  | 62 => ⟨S2000000x64, .f32⟩
  | 63 => ⟨S_, .f32⟩
  | 64 => ⟨S50000x64, .f32⟩
  | 65 => ⟨S2000000x1, .i32⟩
  | 66 => ⟨S50000x64, .f32⟩
  | 67 => ⟨S150000x1, .f32⟩
  | 68 => ⟨S_, .i32⟩
  | 69 => ⟨S150000, .i32⟩
  | 70 => ⟨S150000, .i1⟩
  | 71 => ⟨S_, .i32⟩
  | 72 => ⟨S150000, .i32⟩
  | 73 => ⟨S150000, .i32⟩
  | 74 => ⟨S150000, .i32⟩
  | 75 => ⟨S150000x1, .i32⟩
  | 76 => ⟨S150000x64, .f32⟩
  | 77 => ⟨S150000x64, .f32⟩
  | 78 => ⟨S150000x64, .f32⟩
  | 79 => ⟨S_, .f32⟩
  | 80 => ⟨S50000x64, .f32⟩
  | 81 => ⟨S150000x1, .i32⟩
  | 82 => ⟨S50000x64, .f32⟩
  | 83 => ⟨S50000x64, .f32⟩
  | 84 => ⟨S150000x1, .f32⟩
  | 85 => ⟨S_, .i32⟩
  | 86 => ⟨S150000, .i32⟩
  | 87 => ⟨S150000, .i1⟩
  | 88 => ⟨S_, .i32⟩
  | 89 => ⟨S150000, .i32⟩
  | 90 => ⟨S150000, .i32⟩
  | 91 => ⟨S150000, .i32⟩
  | 92 => ⟨S150000x1, .i32⟩
  | 93 => ⟨S150000x64, .f32⟩
  | 94 => ⟨S150000x64, .f32⟩
  | 95 => ⟨S150000x64, .f32⟩
  | 96 => ⟨S_, .f32⟩
  | 97 => ⟨S1000x64, .f32⟩
  | 98 => ⟨S150000x1, .i32⟩
  | 99 => ⟨S1000x64, .f32⟩
  | 100 => ⟨S100000x64, .f32⟩
  | 101 => ⟨S50000x64, .f32⟩
  | 102 => ⟨S2000000x1, .f32⟩
  | 103 => ⟨S_, .i32⟩
  | 104 => ⟨S2000000, .i32⟩
  | 105 => ⟨S2000000, .i1⟩
  | 106 => ⟨S_, .i32⟩
  | 107 => ⟨S2000000, .i32⟩
  | 108 => ⟨S2000000, .i32⟩
  | 109 => ⟨S2000000, .i32⟩
  | 110 => ⟨S2000000x1, .i32⟩
  | 111 => ⟨S2000000x64, .f32⟩
  | 112 => ⟨S2000000x64, .f32⟩
  | 113 => ⟨S2000000x64, .f32⟩
  | 114 => ⟨S_, .f32⟩
  | 115 => ⟨S100000x64, .f32⟩
  | 116 => ⟨S2000000x1, .i32⟩
  | 117 => ⟨S100000x64, .f32⟩
  | 118 => ⟨S1000000x1, .f32⟩
  | 119 => ⟨S_, .i32⟩
  | 120 => ⟨S1000000, .i32⟩
  | 121 => ⟨S1000000, .i1⟩
  | 122 => ⟨S_, .i32⟩
  | 123 => ⟨S1000000, .i32⟩
  | 124 => ⟨S1000000, .i32⟩
  | 125 => ⟨S1000000, .i32⟩
  | 126 => ⟨S1000000x1, .i32⟩
  | 127 => ⟨S1000000x64, .f32⟩
  | _ => ⟨S100000x64, .f32⟩

abbrev hbmTy0_1 (i : Nat) : BufTy := match i % 128 with
  | 0 => ⟨S1000000x64, .f32⟩
  | 1 => ⟨S1000000x64, .f32⟩
  | 2 => ⟨S_, .f32⟩
  | 3 => ⟨S100000x64, .f32⟩
  | 4 => ⟨S1000000x1, .i32⟩
  | 5 => ⟨S100000x64, .f32⟩
  | 6 => ⟨S100000x64, .f32⟩
  | 7 => ⟨S2000000x1, .f32⟩
  | 8 => ⟨S_, .i32⟩
  | 9 => ⟨S2000000, .i32⟩
  | 10 => ⟨S2000000, .i1⟩
  | 11 => ⟨S_, .i32⟩
  | 12 => ⟨S2000000, .i32⟩
  | 13 => ⟨S2000000, .i32⟩
  | 14 => ⟨S2000000, .i32⟩
  | 15 => ⟨S2000000x1, .i32⟩
  | 16 => ⟨S2000000x64, .f32⟩
  | 17 => ⟨S2000000x64, .f32⟩
  | 18 => ⟨S2000000x64, .f32⟩
  | 19 => ⟨S_, .f32⟩
  | 20 => ⟨S50000x64, .f32⟩
  | 21 => ⟨S2000000x1, .i32⟩
  | 22 => ⟨S50000x64, .f32⟩
  | 23 => ⟨S150000x1, .f32⟩
  | 24 => ⟨S_, .i32⟩
  | 25 => ⟨S150000, .i32⟩
  | 26 => ⟨S150000, .i1⟩
  | 27 => ⟨S_, .i32⟩
  | 28 => ⟨S150000, .i32⟩
  | 29 => ⟨S150000, .i32⟩
  | 30 => ⟨S150000, .i32⟩
  | 31 => ⟨S150000x1, .i32⟩
  | 32 => ⟨S150000x64, .f32⟩
  | 33 => ⟨S150000x64, .f32⟩
  | 34 => ⟨S150000x64, .f32⟩
  | 35 => ⟨S_, .f32⟩
  | 36 => ⟨S50000x64, .f32⟩
  | 37 => ⟨S150000x1, .i32⟩
  | 38 => ⟨S50000x64, .f32⟩
  | 39 => ⟨S50000x64, .f32⟩
  | 40 => ⟨S150000x1, .f32⟩
  | 41 => ⟨S_, .i32⟩
  | 42 => ⟨S150000, .i32⟩
  | 43 => ⟨S150000, .i1⟩
  | 44 => ⟨S_, .i32⟩
  | 45 => ⟨S150000, .i32⟩
  | 46 => ⟨S150000, .i32⟩
  | 47 => ⟨S150000, .i32⟩
  | 48 => ⟨S150000x1, .i32⟩
  | 49 => ⟨S150000x64, .f32⟩
  | 50 => ⟨S150000x64, .f32⟩
  | 51 => ⟨S150000x64, .f32⟩
  | 52 => ⟨S_, .f32⟩
  | 53 => ⟨S1000x64, .f32⟩
  | 54 => ⟨S150000x1, .i32⟩
  | 55 => ⟨S1000x64, .f32⟩
  | 56 => ⟨S100000x64, .f32⟩
  | 57 => ⟨S50000x64, .f32⟩
  | 58 => ⟨S2000000x1, .f32⟩
  | 59 => ⟨S_, .i32⟩
  | 60 => ⟨S2000000, .i32⟩
  | 61 => ⟨S2000000, .i1⟩
  | 62 => ⟨S_, .i32⟩
  | 63 => ⟨S2000000, .i32⟩
  | 64 => ⟨S2000000, .i32⟩
  | 65 => ⟨S2000000, .i32⟩
  | 66 => ⟨S2000000x1, .i32⟩
  | 67 => ⟨S2000000x64, .f32⟩
  | 68 => ⟨S2000000x64, .f32⟩
  | 69 => ⟨S2000000x64, .f32⟩
  | 70 => ⟨S_, .f32⟩
  | 71 => ⟨S100000x64, .f32⟩
  | 72 => ⟨S2000000x1, .i32⟩
  | 73 => ⟨S100000x64, .f32⟩
  | 74 => ⟨S1000000x1, .f32⟩
  | 75 => ⟨S_, .i32⟩
  | 76 => ⟨S1000000, .i32⟩
  | 77 => ⟨S1000000, .i1⟩
  | 78 => ⟨S_, .i32⟩
  | 79 => ⟨S1000000, .i32⟩
  | 80 => ⟨S1000000, .i32⟩
  | 81 => ⟨S1000000, .i32⟩
  | 82 => ⟨S1000000x1, .i32⟩
  | 83 => ⟨S1000000x64, .f32⟩
  | 84 => ⟨S1000000x64, .f32⟩
  | 85 => ⟨S1000000x64, .f32⟩
  | 86 => ⟨S_, .f32⟩
  | 87 => ⟨S100000x64, .f32⟩
  | 88 => ⟨S1000000x1, .i32⟩
  | 89 => ⟨S100000x64, .f32⟩
  | 90 => ⟨S100000x64, .f32⟩
  | 91 => ⟨S2000000x1, .f32⟩
  | 92 => ⟨S_, .i32⟩
  | 93 => ⟨S2000000, .i32⟩
  | 94 => ⟨S2000000, .i1⟩
  | 95 => ⟨S_, .i32⟩
  | 96 => ⟨S2000000, .i32⟩
  | 97 => ⟨S2000000, .i32⟩
  | 98 => ⟨S2000000, .i32⟩
  | 99 => ⟨S2000000x1, .i32⟩
  | 100 => ⟨S2000000x64, .f32⟩
  | 101 => ⟨S2000000x64, .f32⟩
  | 102 => ⟨S2000000x64, .f32⟩
  | 103 => ⟨S_, .f32⟩
  | 104 => ⟨S50000x64, .f32⟩
  | 105 => ⟨S2000000x1, .i32⟩
  | 106 => ⟨S50000x64, .f32⟩
  | 107 => ⟨S150000x1, .f32⟩
  | 108 => ⟨S_, .i32⟩
  | 109 => ⟨S150000, .i32⟩
  | 110 => ⟨S150000, .i1⟩
  | 111 => ⟨S_, .i32⟩
  | 112 => ⟨S150000, .i32⟩
  | 113 => ⟨S150000, .i32⟩
  | 114 => ⟨S150000, .i32⟩
  | 115 => ⟨S150000x1, .i32⟩
  | 116 => ⟨S150000x64, .f32⟩
  | 117 => ⟨S150000x64, .f32⟩
  | 118 => ⟨S150000x64, .f32⟩
  | 119 => ⟨S_, .f32⟩
  | 120 => ⟨S50000x64, .f32⟩
  | 121 => ⟨S150000x1, .i32⟩
  | 122 => ⟨S50000x64, .f32⟩
  | 123 => ⟨S50000x64, .f32⟩
  | 124 => ⟨S150000x1, .f32⟩
  | 125 => ⟨S_, .i32⟩
  | 126 => ⟨S150000, .i32⟩
  | 127 => ⟨S150000, .i1⟩
  | _ => ⟨S100000x64, .f32⟩

abbrev hbmTy0_2 (i : Nat) : BufTy := match i % 128 with
  | 0 => ⟨S_, .i32⟩
  | 1 => ⟨S150000, .i32⟩
  | 2 => ⟨S150000, .i32⟩
  | 3 => ⟨S150000, .i32⟩
  | 4 => ⟨S150000x1, .i32⟩
  | 5 => ⟨S150000x64, .f32⟩
  | 6 => ⟨S150000x64, .f32⟩
  | 7 => ⟨S150000x64, .f32⟩
  | 8 => ⟨S_, .f32⟩
  | 9 => ⟨S1000x64, .f32⟩
  | 10 => ⟨S150000x1, .i32⟩
  | 11 => ⟨S1000x64, .f32⟩
  | 12 => ⟨S100000x64, .f32⟩
  | 13 => ⟨S50000x64, .f32⟩
  | 14 => ⟨S_, .f32⟩
  | 15 => ⟨S100000x64, .f32⟩
  | 16 => ⟨S100000x64, .f32⟩
  | 17 => ⟨S_, .f32⟩
  | 18 => ⟨S50000x64, .f32⟩
  | 19 => ⟨S50000x64, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_c : Ref sig .tc := ⟨.hbm, 19, rfl⟩
abbrev main_v1 : Ref sig .tc := ⟨.hbm, 20, rfl⟩
abbrev main_v2 : Ref sig .tc := ⟨.hbm, 21, rfl⟩
abbrev main_c_0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_1 : Ref sig .tc := ⟨.hbm, 35, rfl⟩
abbrev main_v14 : Ref sig .tc := ⟨.hbm, 36, rfl⟩
abbrev main_v15 : Ref sig .tc := ⟨.hbm, 37, rfl⟩
abbrev main_c_2 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_3 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_4 : Ref sig .tc := ⟨.hbm, 52, rfl⟩
abbrev main_v28 : Ref sig .tc := ⟨.hbm, 53, rfl⟩
abbrev main_v29 : Ref sig .tc := ⟨.hbm, 54, rfl⟩
abbrev main_c_5 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_6 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_c_7 : Ref sig .tc := ⟨.hbm, 68, rfl⟩
abbrev main_v41 : Ref sig .tc := ⟨.hbm, 69, rfl⟩
abbrev main_v42 : Ref sig .tc := ⟨.hbm, 70, rfl⟩
abbrev main_c_8 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_9 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_c_10 : Ref sig .tc := ⟨.hbm, 85, rfl⟩
abbrev main_v55 : Ref sig .tc := ⟨.hbm, 86, rfl⟩
abbrev main_v56 : Ref sig .tc := ⟨.hbm, 87, rfl⟩
abbrev main_c_11 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_12 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_c_13 : Ref sig .tc := ⟨.hbm, 103, rfl⟩
abbrev main_v70 : Ref sig .tc := ⟨.hbm, 104, rfl⟩
abbrev main_v71 : Ref sig .tc := ⟨.hbm, 105, rfl⟩
abbrev main_c_14 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_15 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_c_16 : Ref sig .tc := ⟨.hbm, 119, rfl⟩
abbrev main_v83 : Ref sig .tc := ⟨.hbm, 120, rfl⟩
abbrev main_v84 : Ref sig .tc := ⟨.hbm, 121, rfl⟩
abbrev main_c_17 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_18 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_c_19 : Ref sig .tc := ⟨.hbm, 136, rfl⟩
abbrev main_v97 : Ref sig .tc := ⟨.hbm, 137, rfl⟩
abbrev main_v98 : Ref sig .tc := ⟨.hbm, 138, rfl⟩
abbrev main_c_20 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_cst_21 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_c_22 : Ref sig .tc := ⟨.hbm, 152, rfl⟩
abbrev main_v110 : Ref sig .tc := ⟨.hbm, 153, rfl⟩
abbrev main_v111 : Ref sig .tc := ⟨.hbm, 154, rfl⟩
abbrev main_c_23 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_cst_24 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_c_25 : Ref sig .tc := ⟨.hbm, 169, rfl⟩
abbrev main_v124 : Ref sig .tc := ⟨.hbm, 170, rfl⟩
abbrev main_v125 : Ref sig .tc := ⟨.hbm, 171, rfl⟩
abbrev main_c_26 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_cst_27 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_c_28 : Ref sig .tc := ⟨.hbm, 187, rfl⟩
abbrev main_v139 : Ref sig .tc := ⟨.hbm, 188, rfl⟩
abbrev main_v140 : Ref sig .tc := ⟨.hbm, 189, rfl⟩
abbrev main_c_29 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_cst_30 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_c_31 : Ref sig .tc := ⟨.hbm, 203, rfl⟩
abbrev main_v152 : Ref sig .tc := ⟨.hbm, 204, rfl⟩
abbrev main_v153 : Ref sig .tc := ⟨.hbm, 205, rfl⟩
abbrev main_c_32 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_cst_33 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_c_34 : Ref sig .tc := ⟨.hbm, 220, rfl⟩
abbrev main_v166 : Ref sig .tc := ⟨.hbm, 221, rfl⟩
abbrev main_v167 : Ref sig .tc := ⟨.hbm, 222, rfl⟩
abbrev main_c_35 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_cst_36 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_c_37 : Ref sig .tc := ⟨.hbm, 236, rfl⟩
abbrev main_v179 : Ref sig .tc := ⟨.hbm, 237, rfl⟩
abbrev main_v180 : Ref sig .tc := ⟨.hbm, 238, rfl⟩
abbrev main_c_38 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_cst_39 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_c_40 : Ref sig .tc := ⟨.hbm, 253, rfl⟩
abbrev main_v193 : Ref sig .tc := ⟨.hbm, 254, rfl⟩
abbrev main_v194 : Ref sig .tc := ⟨.hbm, 255, rfl⟩
abbrev main_c_41 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_v200 : Ref sig .tc := ⟨.hbm, 262, rfl⟩
abbrev main_v201 : Ref sig .tc := ⟨.hbm, 263, rfl⟩
abbrev main_cst_42 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_v205 : Ref sig .tc := ⟨.hbm, 268, rfl⟩
abbrev main_v206 : Ref sig .tc := ⟨.hbm, 269, rfl⟩
abbrev main_cst_43 : Ref sig .tc := ⟨.hbm, 270, rfl⟩
abbrev main_v207 : Ref sig .tc := ⟨.hbm, 271, rfl⟩
abbrev main_v208 : Ref sig .tc := ⟨.hbm, 272, rfl⟩
abbrev main_cst_44 : Ref sig .tc := ⟨.hbm, 273, rfl⟩
abbrev main_v209 : Ref sig .tc := ⟨.hbm, 274, rfl⟩
abbrev main_v210 : Ref sig .tc := ⟨.hbm, 275, rfl⟩

abbrev nD : Nat := 1
abbrev τ : Topo := Topo.v7x

variable {F : FTy → Type} [FloatOps F]

class Facts₀ : Prop where
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x64_0_1 : S2000000x1.BroadcastsInDim S2000000x64 (![0, 1] : Fin 2 → Fin S2000000x64.rank)
  bcast_S_S100000x64 : S_.BroadcastsInDim S100000x64 (![] : Fin 0 → Fin S100000x64.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S50000x64 : S_.BroadcastsInDim S50000x64 (![] : Fin 0 → Fin S50000x64.rank)
  bcast_S150000_S150000x1_0 : S150000.BroadcastsInDim S150000x1 (![0] : Fin 1 → Fin S150000x1.rank)
  bcast_S_S150000 : S_.BroadcastsInDim S150000 (![] : Fin 0 → Fin S150000.rank)
  bcast_S150000x1_S150000x64_0_1 : S150000x1.BroadcastsInDim S150000x64 (![0, 1] : Fin 2 → Fin S150000x64.rank)
  bcast_S_S1000x64 : S_.BroadcastsInDim S1000x64 (![] : Fin 0 → Fin S1000x64.rank)
  gather_S50000x64_S2000000x1_S2000000x64_1_0_n_n_0_1_164_wf : GatherDims.WF S50000x64 S2000000x1 S2000000x64 [1] [0] [] [0] [] 1 ![1, 64]
  scatter_S100000x64_S2000000x1_S2000000x64_1_0_0_1_wf : ScatterDims.WF S100000x64 S2000000x1 S2000000x64 [1] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  gather_S100000x64_S2000000x1_S2000000x64_1_0_n_n_0_1_164_wf : GatherDims.WF S100000x64 S2000000x1 S2000000x64 [1] [0] [] [0] [] 1 ![1, 64]
  scatter_S50000x64_S2000000x1_S2000000x64_1_0_0_1_wf : ScatterDims.WF S50000x64 S2000000x1 S2000000x64 [1] [0] [0] 1
  gather_S1000x64_S150000x1_S150000x64_1_0_n_n_0_1_164_wf : GatherDims.WF S1000x64 S150000x1 S150000x64 [1] [0] [] [0] [] 1 ![1, 64]
  scatter_S50000x64_S150000x1_S150000x64_1_0_0_1_wf : ScatterDims.WF S50000x64 S150000x1 S150000x64 [1] [0] [0] 1
  gather_S50000x64_S150000x1_S150000x64_1_0_n_n_0_1_164_wf : GatherDims.WF S50000x64 S150000x1 S150000x64 [1] [0] [] [0] [] 1 ![1, 64]
  scatter_S1000x64_S150000x1_S150000x64_1_0_0_1_wf : ScatterDims.WF S1000x64 S150000x1 S150000x64 [1] [0] [0] 1

variable [Facts₀]

def gather_S50000x64_S2000000x1_S2000000x64_1_0_n_n_0_1_164 : GatherDims S50000x64 S2000000x1 S2000000x64 where
  offsetDims := [1]
  collapsedSliceDims := [0]
  operandBatchingDims := []
  startIndicesBatchingDims := []
  startIndexMap := [0]
  indexVectorDim := 1
  sliceSizes := ![1, 64]
  wf := gather_S50000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S50000x64_S2000000x1_S2000000x64_1_0_0_1 : ScatterDims S50000x64 S2000000x1 S2000000x64 where
  updateWindowDims := [1]
  insertedWindowDims := [0]
  scatterDimsToOperandDims := [0]
  indexVectorDim := 1
  wf := scatter_S50000x64_S2000000x1_S2000000x64_1_0_0_1_wf
def gather_S1000x64_S150000x1_S150000x64_1_0_n_n_0_1_164 : GatherDims S1000x64 S150000x1 S150000x64 where
  offsetDims := [1]
  collapsedSliceDims := [0]
  operandBatchingDims := []
  startIndicesBatchingDims := []
  startIndexMap := [0]
  indexVectorDim := 1
  sliceSizes := ![1, 64]
  wf := gather_S1000x64_S150000x1_S150000x64_1_0_n_n_0_1_164_wf
def scatter_S50000x64_S150000x1_S150000x64_1_0_0_1 : ScatterDims S50000x64 S150000x1 S150000x64 where
  updateWindowDims := [1]
  insertedWindowDims := [0]
  scatterDimsToOperandDims := [0]
  indexVectorDim := 1
  wf := scatter_S50000x64_S150000x1_S150000x64_1_0_0_1_wf
def gather_S50000x64_S150000x1_S150000x64_1_0_n_n_0_1_164 : GatherDims S50000x64 S150000x1 S150000x64 where
  offsetDims := [1]
  collapsedSliceDims := [0]
  operandBatchingDims := []
  startIndicesBatchingDims := []
  startIndexMap := [0]
  indexVectorDim := 1
  sliceSizes := ![1, 64]
  wf := gather_S50000x64_S150000x1_S150000x64_1_0_n_n_0_1_164_wf
def scatter_S1000x64_S150000x1_S150000x64_1_0_0_1 : ScatterDims S1000x64 S150000x1 S150000x64 where
  updateWindowDims := [1]
  insertedWindowDims := [0]
  scatterDimsToOperandDims := [0]
  indexVectorDim := 1
  wf := scatter_S1000x64_S150000x1_S150000x64_1_0_0_1_wf

class Facts : Prop extends Facts₀ where

variable [Facts]
-- ==== Proof.Combine.lean ====
/-
  One combine step of the propagation, as whole-array functions. Each layer adds the two relation
  contributions that reach a node type, `a + b`, and folds that sum into the running total,
  `(r + (a + b)) · k`, where the scalar `k` is 1 in the first two layers and 1/4 in the last.
  Both are pointwise, so a tiled computation of them block by block and a whole-array computation
  agree index by index.
-/
import Idealize.ShloMosaic.PureOps.Vector

noncomputable section

namespace Cert.Combine

open Idealize.ShloMosaic

variable {F : FTy → Type} [FloatOps F] {ι : Type}

/-- The new embedding: the sum of the two contributions, index by index. -/
def contrib (a b : ι → F .f32) : ι → F .f32 := fun i => FloatOps.addf (a i) (b i)

/-- The new running total: the old total plus the new embedding, scaled by `k`, index by index. -/
def total (k : F .f32) (a b r : ι → F .f32) : ι → F .f32 :=
  fun i => FloatOps.mulf (FloatOps.addf (r i) (FloatOps.addf (a i) (b i))) k

theorem contrib_apply (a b : ι → F .f32) (i : ι) : contrib a b i = FloatOps.addf (a i) (b i) := rfl

theorem total_apply (k : F .f32) (a b r : ι → F .f32) (i : ι) :
    total k a b r i = FloatOps.mulf (FloatOps.addf (r i) (FloatOps.addf (a i) (b i))) k := rfl

/-- Equal contributions give equal sums. -/
theorem contrib_congr {a a' b b' : ι → F .f32} (ha : a = a') (hb : b = b') : contrib a b = contrib a' b' := by
  subst ha hb; rfl

/-- Equal contributions and equal old totals give equal new totals. -/
theorem total_congr (k : F .f32) {a a' b b' r r' : ι → F .f32} (ha : a = a') (hb : b = b') (hr : r = r') :
    total k a b r = total k a' b' r' := by
  subst ha hb hr; rfl

end Cert.Combine

end
-- ==== Proof.Layers.lean ====
/-
  The propagation as pure functions of the eighteen input arrays.
  Three embedding tables (users, items, categories) are propagated for three layers over five
  weighted relations. One relation's contribution to a node type is a sparse product: gather the
  rows of the source table at the edges' column indices (a negative index counted from the end),
  scale each gathered row by the edge's value, and add the rows up at the edges' row indices,
  starting from zero. A layer gives users the sum of the item and user contributions, items the sum
  of the user and category contributions, and categories the item contribution, all from the
  previous layer's tables. The outputs are the average of the four user tables (the input and the
  three layers'), the same average for items, and the last category table.
  Both programs compute the sparse products with the same host operations, so these definitions
  never need to be opened: the two sides are compared as terms over them.
-/
import proofs.«171393_j41704132444584_1_alg».proof.Proof.Gen.KernelIdeal
import Idealize.ShloMosaic.PureOps.Ideal
import proofs.«171393_j41704132444584_1_alg».proof.Proof.Combine

set_option maxRecDepth 16384

noncomputable section

namespace Cert.Propagate

open Cert.KernelIdeal Cert.KernelIdeal.Facts₀ Idealize.ShloMosaic

variable {F : FTy → Type} [FloatOps F]

/-- The inputs: the three embedding tables, the five relations' edge values, and each relation's
    row and column indices. -/
structure Inputs (F : FTy → Type) where
  user : (⟨S100000x64, .f32⟩ : BufTy).Contents (Elt F)
  item : (⟨S50000x64, .f32⟩ : BufTy).Contents (Elt F)
  cat : (⟨S1000x64, .f32⟩ : BufTy).Contents (Elt F)
  uiVals : (⟨S2000000, .f32⟩ : BufTy).Contents (Elt F)
  iuVals : (⟨S2000000, .f32⟩ : BufTy).Contents (Elt F)
  uuVals : (⟨S1000000, .f32⟩ : BufTy).Contents (Elt F)
  icVals : (⟨S150000, .f32⟩ : BufTy).Contents (Elt F)
  ciVals : (⟨S150000, .f32⟩ : BufTy).Contents (Elt F)
  uiRows : (⟨S2000000, .i32⟩ : BufTy).Contents (Elt F)
  uiCols : (⟨S2000000, .i32⟩ : BufTy).Contents (Elt F)
  iuRows : (⟨S2000000, .i32⟩ : BufTy).Contents (Elt F)
  iuCols : (⟨S2000000, .i32⟩ : BufTy).Contents (Elt F)
  uuRows : (⟨S1000000, .i32⟩ : BufTy).Contents (Elt F)
  uuCols : (⟨S1000000, .i32⟩ : BufTy).Contents (Elt F)
  icRows : (⟨S150000, .i32⟩ : BufTy).Contents (Elt F)
  icCols : (⟨S150000, .i32⟩ : BufTy).Contents (Elt F)
  ciRows : (⟨S150000, .i32⟩ : BufTy).Contents (Elt F)
  ciCols : (⟨S150000, .i32⟩ : BufTy).Contents (Elt F)

/-- The sparse product user ← item: gather item rows at the (wrapped) column indices, scale each by its edge value, add into the user rows. -/
def ui (g : Inputs F) (H : (⟨S50000x64, .f32⟩ : BufTy).Contents (Elt F)) : (⟨S100000x64, .f32⟩ : BufTy).Contents (Elt F) :=
  Host.scatterAdd scatter_S100000x64_S2000000x1_S2000000x64_1_0_0_1 (broadcastInDim S100000x64 ![] bcast_S_S100000x64 (constant (F := F) S_ .f32 0x00000000#32)) (broadcastInDim S2000000x1 ![0] bcast_S2000000_S2000000x1_0 g.uiRows) (mulf (broadcastInDim S2000000x64 ![0, 1] bcast_S2000000x1_S2000000x64_0_1 (broadcastInDim S2000000x1 ![0] bcast_S2000000_S2000000x1_0 g.uiVals)) (Host.gather gather_S50000x64_S2000000x1_S2000000x64_1_0_n_n_0_1_164 H (broadcastInDim S2000000x1 ![0] bcast_S2000000_S2000000x1_0 (select (cmpi .slt g.uiCols (broadcastInDim S2000000 ![] bcast_S_S2000000 (constantI S_ 32 0#32))) (addi g.uiCols (broadcastInDim S2000000 ![] bcast_S_S2000000 (constantI S_ 32 50000#32))) g.uiCols))))

/-- The sparse product user ← user. -/
def uu (g : Inputs F) (H : (⟨S100000x64, .f32⟩ : BufTy).Contents (Elt F)) : (⟨S100000x64, .f32⟩ : BufTy).Contents (Elt F) :=
  Host.scatterAdd scatter_S100000x64_S1000000x1_S1000000x64_1_0_0_1 (broadcastInDim S100000x64 ![] bcast_S_S100000x64 (constant (F := F) S_ .f32 0x00000000#32)) (broadcastInDim S1000000x1 ![0] bcast_S1000000_S1000000x1_0 g.uuRows) (mulf (broadcastInDim S1000000x64 ![0, 1] bcast_S1000000x1_S1000000x64_0_1 (broadcastInDim S1000000x1 ![0] bcast_S1000000_S1000000x1_0 g.uuVals)) (Host.gather gather_S100000x64_S1000000x1_S1000000x64_1_0_n_n_0_1_164 H (broadcastInDim S1000000x1 ![0] bcast_S1000000_S1000000x1_0 (select (cmpi .slt g.uuCols (broadcastInDim S1000000 ![] bcast_S_S1000000 (constantI S_ 32 0#32))) (addi g.uuCols (broadcastInDim S1000000 ![] bcast_S_S1000000 (constantI S_ 32 100000#32))) g.uuCols))))

/-- The sparse product item ← user. -/
def iu (g : Inputs F) (H : (⟨S100000x64, .f32⟩ : BufTy).Contents (Elt F)) : (⟨S50000x64, .f32⟩ : BufTy).Contents (Elt F) :=
  Host.scatterAdd scatter_S50000x64_S2000000x1_S2000000x64_1_0_0_1 (broadcastInDim S50000x64 ![] bcast_S_S50000x64 (constant (F := F) S_ .f32 0x00000000#32)) (broadcastInDim S2000000x1 ![0] bcast_S2000000_S2000000x1_0 g.iuRows) (mulf (broadcastInDim S2000000x64 ![0, 1] bcast_S2000000x1_S2000000x64_0_1 (broadcastInDim S2000000x1 ![0] bcast_S2000000_S2000000x1_0 g.iuVals)) (Host.gather gather_S100000x64_S2000000x1_S2000000x64_1_0_n_n_0_1_164 H (broadcastInDim S2000000x1 ![0] bcast_S2000000_S2000000x1_0 (select (cmpi .slt g.iuCols (broadcastInDim S2000000 ![] bcast_S_S2000000 (constantI S_ 32 0#32))) (addi g.iuCols (broadcastInDim S2000000 ![] bcast_S_S2000000 (constantI S_ 32 100000#32))) g.iuCols))))

/-- The sparse product item ← category. -/
def ic (g : Inputs F) (H : (⟨S1000x64, .f32⟩ : BufTy).Contents (Elt F)) : (⟨S50000x64, .f32⟩ : BufTy).Contents (Elt F) :=
  Host.scatterAdd scatter_S50000x64_S150000x1_S150000x64_1_0_0_1 (broadcastInDim S50000x64 ![] bcast_S_S50000x64 (constant (F := F) S_ .f32 0x00000000#32)) (broadcastInDim S150000x1 ![0] bcast_S150000_S150000x1_0 g.icRows) (mulf (broadcastInDim S150000x64 ![0, 1] bcast_S150000x1_S150000x64_0_1 (broadcastInDim S150000x1 ![0] bcast_S150000_S150000x1_0 g.icVals)) (Host.gather gather_S1000x64_S150000x1_S150000x64_1_0_n_n_0_1_164 H (broadcastInDim S150000x1 ![0] bcast_S150000_S150000x1_0 (select (cmpi .slt g.icCols (broadcastInDim S150000 ![] bcast_S_S150000 (constantI S_ 32 0#32))) (addi g.icCols (broadcastInDim S150000 ![] bcast_S_S150000 (constantI S_ 32 1000#32))) g.icCols))))

/-- The sparse product category ← item. -/
def ci (g : Inputs F) (H : (⟨S50000x64, .f32⟩ : BufTy).Contents (Elt F)) : (⟨S1000x64, .f32⟩ : BufTy).Contents (Elt F) :=
  Host.scatterAdd scatter_S1000x64_S150000x1_S150000x64_1_0_0_1 (broadcastInDim S1000x64 ![] bcast_S_S1000x64 (constant (F := F) S_ .f32 0x00000000#32)) (broadcastInDim S150000x1 ![0] bcast_S150000_S150000x1_0 g.ciRows) (mulf (broadcastInDim S150000x64 ![0, 1] bcast_S150000x1_S150000x64_0_1 (broadcastInDim S150000x1 ![0] bcast_S150000_S150000x1_0 g.ciVals)) (Host.gather gather_S50000x64_S150000x1_S150000x64_1_0_n_n_0_1_164 H (broadcastInDim S150000x1 ![0] bcast_S150000_S150000x1_0 (select (cmpi .slt g.ciCols (broadcastInDim S150000 ![] bcast_S_S150000 (constantI S_ 32 0#32))) (addi g.ciCols (broadcastInDim S150000 ![] bcast_S_S150000 (constantI S_ 32 50000#32))) g.ciCols))))

/-- A layer's user table: the item contribution plus the user contribution. -/
def stepUser (g : Inputs F) (hu : (⟨S100000x64, .f32⟩ : BufTy).Contents (Elt F)) (hi : (⟨S50000x64, .f32⟩ : BufTy).Contents (Elt F)) : (⟨S100000x64, .f32⟩ : BufTy).Contents (Elt F) :=
  addf (ui g hi) (uu g hu)

/-- A layer's item table: the user contribution plus the category contribution. -/
def stepItem (g : Inputs F) (hu : (⟨S100000x64, .f32⟩ : BufTy).Contents (Elt F)) (hc : (⟨S1000x64, .f32⟩ : BufTy).Contents (Elt F)) : (⟨S50000x64, .f32⟩ : BufTy).Contents (Elt F) :=
  addf (iu g hu) (ic g hc)

/-! The tables after each of the three layers. -/
def user1 (g : Inputs F) := stepUser g g.user g.item
def item1 (g : Inputs F) := stepItem g g.user g.cat
def cat1 (g : Inputs F) := ci g g.item
def user2 (g : Inputs F) := stepUser g (user1 g) (item1 g)
def item2 (g : Inputs F) := stepItem g (user1 g) (cat1 g)
def cat2 (g : Inputs F) := ci g (item1 g)
def user3 (g : Inputs F) := stepUser g (user2 g) (item2 g)
def item3 (g : Inputs F) := stepItem g (user2 g) (cat2 g)
def cat3 (g : Inputs F) := ci g (item2 g)

/-- The user output: a quarter of the sum of the four user tables, added up in layer order. -/
def outUser (g : Inputs F) : (⟨S100000x64, .f32⟩ : BufTy).Contents (Elt F) :=
  mulf (addf (addf (addf g.user (user1 g)) (user2 g)) (user3 g)) (broadcastInDim S100000x64 ![] bcast_S_S100000x64 (constant (F := F) S_ .f32 0x3E800000#32))

/-- The item output: a quarter of the sum of the four item tables, added up in layer order. -/
def outItem (g : Inputs F) : (⟨S50000x64, .f32⟩ : BufTy).Contents (Elt F) :=
  mulf (addf (addf (addf g.item (item1 g)) (item2 g)) (item3 g)) (broadcastInDim S50000x64 ![] bcast_S_S50000x64 (constant (F := F) S_ .f32 0x3E800000#32))

/-- The category output: the last category table. -/
def outCat (g : Inputs F) : (⟨S1000x64, .f32⟩ : BufTy).Contents (Elt F) := cat3 g

/-! The running totals as a tiled program accumulates them: each layer's total is the previous total
    plus that layer's table, times that layer's scalar (the word of 1.0 twice, then the word of 0.25). -/
def total1User (g : Inputs F) : (⟨S100000x64, .f32⟩ : BufTy).Contents (Elt F) := Cert.Combine.total (ι := S100000x64.Idx) (Scalar.ofBits (F := F) .f32 0x3F800000#32) (ui g g.item) (uu g g.user) (g.user)
def total2User (g : Inputs F) : (⟨S100000x64, .f32⟩ : BufTy).Contents (Elt F) := Cert.Combine.total (ι := S100000x64.Idx) (Scalar.ofBits (F := F) .f32 0x3F800000#32) (ui g (item1 g)) (uu g (user1 g)) (total1User g)
def total3User (g : Inputs F) : (⟨S100000x64, .f32⟩ : BufTy).Contents (Elt F) := Cert.Combine.total (ι := S100000x64.Idx) (Scalar.ofBits (F := F) .f32 0x3E800000#32) (ui g (item2 g)) (uu g (user2 g)) (total2User g)
def total1Item (g : Inputs F) : (⟨S50000x64, .f32⟩ : BufTy).Contents (Elt F) := Cert.Combine.total (ι := S50000x64.Idx) (Scalar.ofBits (F := F) .f32 0x3F800000#32) (iu g g.user) (ic g g.cat) (g.item)
def total2Item (g : Inputs F) : (⟨S50000x64, .f32⟩ : BufTy).Contents (Elt F) := Cert.Combine.total (ι := S50000x64.Idx) (Scalar.ofBits (F := F) .f32 0x3F800000#32) (iu g (user1 g)) (ic g (cat1 g)) (total1Item g)
def total3Item (g : Inputs F) : (⟨S50000x64, .f32⟩ : BufTy).Contents (Elt F) := Cert.Combine.total (ι := S50000x64.Idx) (Scalar.ofBits (F := F) .f32 0x3E800000#32) (iu g (user2 g)) (ic g (cat2 g)) (total2Item g)

end Cert.Propagate

end
-- ==== Proof.Written.lean ====
/-
  What the three stretches of host operations write.
  Each stretch is eighty operations, each writing its own result buffer and nothing else. A buffer
  that is not among a stretch's eighty results therefore holds after the stretch what it held before.
  This is how the input arrays, and the running totals carried past a stretch, are read through it.
-/
import proofs.«171393_j41704132444584_1_alg».proof.Proof.Gen.KernelIdeal.Launch
import Idealize.ShloMosaic.Lib.StableHlo.Run

set_option maxRecDepth 16384

noncomputable section

namespace Cert.KernelIdeal.Written

open Cert.KernelIdeal Cert.KernelIdeal.Gen Idealize.ShloMosaic Idealize.ShloMosaic.TcCoe Idealize.SL.Sem Idealize.ShloMosaic.StableHlo

variable {F : FTy → Type} [FloatOps F]

/-- The result buffers of the first stretch, in order. -/
abbrev results0 : List (Ref sig .tc) := [main_v0, main_c, main_v1, main_v2, main_c_0, main_v3, main_v4, main_v5, main_v6, main_v7, main_v8, main_v9, main_cst, main_v10, main_v11, main_v12, main_v13, main_c_1, main_v14, main_v15, main_c_2, main_v16, main_v17, main_v18, main_v19, main_v20, main_v21, main_v22, main_cst_3, main_v23, main_v24, main_v25, main_v26, main_c_4, main_v27, main_v28, main_c_5, main_v29, main_v30, main_v31, main_v32, main_v33, main_v34, main_v35, main_cst_6, main_v36, main_v37, main_v38, main_v39, main_c_7, main_v40, main_v41, main_c_8, main_v42, main_v43, main_v44, main_v45, main_v46, main_v47, main_v48, main_cst_9, main_v49, main_v50, main_v51, main_v52, main_c_10, main_v53, main_v54, main_c_11, main_v55, main_v56, main_v57, main_v58, main_v59, main_v60, main_v61, main_cst_12, main_v62, main_v63, main_v64]

set_option maxHeartbeats 4000000 in
/-- Each of its operations writes only its own result. -/
theorem writes0 : (hostOps0 : List (HloOp τ sig (Elt F))).Forall fun op => op.writes ⊆ (results0.map (Proc.devRef (τ := τ) .tc)).toFinset := by
  simp only [hostOps0, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide))

/-- A buffer that is not one of its results is unchanged by the stretch. -/
theorem kept0 (V : Valuation τ sig (Elt F)) (r : Ref sig .tc) (h : r ∉ results0) :
    after hostOps0 V (Proc.devRef .tc r) = V (Proc.devRef .tc r) :=
  after_of_writes_sub hostOps0 V writes0 h

/-- The result buffers of the second stretch, in order. -/
abbrev results2 : List (Ref sig .tc) := [main_v67, main_c_13, main_v68, main_v69, main_c_14, main_v70, main_v71, main_v72, main_v73, main_v74, main_v75, main_v76, main_cst_15, main_v77, main_v78, main_v79, main_v80, main_c_16, main_v81, main_v82, main_c_17, main_v83, main_v84, main_v85, main_v86, main_v87, main_v88, main_v89, main_cst_18, main_v90, main_v91, main_v92, main_v93, main_c_19, main_v94, main_v95, main_c_20, main_v96, main_v97, main_v98, main_v99, main_v100, main_v101, main_v102, main_cst_21, main_v103, main_v104, main_v105, main_v106, main_c_22, main_v107, main_v108, main_c_23, main_v109, main_v110, main_v111, main_v112, main_v113, main_v114, main_v115, main_cst_24, main_v116, main_v117, main_v118, main_v119, main_c_25, main_v120, main_v121, main_c_26, main_v122, main_v123, main_v124, main_v125, main_v126, main_v127, main_v128, main_cst_27, main_v129, main_v130, main_v131]

set_option maxHeartbeats 4000000 in
/-- Each of its operations writes only its own result. -/
theorem writes2 : (hostOps2 : List (HloOp τ sig (Elt F))).Forall fun op => op.writes ⊆ (results2.map (Proc.devRef (τ := τ) .tc)).toFinset := by
  simp only [hostOps2, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide))

/-- A buffer that is not one of its results is unchanged by the stretch. -/
theorem kept2 (V : Valuation τ sig (Elt F)) (r : Ref sig .tc) (h : r ∉ results2) :
    after hostOps2 V (Proc.devRef .tc r) = V (Proc.devRef .tc r) :=
  after_of_writes_sub hostOps2 V writes2 h

/-- The result buffers of the third stretch, in order. -/
abbrev results4 : List (Ref sig .tc) := [main_v134, main_c_28, main_v135, main_v136, main_c_29, main_v137, main_v138, main_v139, main_v140, main_v141, main_v142, main_v143, main_cst_30, main_v144, main_v145, main_v146, main_v147, main_c_31, main_v148, main_v149, main_c_32, main_v150, main_v151, main_v152, main_v153, main_v154, main_v155, main_v156, main_cst_33, main_v157, main_v158, main_v159, main_v160, main_c_34, main_v161, main_v162, main_c_35, main_v163, main_v164, main_v165, main_v166, main_v167, main_v168, main_v169, main_cst_36, main_v170, main_v171, main_v172, main_v173, main_c_37, main_v174, main_v175, main_c_38, main_v176, main_v177, main_v178, main_v179, main_v180, main_v181, main_v182, main_cst_39, main_v183, main_v184, main_v185, main_v186, main_c_40, main_v187, main_v188, main_c_41, main_v189, main_v190, main_v191, main_v192, main_v193, main_v194, main_v195, main_cst_42, main_v196, main_v197, main_v198]

set_option maxHeartbeats 4000000 in
/-- Each of its operations writes only its own result. -/
theorem writes4 : (hostOps4 : List (HloOp τ sig (Elt F))).Forall fun op => op.writes ⊆ (results4.map (Proc.devRef (τ := τ) .tc)).toFinset := by
  simp only [hostOps4, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide))

/-- A buffer that is not one of its results is unchanged by the stretch. -/
theorem kept4 (V : Valuation τ sig (Elt F)) (r : Ref sig .tc) (h : r ∉ results4) :
    after hostOps4 V (Proc.devRef .tc r) = V (Proc.devRef .tc r) :=
  after_of_writes_sub hostOps4 V writes4 h

end Cert.KernelIdeal.Written

end
-- ==== Proof.Slabs0.lean ====
/-
  The combine step of region 0, read as two whole-array functions.
  The region tiles its arrays into slabs of 2000 rows and all 64 columns: grid point `t` works on rows
  `2000·t … 2000·t + 1999` of every one of its five arrays. On a slab it stores `a + b` into its
  fourth array and `(r + (a + b)) · k` into its fifth, where `k` is the scalar with the word of 1.0. Both are
  pointwise, every input slab sits at the same rows as the output slab, and the 50 slabs cover the
  100000 rows, so after the region the fourth array is `a + b` and the fifth is `(r + (a + b)) · k`
  of the whole arrays as the region found them, whatever those contents are.
-/
import proofs.«171393_j41704132444584_1_alg».proof.Proof.Gen.KernelIdeal.Frame
import proofs.«171393_j41704132444584_1_alg».proof.Proof.Combine
import Idealize.ShloMosaic.Lib.Pipeline.Value

set_option maxRecDepth 16384

noncomputable section

namespace Cert.KernelIdeal.Slabs0

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The body's one load and its two stores go through the whole staging buffer: the offset is the origin. -/
theorem origin : (![0, 0] : Fin 2 → Nat) = fun _ => 0 := funext fun a => by fin_cases a <;> rfl

/-- The first store's value: the sum of the two loaded contributions (the same-shape casts are the identity). -/
theorem stored_contrib (x0 x1 : Vec F S2000x64 .f32) : k0_pay1 x0 x1 = Cert.Combine.contrib x0 x1 := by
  unfold k0_pay1
  simp only [shapeCast_self]
  rfl

/-- The second store's value: the loaded running total plus that sum, times the scalar. -/
theorem stored_total (x0 x1 x2 : Vec F S2000x64 .f32) :
    k0_pay2 x0 x1 x2 = Cert.Combine.total (Scalar.ofBits .f32 0x3F800000#32) x0 x1 x2 := by
  unfold k0_pay2
  simp only [shapeCast_self, stored_contrib]
  rfl

/-- Every window's block at point `t` is slab `t`: block row `t`, block column 0 (decided over the grid). -/
theorem slab_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## The fourth array: the sum of the two contributions -/

/-- What point `t` writes back to the fourth array is slab `t` of `a + b`. -/
theorem flushed_contrib (c : Dev nD) (t : Fin cfg0.N) :
    (dat0 V c).flushed 3 t = ((cfg0.win 3).blk t).view.read (Elt F) (Cert.Combine.contrib (V c main_v12) (V c main_v25)) := by
  show (cfg0.win 3).cut (grid0.coords t) ((dat0 V c).after 3 t) = _
  rw [after0_3]
  unfold out0_3
  rw [View.canon_unit_zero origin]
  simp only [View.ld_unit_zero (S := S2000x64) origin]
  rw [stored_contrib]
  obtain ⟨a0, a1, b0, b1, r0, r1, p0, p1, q0, q1⟩ := slab_index t
  funext j
  show FloatOps.addf (V c main_v12 (((cfg0.win 0).blk t).view.emb j)) (V c main_v25 (((cfg0.win 1).blk t).view.emb j))
    = FloatOps.addf (V c main_v12 (((cfg0.win 3).blk t).view.emb j)) (V c main_v25 (((cfg0.win 3).blk t).view.emb j))
  have h0 : ((cfg0.win 0).blk t).view.emb j = ((cfg0.win 3).blk t).view.emb j := by
    funext a; apply Fin.ext
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 64 + 1 * (j 1).val = win0_3.index t (1 : Fin 2) * 64 + 1 * (j 1).val; omega
  have h1 : ((cfg0.win 1).blk t).view.emb j = ((cfg0.win 3).blk t).view.emb j := by
    funext a; apply Fin.ext
    match a with
    | ⟨0, _⟩ => show win0_1.index t (0 : Fin 2) * 2000 + 1 * (j 0).val = win0_3.index t (0 : Fin 2) * 2000 + 1 * (j 0).val; omega
    | ⟨1, _⟩ => show win0_1.index t (1 : Fin 2) * 64 + 1 * (j 1).val = win0_3.index t (1 : Fin 2) * 64 + 1 * (j 1).val; omega
  rw [h0, h1]

/-- An index of the array lies in point `t`'s block of output 3 exactly when each coordinate lies in the block's range. -/
theorem mem_tile3 (t : Fin cfg0.N) (i : S100000x64.Idx) :
    i ∈ ((cfg0.win 3).blk t).view.set ↔ ∀ a : Fin 2, win0_3.index t a * S2000x64.size a ≤ (i a).val ∧ (i a).val < win0_3.index t a * S2000x64.size a + S2000x64.size a := by
  show i ∈ ((View.whole main_v65_0).slice (win0_3.rect t)).set ↔ _
  rw [View.set_slice_whole, Rect.mem_set_unit]
  exact Iff.rfl

/-- The slabs cover the array: row `r` lies in the slab of point `r / 2000`. -/
theorem cover3 (i : S100000x64.Idx) :
    ∃ t : Fin cfg0.N, (cfg0.win 3).flush t = true ∧ i ∈ ((cfg0.win 3).blk t).view.set := by
  have hN : grid0.N = 50 := N_0
  have hi0 : (i 0).val < 100000 := (i 0).isLt
  have hi1 : (i 1).val < 64 := (i 1).isLt
  have hlt : (i 0).val / 2000 < grid0.N := by omega
  obtain ⟨a0, a1, b0, b1, r0, r1, p0, p1, q0, q1⟩ := slab_index (⟨(i 0).val / 2000, hlt⟩ : Fin cfg0.N)
  have hv : ((⟨(i 0).val / 2000, hlt⟩ : Fin cfg0.N)).val = (i 0).val / 2000 := rfl
  refine ⟨⟨(i 0).val / 2000, hlt⟩, flush0_3 _, ?_⟩
  rw [mem_tile3]
  intro a
  match a with
  | ⟨0, _⟩ =>
    show win0_3.index _ (0 : Fin 2) * 2000 ≤ (i 0).val ∧ (i 0).val < win0_3.index _ (0 : Fin 2) * 2000 + 2000
    omega
  | ⟨1, _⟩ =>
    show win0_3.index _ (1 : Fin 2) * 64 ≤ (i 1).val ∧ (i 1).val < win0_3.index _ (1 : Fin 2) * 64 + 64
    omega

/-- After the region the fourth array holds `a + b` of the arrays the region found. -/
theorem array_contrib (c : Dev nD) :
    (dat0 V c).arrAt 3 cfg0.N = Cert.Combine.contrib (V c main_v12) (V c main_v25) :=
  (dat0 V c).arrAt_eq_of_cover 3 _ (fun t _ => flushed_contrib V c t) cover3

/-! ## The fifth array: the new running total -/

/-- What point `t` writes back to the fifth array is slab `t` of `(r + (a + b)) · k`. -/
theorem flushed_total (c : Dev nD) (t : Fin cfg0.N) :
    (dat0 V c).flushed 4 t = ((cfg0.win 4).blk t).view.read (Elt F)
      (Cert.Combine.total (Scalar.ofBits .f32 0x3F800000#32) (V c main_v12) (V c main_v25) (V c main_arg0)) := by
  show (cfg0.win 4).cut (grid0.coords t) ((dat0 V c).after 4 t) = _
  rw [after0_4]
  unfold out0_4
  rw [View.canon_unit_zero origin]
  simp only [View.ld_unit_zero (S := S2000x64) origin]
  rw [stored_total]
  obtain ⟨a0, a1, b0, b1, r0, r1, p0, p1, q0, q1⟩ := slab_index t
  funext j
  show FloatOps.mulf (FloatOps.addf (V c main_arg0 (((cfg0.win 2).blk t).view.emb j))
        (FloatOps.addf (V c main_v12 (((cfg0.win 0).blk t).view.emb j)) (V c main_v25 (((cfg0.win 1).blk t).view.emb j)))) (Scalar.ofBits .f32 0x3F800000#32)
    = FloatOps.mulf (FloatOps.addf (V c main_arg0 (((cfg0.win 4).blk t).view.emb j))
        (FloatOps.addf (V c main_v12 (((cfg0.win 4).blk t).view.emb j)) (V c main_v25 (((cfg0.win 4).blk t).view.emb j)))) (Scalar.ofBits .f32 0x3F800000#32)
  have h0 : ((cfg0.win 0).blk t).view.emb j = ((cfg0.win 4).blk t).view.emb j := by
    funext a; apply Fin.ext
    match a with
    | ⟨0, _⟩ => show win0_0.index t (0 : Fin 2) * 2000 + 1 * (j 0).val = win0_4.index t (0 : Fin 2) * 2000 + 1 * (j 0).val; omega
    | ⟨1, _⟩ => show win0_0.index t (1 : Fin 2) * 64 + 1 * (j 1).val = win0_4.index t (1 : Fin 2) * 64 + 1 * (j 1).val; omega
  have h1 : ((cfg0.win 1).blk t).view.emb j = ((cfg0.win 4).blk t).view.emb j := by
    funext a; apply Fin.ext
    match a with
    | ⟨0, _⟩ => show win0_1.index t (0 : Fin 2) * 2000 + 1 * (j 0).val = win0_4.index t (0 : Fin 2) * 2000 + 1 * (j 0).val; omega
    | ⟨1, _⟩ => show win0_1.index t (1 : Fin 2) * 64 + 1 * (j 1).val = win0_4.index t (1 : Fin 2) * 64 + 1 * (j 1).val; omega
  have h2 : ((cfg0.win 2).blk t).view.emb j = ((cfg0.win 4).blk t).view.emb j := by
    funext a; apply Fin.ext
    match a with
    | ⟨0, _⟩ => show win0_2.index t (0 : Fin 2) * 2000 + 1 * (j 0).val = win0_4.index t (0 : Fin 2) * 2000 + 1 * (j 0).val; omega
    | ⟨1, _⟩ => show win0_2.index t (1 : Fin 2) * 64 + 1 * (j 1).val = win0_4.index t (1 : Fin 2) * 64 + 1 * (j 1).val; omega
  rw [h0, h1, h2]

/-- An index of the array lies in point `t`'s block of output 4 exactly when each coordinate lies in the block's range. -/
theorem mem_tile4 (t : Fin cfg0.N) (i : S100000x64.Idx) :
    i ∈ ((cfg0.win 4).blk t).view.set ↔ ∀ a : Fin 2, win0_4.index t a * S2000x64.size a ≤ (i a).val ∧ (i a).val < win0_4.index t a * S2000x64.size a + S2000x64.size a := by
  show i ∈ ((View.whole main_v65_1).slice (win0_4.rect t)).set ↔ _
  rw [View.set_slice_whole, Rect.mem_set_unit]
  exact Iff.rfl

/-- The slabs cover the array: row `r` lies in the slab of point `r / 2000`. -/
theorem cover4 (i : S100000x64.Idx) :
    ∃ t : Fin cfg0.N, (cfg0.win 4).flush t = true ∧ i ∈ ((cfg0.win 4).blk t).view.set := by
  have hN : grid0.N = 50 := N_0
  have hi0 : (i 0).val < 100000 := (i 0).isLt
  have hi1 : (i 1).val < 64 := (i 1).isLt
  have hlt : (i 0).val / 2000 < grid0.N := by omega
  obtain ⟨a0, a1, b0, b1, r0, r1, p0, p1, q0, q1⟩ := slab_index (⟨(i 0).val / 2000, hlt⟩ : Fin cfg0.N)
  have hv : ((⟨(i 0).val / 2000, hlt⟩ : Fin cfg0.N)).val = (i 0).val / 2000 := rfl
  refine ⟨⟨(i 0).val / 2000, hlt⟩, flush0_4 _, ?_⟩
  rw [mem_tile4]
  intro a
  match a with
  | ⟨0, _⟩ =>
    show win0_4.index _ (0 : Fin 2) * 2000 ≤ (i 0).val ∧ (i 0).val < win0_4.index _ (0 : Fin 2) * 2000 + 2000
    omega
  | ⟨1, _⟩ =>
    show win0_4.index _ (1 : Fin 2) * 64 ≤ (i 1).val ∧ (i 1).val < win0_4.index _ (1 : Fin 2) * 64 + 64
    omega

/-- After the region the fifth array holds `(r + (a + b)) · k` of the arrays the region found. -/
theorem array_total (c : Dev nD) :
    (dat0 V c).arrAt 4 cfg0.N = Cert.Combine.total (Scalar.ofBits .f32 0x3F800000#32) (V c main_v12) (V c main_v25) (V c main_arg0) :=
  (dat0 V c).arrAt_eq_of_cover 4 _ (fun t _ => flushed_total V c t) cover4

end Cert.KernelIdeal.Slabs0

end
-- ==== Proof.Slabs1.lean ====
/-
  The combine step of region 1, read as two whole-array functions.
  The region tiles its arrays into slabs of 2000 rows and all 64 columns: grid point `t` works on rows
  `2000·t … 2000·t + 1999` of every one of its five arrays. On a slab it stores `a + b` into its
  fourth array and `(r + (a + b)) · k` into its fifth, where `k` is the scalar with the word of 1.0. Both are
  pointwise, every input slab sits at the same rows as the output slab, and the 25 slabs cover the
  50000 rows, so after the region the fourth array is `a + b` and the fifth is `(r + (a + b)) · k`
  of the whole arrays as the region found them, whatever those contents are.
-/
import proofs.«171393_j41704132444584_1_alg».proof.Proof.Gen.KernelIdeal.Frame
import proofs.«171393_j41704132444584_1_alg».proof.Proof.Combine
import Idealize.ShloMosaic.Lib.Pipeline.Value

set_option maxRecDepth 16384

noncomputable section

namespace Cert.KernelIdeal.Slabs1

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The body's one load and its two stores go through the whole staging buffer: the offset is the origin. -/
theorem origin : (![0, 0] : Fin 2 → Nat) = fun _ => 0 := funext fun a => by fin_cases a <;> rfl

/-- The first store's value: the sum of the two loaded contributions (the same-shape casts are the identity). -/
theorem stored_contrib (x0 x1 : Vec F S2000x64 .f32) : k1_pay1 x0 x1 = Cert.Combine.contrib x0 x1 := by
  unfold k1_pay1
  simp only [shapeCast_self]
  rfl

/-- The second store's value: the loaded running total plus that sum, times the scalar. -/
theorem stored_total (x0 x1 x2 : Vec F S2000x64 .f32) :
    k1_pay2 x0 x1 x2 = Cert.Combine.total (Scalar.ofBits .f32 0x3F800000#32) x0 x1 x2 := by
  unfold k1_pay2
  simp only [shapeCast_self, stored_contrib]
  rfl

/-- Every window's block at point `t` is slab `t`: block row `t`, block column 0 (decided over the grid). -/
theorem slab_index : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-! ## The fourth array: the sum of the two contributions -/

/-- What point `t` writes back to the fourth array is slab `t` of `a + b`. -/
theorem flushed_contrib (c : Dev nD) (t : Fin cfg1.N) :
    (dat1 V c).flushed 3 t = ((cfg1.win 3).blk t).view.read (Elt F) (Cert.Combine.contrib (V c main_v38) (V c main_v51)) := by
  show (cfg1.win 3).cut (grid1.coords t) ((dat1 V c).after 3 t) = _
  rw [after1_3]
  unfold out1_3
  rw [View.canon_unit_zero origin]
  simp only [View.ld_unit_zero (S := S2000x64) origin]
  rw [stored_contrib]
  obtain ⟨a0, a1, b0, b1, r0, r1, p0, p1, q0, q1⟩ := slab_index t
  funext j
  show FloatOps.addf (V c main_v38 (((cfg1.win 0).blk t).view.emb j)) (V c main_v51 (((cfg1.win 1).blk t).view.emb j))
    = FloatOps.addf (V c main_v38 (((cfg1.win 3).blk t).view.emb j)) (V c main_v51 (((cfg1.win 3).blk t).view.emb j))
  have h0 : ((cfg1.win 0).blk t).view.emb j = ((cfg1.win 3).blk t).view.emb j := by
    funext a; apply Fin.ext
    match a with
    | ⟨0, _⟩ => show win1_0.index t (0 : Fin 2) * 2000 + 1 * (j 0).val = win1_3.index t (0 : Fin 2) * 2000 + 1 * (j 0).val; omega
    | ⟨1, _⟩ => show win1_0.index t (1 : Fin 2) * 64 + 1 * (j 1).val = win1_3.index t (1 : Fin 2) * 64 + 1 * (j 1).val; omega
  have h1 : ((cfg1.win 1).blk t).view.emb j = ((cfg1.win 3).blk t).view.emb j := by
    funext a; apply Fin.ext
    match a with
    | ⟨0, _⟩ => show win1_1.index t (0 : Fin 2) * 2000 + 1 * (j 0).val = win1_3.index t (0 : Fin 2) * 2000 + 1 * (j 0).val; omega
    | ⟨1, _⟩ => show win1_1.index t (1 : Fin 2) * 64 + 1 * (j 1).val = win1_3.index t (1 : Fin 2) * 64 + 1 * (j 1).val; omega
  rw [h0, h1]

/-- An index of the array lies in point `t`'s block of output 3 exactly when each coordinate lies in the block's range. -/
theorem mem_tile3 (t : Fin cfg1.N) (i : S50000x64.Idx) :
    i ∈ ((cfg1.win 3).blk t).view.set ↔ ∀ a : Fin 2, win1_3.index t a * S2000x64.size a ≤ (i a).val ∧ (i a).val < win1_3.index t a * S2000x64.size a + S2000x64.size a := by
  show i ∈ ((View.whole main_v66_0).slice (win1_3.rect t)).set ↔ _
  rw [View.set_slice_whole, Rect.mem_set_unit]
  exact Iff.rfl

/-- The slabs cover the array: row `r` lies in the slab of point `r / 2000`. -/
theorem cover3 (i : S50000x64.Idx) :
    ∃ t : Fin cfg1.N, (cfg1.win 3).flush t = true ∧ i ∈ ((cfg1.win 3).blk t).view.set := by
  have hN : grid1.N = 25 := N_1
  have hi0 : (i 0).val < 50000 := (i 0).isLt
  have hi1 : (i 1).val < 64 := (i 1).isLt
  have hlt : (i 0).val / 2000 < grid1.N := by omega
  obtain ⟨a0, a1, b0, b1, r0, r1, p0, p1, q0, q1⟩ := slab_index (⟨(i 0).val / 2000, hlt⟩ : Fin cfg1.N)
  have hv : ((⟨(i 0).val / 2000, hlt⟩ : Fin cfg1.N)).val = (i 0).val / 2000 := rfl
  refine ⟨⟨(i 0).val / 2000, hlt⟩, flush1_3 _, ?_⟩
  rw [mem_tile3]
  intro a
  match a with
  | ⟨0, _⟩ =>
    show win1_3.index _ (0 : Fin 2) * 2000 ≤ (i 0).val ∧ (i 0).val < win1_3.index _ (0 : Fin 2) * 2000 + 2000
    omega
  | ⟨1, _⟩ =>
    show win1_3.index _ (1 : Fin 2) * 64 ≤ (i 1).val ∧ (i 1).val < win1_3.index _ (1 : Fin 2) * 64 + 64
    omega

/-- After the region the fourth array holds `a + b` of the arrays the region found. -/
theorem array_contrib (c : Dev nD) :
    (dat1 V c).arrAt 3 cfg1.N = Cert.Combine.contrib (V c main_v38) (V c main_v51) :=
  (dat1 V c).arrAt_eq_of_cover 3 _ (fun t _ => flushed_contrib V c t) cover3

/-! ## The fifth array: the new running total -/

/-- What point `t` writes back to the fifth array is slab `t` of `(r + (a + b)) · k`. -/
theorem flushed_total (c : Dev nD) (t : Fin cfg1.N) :
    (dat1 V c).flushed 4 t = ((cfg1.win 4).blk t).view.read (Elt F)
      (Cert.Combine.total (Scalar.ofBits .f32 0x3F800000#32) (V c main_v38) (V c main_v51) (V c main_arg1)) := by
  show (cfg1.win 4).cut (grid1.coords t) ((dat1 V c).after 4 t) = _
  rw [after1_4]
  unfold out1_4
  rw [View.canon_unit_zero origin]
  simp only [View.ld_unit_zero (S := S2000x64) origin]
  rw [stored_total]
  obtain ⟨a0, a1, b0, b1, r0, r1, p0, p1, q0, q1⟩ := slab_index t
  funext j
  show FloatOps.mulf (FloatOps.addf (V c main_arg1 (((cfg1.win 2).blk t).view.emb j))
        (FloatOps.addf (V c main_v38 (((cfg1.win 0).blk t).view.emb j)) (V c main_v51 (((cfg1.win 1).blk t).view.emb j)))) (Scalar.ofBits .f32 0x3F800000#32)
    = FloatOps.mulf (FloatOps.addf (V c main_arg1 (((cfg1.win 4).blk t).view.emb j))
        (FloatOps.addf (V c main_v38 (((cfg1.win 4).blk t).view.emb j)) (V c main_v51 (((cfg1.win 4).blk t).view.emb j)))) (Scalar.ofBits .f32 0x3F800000#32)
  have h0 : ((cfg1.win 0).blk t).view.emb j = ((cfg1.win 4).blk t).view.emb j := by
    funext a; apply Fin.ext
    match a with
    | ⟨0, _⟩ => show win1_0.index t (0 : Fin 2) * 2000 + 1 * (j 0).val = win1_4.index t (0 : Fin 2) * 2000 + 1 * (j 0).val; omega
    | ⟨1, _⟩ => show win1_0.index t (1 : Fin 2) * 64 + 1 * (j 1).val = win1_4.index t (1 : Fin 2) * 64 + 1 * (j 1).val; omega
  have h1 : ((cfg1.win 1).blk t).view.emb j = ((cfg1.win 4).blk t).view.emb j := by
    funext a; apply Fin.ext
    match a with
    | ⟨0, _⟩ => show win1_1.index t (0 : Fin 2) * 2000 + 1 * (j 0).val = win1_4.index t (0 : Fin 2) * 2000 + 1 * (j 0).val; omega
    | ⟨1, _⟩ => show win1_1.index t (1 : Fin 2) * 64 + 1 * (j 1).val = win1_4.index t (1 : Fin 2) * 64 + 1 * (j 1).val; omega
  have h2 : ((cfg1.win 2).blk t).view.emb j = ((cfg1.win 4).blk t).view.emb j := by
    funext a; apply Fin.ext
    match a with
    | ⟨0, _⟩ => show win1_2.index t (0 : Fin 2) * 2000 + 1 * (j 0).val = win1_4.index t (0 : Fin 2) * 2000 + 1 * (j 0).val; omega
    | ⟨1, _⟩ => show win1_2.index t (1 : Fin 2) * 64 + 1 * (j 1).val = win1_4.index t (1 : Fin 2) * 64 + 1 * (j 1).val; omega
  rw [h0, h1, h2]

/-- An index of the array lies in point `t`'s block of output 4 exactly when each coordinate lies in the block's range. -/
theorem mem_tile4 (t : Fin cfg1.N) (i : S50000x64.Idx) :
    i ∈ ((cfg1.win 4).blk t).view.set ↔ ∀ a : Fin 2, win1_4.index t a * S2000x64.size a ≤ (i a).val ∧ (i a).val < win1_4.index t a * S2000x64.size a + S2000x64.size a := by
  show i ∈ ((View.whole main_v66_1).slice (win1_4.rect t)).set ↔ _
  rw [View.set_slice_whole, Rect.mem_set_unit]
  exact Iff.rfl

/-- The slabs cover the array: row `r` lies in the slab of point `r / 2000`. -/
theorem cover4 (i : S50000x64.Idx) :
    ∃ t : Fin cfg1.N, (cfg1.win 4).flush t = true ∧ i ∈ ((cfg1.win 4).blk t).view.set := by
  have hN : grid1.N = 25 := N_1
  have hi0 : (i 0).val < 50000 := (i 0).isLt
  have hi1 : (i 1).val < 64 := (i 1).isLt
  have hlt : (i 0).val / 2000 < grid1.N := by omega
  obtain ⟨a0, a1, b0, b1, r0, r1, p0, p1, q0, q1⟩ := slab_index (⟨(i 0).val / 2000, hlt⟩ : Fin cfg1.N)
  have hv : ((⟨(i 0).val / 2000, hlt⟩ : Fin cfg1.N)).val = (i 0).val / 2000 := rfl
  refine ⟨⟨(i 0).val / 2000, hlt⟩, flush1_4 _, ?_⟩
  rw [mem_tile4]
  intro a
  match a with
  | ⟨0, _⟩ =>
    show win1_4.index _ (0 : Fin 2) * 2000 ≤ (i 0).val ∧ (i 0).val < win1_4.index _ (0 : Fin 2) * 2000 + 2000
    omega
  | ⟨1, _⟩ =>
    show win1_4.index _ (1 : Fin 2) * 64 ≤ (i 1).val ∧ (i 1).val < win1_4.index _ (1 : Fin 2) * 64 + 64
    omega

/-- After the region the fifth array holds `(r + (a + b)) · k` of the arrays the region found. -/
theorem array_total (c : Dev nD) :
    (dat1 V c).arrAt 4 cfg1.N = Cert.Combine.total (Scalar.ofBits .f32 0x3F800000#32) (V c main_v38) (V c main_v51) (V c main_arg1) :=
  (dat1 V c).arrAt_eq_of_cover 4 _ (fun t _ => flushed_total V c t) cover4

end Cert.KernelIdeal.Slabs1

end
-- ==== Proof.Trace1.lean ====
/-
  The first layer, read off the program's run.
  After the first stretch of host operations the five result buffers hold the five sparse products
  of the input tables; the first region then leaves the users' new table and running total, the
  second the items'; the input arrays are untouched throughout. Each fact says what one buffer holds
  at one boundary between segments, as a function of the launched inputs.
-/
import proofs.«171393_j41704132444584_1_alg».proof.Proof.Gen.KernelIdeal.Frame
import proofs.«171393_j41704132444584_1_alg».proof.Proof.Layers
import proofs.«171393_j41704132444584_1_alg».proof.Proof.Written
import proofs.«171393_j41704132444584_1_alg».proof.Proof.Slabs0
import proofs.«171393_j41704132444584_1_alg».proof.Proof.Slabs1
import Idealize.ShloMosaic.Lib.StableHlo.Run

set_option maxRecDepth 16384

noncomputable section

namespace Cert.KernelIdeal.Trace

open Cert.KernelIdeal Cert.KernelIdeal.Gen Idealize.ShloMosaic Idealize.ShloMosaic.TcCoe Idealize.SL.Sem Idealize.ShloMosaic.StableHlo
open Cert.Propagate

variable {F : FTy → Type} [FloatOps F]
variable (m : (ℓ : Loc nD τ sig) → Buf (Elt F) ℓ) (ρ : Dev nD → PrngReg)

/-- The eighteen input arrays as launched on core `c`. -/
def inputs (c : Dev nD) : Inputs F where
  user := m ((c : Thread nD τ).loc main_arg0)
  item := m ((c : Thread nD τ).loc main_arg1)
  cat := m ((c : Thread nD τ).loc main_arg2)
  uiVals := m ((c : Thread nD τ).loc main_arg3)
  iuVals := m ((c : Thread nD τ).loc main_arg4)
  uuVals := m ((c : Thread nD τ).loc main_arg5)
  icVals := m ((c : Thread nD τ).loc main_arg6)
  ciVals := m ((c : Thread nD τ).loc main_arg7)
  uiRows := m ((c : Thread nD τ).loc main_arg8)
  uiCols := m ((c : Thread nD τ).loc main_arg9)
  iuRows := m ((c : Thread nD τ).loc main_arg10)
  iuCols := m ((c : Thread nD τ).loc main_arg11)
  uuRows := m ((c : Thread nD τ).loc main_arg12)
  uuCols := m ((c : Thread nD τ).loc main_arg13)
  icRows := m ((c : Thread nD τ).loc main_arg14)
  icCols := m ((c : Thread nD τ).loc main_arg15)
  ciRows := m ((c : Thread nD τ).loc main_arg16)
  ciCols := m ((c : Thread nD τ).loc main_arg17)

/-! ## After the first stretch of host operations -/

set_option maxHeartbeats 4000000 in
theorem at1_main_v12 (c : Dev nD) : W1 m ρ c (Proc.devRef .tc main_v12) = ui (inputs m c) (inputs m c).item := by
  show after hostOps0 (W0 m ρ c) (Proc.devRef .tc main_v12) = _
  simp only [hostOps0]
  after_results_simp
  rfl

set_option maxHeartbeats 4000000 in
theorem at1_main_v25 (c : Dev nD) : W1 m ρ c (Proc.devRef .tc main_v25) = uu (inputs m c) (inputs m c).user := by
  show after hostOps0 (W0 m ρ c) (Proc.devRef .tc main_v25) = _
  simp only [hostOps0]
  after_results_simp
  rfl

set_option maxHeartbeats 4000000 in
theorem at1_main_v38 (c : Dev nD) : W1 m ρ c (Proc.devRef .tc main_v38) = iu (inputs m c) (inputs m c).user := by
  show after hostOps0 (W0 m ρ c) (Proc.devRef .tc main_v38) = _
  simp only [hostOps0]
  after_results_simp
  rfl

set_option maxHeartbeats 4000000 in
theorem at1_main_v51 (c : Dev nD) : W1 m ρ c (Proc.devRef .tc main_v51) = ic (inputs m c) (inputs m c).cat := by
  show after hostOps0 (W0 m ρ c) (Proc.devRef .tc main_v51) = _
  simp only [hostOps0]
  after_results_simp
  rfl

set_option maxHeartbeats 4000000 in
theorem at1_main_v64 (c : Dev nD) : W1 m ρ c (Proc.devRef .tc main_v64) = cat1 (inputs m c) := by
  show after hostOps0 (W0 m ρ c) (Proc.devRef .tc main_v64) = _
  simp only [hostOps0]
  after_results_simp
  rfl

theorem at1_main_arg0 (c : Dev nD) : W1 m ρ c (Proc.devRef .tc main_arg0) = (inputs m c).user :=
  (Written.kept0 _ main_arg0 (by decide)).trans rfl

theorem at1_main_arg1 (c : Dev nD) : W1 m ρ c (Proc.devRef .tc main_arg1) = (inputs m c).item :=
  (Written.kept0 _ main_arg1 (by decide)).trans rfl

/-! ## After the users' first combine -/

theorem at2_main_v65_0 (c : Dev nD) : W2 m ρ c (Proc.devRef .tc main_v65_0) = user1 (inputs m c) :=
  (W2_arr m ρ c 3).trans ((Slabs0.array_contrib (V1 m ρ) c).trans
    (Cert.Combine.contrib_congr (at1_main_v12 m ρ c) (at1_main_v25 m ρ c)))

theorem at2_main_v65_1 (c : Dev nD) : W2 m ρ c (Proc.devRef .tc main_v65_1) = total1User (inputs m c) :=
  (W2_arr m ρ c 4).trans ((Slabs0.array_total (V1 m ρ) c).trans
    (Cert.Combine.total_congr _ (at1_main_v12 m ρ c) (at1_main_v25 m ρ c) (at1_main_arg0 m ρ c)))

theorem at2_main_v38 (c : Dev nD) : W2 m ρ c (Proc.devRef .tc main_v38) = iu (inputs m c) (inputs m c).user :=
  (W2_of_ne m ρ c main_v38 (by decide)).trans (at1_main_v38 m ρ c)

theorem at2_main_v51 (c : Dev nD) : W2 m ρ c (Proc.devRef .tc main_v51) = ic (inputs m c) (inputs m c).cat :=
  (W2_of_ne m ρ c main_v51 (by decide)).trans (at1_main_v51 m ρ c)

theorem at2_main_v64 (c : Dev nD) : W2 m ρ c (Proc.devRef .tc main_v64) = cat1 (inputs m c) :=
  (W2_of_ne m ρ c main_v64 (by decide)).trans (at1_main_v64 m ρ c)

theorem at2_main_arg1 (c : Dev nD) : W2 m ρ c (Proc.devRef .tc main_arg1) = (inputs m c).item :=
  (W2_of_ne m ρ c main_arg1 (by decide)).trans (at1_main_arg1 m ρ c)

/-! ## After the items' first combine -/

theorem at3_main_v65_0 (c : Dev nD) : W3 m ρ c (Proc.devRef .tc main_v65_0) = user1 (inputs m c) :=
  (W3_of_ne m ρ c main_v65_0 (by decide)).trans (at2_main_v65_0 m ρ c)

theorem at3_main_v65_1 (c : Dev nD) : W3 m ρ c (Proc.devRef .tc main_v65_1) = total1User (inputs m c) :=
  (W3_of_ne m ρ c main_v65_1 (by decide)).trans (at2_main_v65_1 m ρ c)

theorem at3_main_v66_0 (c : Dev nD) : W3 m ρ c (Proc.devRef .tc main_v66_0) = item1 (inputs m c) :=
  (W3_arr m ρ c 3).trans ((Slabs1.array_contrib (V2 m ρ) c).trans
    (Cert.Combine.contrib_congr (at2_main_v38 m ρ c) (at2_main_v51 m ρ c)))

theorem at3_main_v66_1 (c : Dev nD) : W3 m ρ c (Proc.devRef .tc main_v66_1) = total1Item (inputs m c) :=
  (W3_arr m ρ c 4).trans ((Slabs1.array_total (V2 m ρ) c).trans
    (Cert.Combine.total_congr _ (at2_main_v38 m ρ c) (at2_main_v51 m ρ c) (at2_main_arg1 m ρ c)))

theorem at3_main_v64 (c : Dev nD) : W3 m ρ c (Proc.devRef .tc main_v64) = cat1 (inputs m c) :=
  (W3_of_ne m ρ c main_v64 (by decide)).trans (at2_main_v64 m ρ c)

theorem at3_main_arg3 (c : Dev nD) : W3 m ρ c (Proc.devRef .tc main_arg3) = (inputs m c).uiVals :=
  (W3_of_ne m ρ c main_arg3 (by decide)).trans ((W2_of_ne m ρ c main_arg3 (by decide)).trans ((Written.kept0 _ main_arg3 (by decide)).trans rfl))

theorem at3_main_arg4 (c : Dev nD) : W3 m ρ c (Proc.devRef .tc main_arg4) = (inputs m c).iuVals :=
  (W3_of_ne m ρ c main_arg4 (by decide)).trans ((W2_of_ne m ρ c main_arg4 (by decide)).trans ((Written.kept0 _ main_arg4 (by decide)).trans rfl))

theorem at3_main_arg5 (c : Dev nD) : W3 m ρ c (Proc.devRef .tc main_arg5) = (inputs m c).uuVals :=
  (W3_of_ne m ρ c main_arg5 (by decide)).trans ((W2_of_ne m ρ c main_arg5 (by decide)).trans ((Written.kept0 _ main_arg5 (by decide)).trans rfl))

theorem at3_main_arg6 (c : Dev nD) : W3 m ρ c (Proc.devRef .tc main_arg6) = (inputs m c).icVals :=
  (W3_of_ne m ρ c main_arg6 (by decide)).trans ((W2_of_ne m ρ c main_arg6 (by decide)).trans ((Written.kept0 _ main_arg6 (by decide)).trans rfl))

theorem at3_main_arg7 (c : Dev nD) : W3 m ρ c (Proc.devRef .tc main_arg7) = (inputs m c).ciVals :=
  (W3_of_ne m ρ c main_arg7 (by decide)).trans ((W2_of_ne m ρ c main_arg7 (by decide)).trans ((Written.kept0 _ main_arg7 (by decide)).trans rfl))

theorem at3_main_arg8 (c : Dev nD) : W3 m ρ c (Proc.devRef .tc main_arg8) = (inputs m c).uiRows :=
  (W3_of_ne m ρ c main_arg8 (by decide)).trans ((W2_of_ne m ρ c main_arg8 (by decide)).trans ((Written.kept0 _ main_arg8 (by decide)).trans rfl))

theorem at3_main_arg9 (c : Dev nD) : W3 m ρ c (Proc.devRef .tc main_arg9) = (inputs m c).uiCols :=
  (W3_of_ne m ρ c main_arg9 (by decide)).trans ((W2_of_ne m ρ c main_arg9 (by decide)).trans ((Written.kept0 _ main_arg9 (by decide)).trans rfl))

theorem at3_main_arg10 (c : Dev nD) : W3 m ρ c (Proc.devRef .tc main_arg10) = (inputs m c).iuRows :=
  (W3_of_ne m ρ c main_arg10 (by decide)).trans ((W2_of_ne m ρ c main_arg10 (by decide)).trans ((Written.kept0 _ main_arg10 (by decide)).trans rfl))

theorem at3_main_arg11 (c : Dev nD) : W3 m ρ c (Proc.devRef .tc main_arg11) = (inputs m c).iuCols :=
  (W3_of_ne m ρ c main_arg11 (by decide)).trans ((W2_of_ne m ρ c main_arg11 (by decide)).trans ((Written.kept0 _ main_arg11 (by decide)).trans rfl))

theorem at3_main_arg12 (c : Dev nD) : W3 m ρ c (Proc.devRef .tc main_arg12) = (inputs m c).uuRows :=
  (W3_of_ne m ρ c main_arg12 (by decide)).trans ((W2_of_ne m ρ c main_arg12 (by decide)).trans ((Written.kept0 _ main_arg12 (by decide)).trans rfl))

theorem at3_main_arg13 (c : Dev nD) : W3 m ρ c (Proc.devRef .tc main_arg13) = (inputs m c).uuCols :=
  (W3_of_ne m ρ c main_arg13 (by decide)).trans ((W2_of_ne m ρ c main_arg13 (by decide)).trans ((Written.kept0 _ main_arg13 (by decide)).trans rfl))

theorem at3_main_arg14 (c : Dev nD) : W3 m ρ c (Proc.devRef .tc main_arg14) = (inputs m c).icRows :=
  (W3_of_ne m ρ c main_arg14 (by decide)).trans ((W2_of_ne m ρ c main_arg14 (by decide)).trans ((Written.kept0 _ main_arg14 (by decide)).trans rfl))

theorem at3_main_arg15 (c : Dev nD) : W3 m ρ c (Proc.devRef .tc main_arg15) = (inputs m c).icCols :=
  (W3_of_ne m ρ c main_arg15 (by decide)).trans ((W2_of_ne m ρ c main_arg15 (by decide)).trans ((Written.kept0 _ main_arg15 (by decide)).trans rfl))

theorem at3_main_arg16 (c : Dev nD) : W3 m ρ c (Proc.devRef .tc main_arg16) = (inputs m c).ciRows :=
  (W3_of_ne m ρ c main_arg16 (by decide)).trans ((W2_of_ne m ρ c main_arg16 (by decide)).trans ((Written.kept0 _ main_arg16 (by decide)).trans rfl))

theorem at3_main_arg17 (c : Dev nD) : W3 m ρ c (Proc.devRef .tc main_arg17) = (inputs m c).ciCols :=
  (W3_of_ne m ρ c main_arg17 (by decide)).trans ((W2_of_ne m ρ c main_arg17 (by decide)).trans ((Written.kept0 _ main_arg17 (by decide)).trans rfl))

end Cert.KernelIdeal.Trace

end
-- ==== Proof.Slabs2.lean ====
/-
  The combine step of region 2, read as two whole-array functions.
  The region tiles its arrays into slabs of 2000 rows and all 64 columns: grid point `t` works on rows
  `2000·t … 2000·t + 1999` of every one of its five arrays. On a slab it stores `a + b` into its
  fourth array and `(r + (a + b)) · k` into its fifth, where `k` is the scalar with the word of 1.0. Both are
  pointwise, every input slab sits at the same rows as the output slab, and the 50 slabs cover the
  100000 rows, so after the region the fourth array is `a + b` and the fifth is `(r + (a + b)) · k`
  of the whole arrays as the region found them, whatever those contents are.
-/
import proofs.«171393_j41704132444584_1_alg».proof.Proof.Gen.KernelIdeal.Frame
import proofs.«171393_j41704132444584_1_alg».proof.Proof.Combine
import Idealize.ShloMosaic.Lib.Pipeline.Value

set_option maxRecDepth 16384

noncomputable section

namespace Cert.KernelIdeal.Slabs2

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The body's one load and its two stores go through the whole staging buffer: the offset is the origin. -/
theorem origin : (![0, 0] : Fin 2 → Nat) = fun _ => 0 := funext fun a => by fin_cases a <;> rfl

/-- The first store's value: the sum of the two loaded contributions (the same-shape casts are the identity). -/
theorem stored_contrib (x0 x1 : Vec F S2000x64 .f32) : k2_pay1 x0 x1 = Cert.Combine.contrib x0 x1 := by
  unfold k2_pay1
  simp only [shapeCast_self]
  rfl

/-- The second store's value: the loaded running total plus that sum, times the scalar. -/
theorem stored_total (x0 x1 x2 : Vec F S2000x64 .f32) :
    k2_pay2 x0 x1 x2 = Cert.Combine.total (Scalar.ofBits .f32 0x3F800000#32) x0 x1 x2 := by
  unfold k2_pay2
  simp only [shapeCast_self, stored_contrib]
  rfl

/-- Every window's block at point `t` is slab `t`: block row `t`, block column 0 (decided over the grid). -/
theorem slab_index : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-! ## The fourth array: the sum of the two contributions -/

/-- What point `t` writes back to the fourth array is slab `t` of `a + b`. -/
theorem flushed_contrib (c : Dev nD) (t : Fin cfg2.N) :
    (dat2 V c).flushed 3 t = ((cfg2.win 3).blk t).view.read (Elt F) (Cert.Combine.contrib (V c main_v79) (V c main_v92)) := by
  show (cfg2.win 3).cut (grid2.coords t) ((dat2 V c).after 3 t) = _
  rw [after2_3]
  unfold out2_3
  rw [View.canon_unit_zero origin]
  simp only [View.ld_unit_zero (S := S2000x64) origin]
  rw [stored_contrib]
  obtain ⟨a0, a1, b0, b1, r0, r1, p0, p1, q0, q1⟩ := slab_index t
  funext j
  show FloatOps.addf (V c main_v79 (((cfg2.win 0).blk t).view.emb j)) (V c main_v92 (((cfg2.win 1).blk t).view.emb j))
    = FloatOps.addf (V c main_v79 (((cfg2.win 3).blk t).view.emb j)) (V c main_v92 (((cfg2.win 3).blk t).view.emb j))
  have h0 : ((cfg2.win 0).blk t).view.emb j = ((cfg2.win 3).blk t).view.emb j := by
    funext a; apply Fin.ext
    match a with
    | ⟨0, _⟩ => show win2_0.index t (0 : Fin 2) * 2000 + 1 * (j 0).val = win2_3.index t (0 : Fin 2) * 2000 + 1 * (j 0).val; omega
    | ⟨1, _⟩ => show win2_0.index t (1 : Fin 2) * 64 + 1 * (j 1).val = win2_3.index t (1 : Fin 2) * 64 + 1 * (j 1).val; omega
  have h1 : ((cfg2.win 1).blk t).view.emb j = ((cfg2.win 3).blk t).view.emb j := by
    funext a; apply Fin.ext
    match a with
    | ⟨0, _⟩ => show win2_1.index t (0 : Fin 2) * 2000 + 1 * (j 0).val = win2_3.index t (0 : Fin 2) * 2000 + 1 * (j 0).val; omega
    | ⟨1, _⟩ => show win2_1.index t (1 : Fin 2) * 64 + 1 * (j 1).val = win2_3.index t (1 : Fin 2) * 64 + 1 * (j 1).val; omega
  rw [h0, h1]

/-- An index of the array lies in point `t`'s block of output 3 exactly when each coordinate lies in the block's range. -/
theorem mem_tile3 (t : Fin cfg2.N) (i : S100000x64.Idx) :
    i ∈ ((cfg2.win 3).blk t).view.set ↔ ∀ a : Fin 2, win2_3.index t a * S2000x64.size a ≤ (i a).val ∧ (i a).val < win2_3.index t a * S2000x64.size a + S2000x64.size a := by
  show i ∈ ((View.whole main_v132_0).slice (win2_3.rect t)).set ↔ _
  rw [View.set_slice_whole, Rect.mem_set_unit]
  exact Iff.rfl

/-- The slabs cover the array: row `r` lies in the slab of point `r / 2000`. -/
theorem cover3 (i : S100000x64.Idx) :
    ∃ t : Fin cfg2.N, (cfg2.win 3).flush t = true ∧ i ∈ ((cfg2.win 3).blk t).view.set := by
  have hN : grid2.N = 50 := N_2
  have hi0 : (i 0).val < 100000 := (i 0).isLt
  have hi1 : (i 1).val < 64 := (i 1).isLt
  have hlt : (i 0).val / 2000 < grid2.N := by omega
  obtain ⟨a0, a1, b0, b1, r0, r1, p0, p1, q0, q1⟩ := slab_index (⟨(i 0).val / 2000, hlt⟩ : Fin cfg2.N)
  have hv : ((⟨(i 0).val / 2000, hlt⟩ : Fin cfg2.N)).val = (i 0).val / 2000 := rfl
  refine ⟨⟨(i 0).val / 2000, hlt⟩, flush2_3 _, ?_⟩
  rw [mem_tile3]
  intro a
  match a with
  | ⟨0, _⟩ =>
    show win2_3.index _ (0 : Fin 2) * 2000 ≤ (i 0).val ∧ (i 0).val < win2_3.index _ (0 : Fin 2) * 2000 + 2000
    omega
  | ⟨1, _⟩ =>
    show win2_3.index _ (1 : Fin 2) * 64 ≤ (i 1).val ∧ (i 1).val < win2_3.index _ (1 : Fin 2) * 64 + 64
    omega

/-- After the region the fourth array holds `a + b` of the arrays the region found. -/
theorem array_contrib (c : Dev nD) :
    (dat2 V c).arrAt 3 cfg2.N = Cert.Combine.contrib (V c main_v79) (V c main_v92) :=
  (dat2 V c).arrAt_eq_of_cover 3 _ (fun t _ => flushed_contrib V c t) cover3

/-! ## The fifth array: the new running total -/

/-- What point `t` writes back to the fifth array is slab `t` of `(r + (a + b)) · k`. -/
theorem flushed_total (c : Dev nD) (t : Fin cfg2.N) :
    (dat2 V c).flushed 4 t = ((cfg2.win 4).blk t).view.read (Elt F)
      (Cert.Combine.total (Scalar.ofBits .f32 0x3F800000#32) (V c main_v79) (V c main_v92) (V c main_v65_1)) := by
  show (cfg2.win 4).cut (grid2.coords t) ((dat2 V c).after 4 t) = _
  rw [after2_4]
  unfold out2_4
  rw [View.canon_unit_zero origin]
  simp only [View.ld_unit_zero (S := S2000x64) origin]
  rw [stored_total]
  obtain ⟨a0, a1, b0, b1, r0, r1, p0, p1, q0, q1⟩ := slab_index t
  funext j
  show FloatOps.mulf (FloatOps.addf (V c main_v65_1 (((cfg2.win 2).blk t).view.emb j))
        (FloatOps.addf (V c main_v79 (((cfg2.win 0).blk t).view.emb j)) (V c main_v92 (((cfg2.win 1).blk t).view.emb j)))) (Scalar.ofBits .f32 0x3F800000#32)
    = FloatOps.mulf (FloatOps.addf (V c main_v65_1 (((cfg2.win 4).blk t).view.emb j))
        (FloatOps.addf (V c main_v79 (((cfg2.win 4).blk t).view.emb j)) (V c main_v92 (((cfg2.win 4).blk t).view.emb j)))) (Scalar.ofBits .f32 0x3F800000#32)
  have h0 : ((cfg2.win 0).blk t).view.emb j = ((cfg2.win 4).blk t).view.emb j := by
    funext a; apply Fin.ext
    match a with
    | ⟨0, _⟩ => show win2_0.index t (0 : Fin 2) * 2000 + 1 * (j 0).val = win2_4.index t (0 : Fin 2) * 2000 + 1 * (j 0).val; omega
    | ⟨1, _⟩ => show win2_0.index t (1 : Fin 2) * 64 + 1 * (j 1).val = win2_4.index t (1 : Fin 2) * 64 + 1 * (j 1).val; omega
  have h1 : ((cfg2.win 1).blk t).view.emb j = ((cfg2.win 4).blk t).view.emb j := by
    funext a; apply Fin.ext
    match a with
    | ⟨0, _⟩ => show win2_1.index t (0 : Fin 2) * 2000 + 1 * (j 0).val = win2_4.index t (0 : Fin 2) * 2000 + 1 * (j 0).val; omega
    | ⟨1, _⟩ => show win2_1.index t (1 : Fin 2) * 64 + 1 * (j 1).val = win2_4.index t (1 : Fin 2) * 64 + 1 * (j 1).val; omega
  have h2 : ((cfg2.win 2).blk t).view.emb j = ((cfg2.win 4).blk t).view.emb j := by
    funext a; apply Fin.ext
    match a with
    | ⟨0, _⟩ => show win2_2.index t (0 : Fin 2) * 2000 + 1 * (j 0).val = win2_4.index t (0 : Fin 2) * 2000 + 1 * (j 0).val; omega
    | ⟨1, _⟩ => show win2_2.index t (1 : Fin 2) * 64 + 1 * (j 1).val = win2_4.index t (1 : Fin 2) * 64 + 1 * (j 1).val; omega
  rw [h0, h1, h2]

/-- An index of the array lies in point `t`'s block of output 4 exactly when each coordinate lies in the block's range. -/
theorem mem_tile4 (t : Fin cfg2.N) (i : S100000x64.Idx) :
    i ∈ ((cfg2.win 4).blk t).view.set ↔ ∀ a : Fin 2, win2_4.index t a * S2000x64.size a ≤ (i a).val ∧ (i a).val < win2_4.index t a * S2000x64.size a + S2000x64.size a := by
  show i ∈ ((View.whole main_v132_1).slice (win2_4.rect t)).set ↔ _
  rw [View.set_slice_whole, Rect.mem_set_unit]
  exact Iff.rfl

/-- The slabs cover the array: row `r` lies in the slab of point `r / 2000`. -/
theorem cover4 (i : S100000x64.Idx) :
    ∃ t : Fin cfg2.N, (cfg2.win 4).flush t = true ∧ i ∈ ((cfg2.win 4).blk t).view.set := by
  have hN : grid2.N = 50 := N_2
  have hi0 : (i 0).val < 100000 := (i 0).isLt
  have hi1 : (i 1).val < 64 := (i 1).isLt
  have hlt : (i 0).val / 2000 < grid2.N := by omega
  obtain ⟨a0, a1, b0, b1, r0, r1, p0, p1, q0, q1⟩ := slab_index (⟨(i 0).val / 2000, hlt⟩ : Fin cfg2.N)
  have hv : ((⟨(i 0).val / 2000, hlt⟩ : Fin cfg2.N)).val = (i 0).val / 2000 := rfl
  refine ⟨⟨(i 0).val / 2000, hlt⟩, flush2_4 _, ?_⟩
  rw [mem_tile4]
  intro a
  match a with
  | ⟨0, _⟩ =>
    show win2_4.index _ (0 : Fin 2) * 2000 ≤ (i 0).val ∧ (i 0).val < win2_4.index _ (0 : Fin 2) * 2000 + 2000
    omega
  | ⟨1, _⟩ =>
    show win2_4.index _ (1 : Fin 2) * 64 ≤ (i 1).val ∧ (i 1).val < win2_4.index _ (1 : Fin 2) * 64 + 64
    omega

/-- After the region the fifth array holds `(r + (a + b)) · k` of the arrays the region found. -/
theorem array_total (c : Dev nD) :
    (dat2 V c).arrAt 4 cfg2.N = Cert.Combine.total (Scalar.ofBits .f32 0x3F800000#32) (V c main_v79) (V c main_v92) (V c main_v65_1) :=
  (dat2 V c).arrAt_eq_of_cover 4 _ (fun t _ => flushed_total V c t) cover4

end Cert.KernelIdeal.Slabs2

end
-- ==== Proof.Slabs3.lean ====
/-
  The combine step of region 3, read as two whole-array functions.
  The region tiles its arrays into slabs of 2000 rows and all 64 columns: grid point `t` works on rows
  `2000·t … 2000·t + 1999` of every one of its five arrays. On a slab it stores `a + b` into its
  fourth array and `(r + (a + b)) · k` into its fifth, where `k` is the scalar with the word of 1.0. Both are
  pointwise, every input slab sits at the same rows as the output slab, and the 25 slabs cover the
  50000 rows, so after the region the fourth array is `a + b` and the fifth is `(r + (a + b)) · k`
  of the whole arrays as the region found them, whatever those contents are.
-/
import proofs.«171393_j41704132444584_1_alg».proof.Proof.Gen.KernelIdeal.Frame
import proofs.«171393_j41704132444584_1_alg».proof.Proof.Combine
import Idealize.ShloMosaic.Lib.Pipeline.Value

set_option maxRecDepth 16384

noncomputable section

namespace Cert.KernelIdeal.Slabs3

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The body's one load and its two stores go through the whole staging buffer: the offset is the origin. -/
theorem origin : (![0, 0] : Fin 2 → Nat) = fun _ => 0 := funext fun a => by fin_cases a <;> rfl

/-- The first store's value: the sum of the two loaded contributions (the same-shape casts are the identity). -/
theorem stored_contrib (x0 x1 : Vec F S2000x64 .f32) : k3_pay1 x0 x1 = Cert.Combine.contrib x0 x1 := by
  unfold k3_pay1
  simp only [shapeCast_self]
  rfl

/-- The second store's value: the loaded running total plus that sum, times the scalar. -/
theorem stored_total (x0 x1 x2 : Vec F S2000x64 .f32) :
    k3_pay2 x0 x1 x2 = Cert.Combine.total (Scalar.ofBits .f32 0x3F800000#32) x0 x1 x2 := by
  unfold k3_pay2
  simp only [shapeCast_self, stored_contrib]
  rfl

/-- Every window's block at point `t` is slab `t`: block row `t`, block column 0 (decided over the grid). -/
theorem slab_index : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-! ## The fourth array: the sum of the two contributions -/

/-- What point `t` writes back to the fourth array is slab `t` of `a + b`. -/
theorem flushed_contrib (c : Dev nD) (t : Fin cfg3.N) :
    (dat3 V c).flushed 3 t = ((cfg3.win 3).blk t).view.read (Elt F) (Cert.Combine.contrib (V c main_v105) (V c main_v118)) := by
  show (cfg3.win 3).cut (grid3.coords t) ((dat3 V c).after 3 t) = _
  rw [after3_3]
  unfold out3_3
  rw [View.canon_unit_zero origin]
  simp only [View.ld_unit_zero (S := S2000x64) origin]
  rw [stored_contrib]
  obtain ⟨a0, a1, b0, b1, r0, r1, p0, p1, q0, q1⟩ := slab_index t
  funext j
  show FloatOps.addf (V c main_v105 (((cfg3.win 0).blk t).view.emb j)) (V c main_v118 (((cfg3.win 1).blk t).view.emb j))
    = FloatOps.addf (V c main_v105 (((cfg3.win 3).blk t).view.emb j)) (V c main_v118 (((cfg3.win 3).blk t).view.emb j))
  have h0 : ((cfg3.win 0).blk t).view.emb j = ((cfg3.win 3).blk t).view.emb j := by
    funext a; apply Fin.ext
    match a with
    | ⟨0, _⟩ => show win3_0.index t (0 : Fin 2) * 2000 + 1 * (j 0).val = win3_3.index t (0 : Fin 2) * 2000 + 1 * (j 0).val; omega
    | ⟨1, _⟩ => show win3_0.index t (1 : Fin 2) * 64 + 1 * (j 1).val = win3_3.index t (1 : Fin 2) * 64 + 1 * (j 1).val; omega
  have h1 : ((cfg3.win 1).blk t).view.emb j = ((cfg3.win 3).blk t).view.emb j := by
    funext a; apply Fin.ext
    match a with
    | ⟨0, _⟩ => show win3_1.index t (0 : Fin 2) * 2000 + 1 * (j 0).val = win3_3.index t (0 : Fin 2) * 2000 + 1 * (j 0).val; omega
    | ⟨1, _⟩ => show win3_1.index t (1 : Fin 2) * 64 + 1 * (j 1).val = win3_3.index t (1 : Fin 2) * 64 + 1 * (j 1).val; omega
  rw [h0, h1]

/-- An index of the array lies in point `t`'s block of output 3 exactly when each coordinate lies in the block's range. -/
theorem mem_tile3 (t : Fin cfg3.N) (i : S50000x64.Idx) :
    i ∈ ((cfg3.win 3).blk t).view.set ↔ ∀ a : Fin 2, win3_3.index t a * S2000x64.size a ≤ (i a).val ∧ (i a).val < win3_3.index t a * S2000x64.size a + S2000x64.size a := by
  show i ∈ ((View.whole main_v133_0).slice (win3_3.rect t)).set ↔ _
  rw [View.set_slice_whole, Rect.mem_set_unit]
  exact Iff.rfl

/-- The slabs cover the array: row `r` lies in the slab of point `r / 2000`. -/
theorem cover3 (i : S50000x64.Idx) :
    ∃ t : Fin cfg3.N, (cfg3.win 3).flush t = true ∧ i ∈ ((cfg3.win 3).blk t).view.set := by
  have hN : grid3.N = 25 := N_3
  have hi0 : (i 0).val < 50000 := (i 0).isLt
  have hi1 : (i 1).val < 64 := (i 1).isLt
  have hlt : (i 0).val / 2000 < grid3.N := by omega
  obtain ⟨a0, a1, b0, b1, r0, r1, p0, p1, q0, q1⟩ := slab_index (⟨(i 0).val / 2000, hlt⟩ : Fin cfg3.N)
  have hv : ((⟨(i 0).val / 2000, hlt⟩ : Fin cfg3.N)).val = (i 0).val / 2000 := rfl
  refine ⟨⟨(i 0).val / 2000, hlt⟩, flush3_3 _, ?_⟩
  rw [mem_tile3]
  intro a
  match a with
  | ⟨0, _⟩ =>
    show win3_3.index _ (0 : Fin 2) * 2000 ≤ (i 0).val ∧ (i 0).val < win3_3.index _ (0 : Fin 2) * 2000 + 2000
    omega
  | ⟨1, _⟩ =>
    show win3_3.index _ (1 : Fin 2) * 64 ≤ (i 1).val ∧ (i 1).val < win3_3.index _ (1 : Fin 2) * 64 + 64
    omega

/-- After the region the fourth array holds `a + b` of the arrays the region found. -/
theorem array_contrib (c : Dev nD) :
    (dat3 V c).arrAt 3 cfg3.N = Cert.Combine.contrib (V c main_v105) (V c main_v118) :=
  (dat3 V c).arrAt_eq_of_cover 3 _ (fun t _ => flushed_contrib V c t) cover3

/-! ## The fifth array: the new running total -/

/-- What point `t` writes back to the fifth array is slab `t` of `(r + (a + b)) · k`. -/
theorem flushed_total (c : Dev nD) (t : Fin cfg3.N) :
    (dat3 V c).flushed 4 t = ((cfg3.win 4).blk t).view.read (Elt F)
      (Cert.Combine.total (Scalar.ofBits .f32 0x3F800000#32) (V c main_v105) (V c main_v118) (V c main_v66_1)) := by
  show (cfg3.win 4).cut (grid3.coords t) ((dat3 V c).after 4 t) = _
  rw [after3_4]
  unfold out3_4
  rw [View.canon_unit_zero origin]
  simp only [View.ld_unit_zero (S := S2000x64) origin]
  rw [stored_total]
  obtain ⟨a0, a1, b0, b1, r0, r1, p0, p1, q0, q1⟩ := slab_index t
  funext j
  show FloatOps.mulf (FloatOps.addf (V c main_v66_1 (((cfg3.win 2).blk t).view.emb j))
        (FloatOps.addf (V c main_v105 (((cfg3.win 0).blk t).view.emb j)) (V c main_v118 (((cfg3.win 1).blk t).view.emb j)))) (Scalar.ofBits .f32 0x3F800000#32)
    = FloatOps.mulf (FloatOps.addf (V c main_v66_1 (((cfg3.win 4).blk t).view.emb j))
        (FloatOps.addf (V c main_v105 (((cfg3.win 4).blk t).view.emb j)) (V c main_v118 (((cfg3.win 4).blk t).view.emb j)))) (Scalar.ofBits .f32 0x3F800000#32)
  have h0 : ((cfg3.win 0).blk t).view.emb j = ((cfg3.win 4).blk t).view.emb j := by
    funext a; apply Fin.ext
    match a with
    | ⟨0, _⟩ => show win3_0.index t (0 : Fin 2) * 2000 + 1 * (j 0).val = win3_4.index t (0 : Fin 2) * 2000 + 1 * (j 0).val; omega
    | ⟨1, _⟩ => show win3_0.index t (1 : Fin 2) * 64 + 1 * (j 1).val = win3_4.index t (1 : Fin 2) * 64 + 1 * (j 1).val; omega
  have h1 : ((cfg3.win 1).blk t).view.emb j = ((cfg3.win 4).blk t).view.emb j := by
    funext a; apply Fin.ext
    match a with
    | ⟨0, _⟩ => show win3_1.index t (0 : Fin 2) * 2000 + 1 * (j 0).val = win3_4.index t (0 : Fin 2) * 2000 + 1 * (j 0).val; omega
    | ⟨1, _⟩ => show win3_1.index t (1 : Fin 2) * 64 + 1 * (j 1).val = win3_4.index t (1 : Fin 2) * 64 + 1 * (j 1).val; omega
  have h2 : ((cfg3.win 2).blk t).view.emb j = ((cfg3.win 4).blk t).view.emb j := by
    funext a; apply Fin.ext
    match a with
    | ⟨0, _⟩ => show win3_2.index t (0 : Fin 2) * 2000 + 1 * (j 0).val = win3_4.index t (0 : Fin 2) * 2000 + 1 * (j 0).val; omega
    | ⟨1, _⟩ => show win3_2.index t (1 : Fin 2) * 64 + 1 * (j 1).val = win3_4.index t (1 : Fin 2) * 64 + 1 * (j 1).val; omega
  rw [h0, h1, h2]

/-- An index of the array lies in point `t`'s block of output 4 exactly when each coordinate lies in the block's range. -/
theorem mem_tile4 (t : Fin cfg3.N) (i : S50000x64.Idx) :
    i ∈ ((cfg3.win 4).blk t).view.set ↔ ∀ a : Fin 2, win3_4.index t a * S2000x64.size a ≤ (i a).val ∧ (i a).val < win3_4.index t a * S2000x64.size a + S2000x64.size a := by
  show i ∈ ((View.whole main_v133_1).slice (win3_4.rect t)).set ↔ _
  rw [View.set_slice_whole, Rect.mem_set_unit]
  exact Iff.rfl

/-- The slabs cover the array: row `r` lies in the slab of point `r / 2000`. -/
theorem cover4 (i : S50000x64.Idx) :
    ∃ t : Fin cfg3.N, (cfg3.win 4).flush t = true ∧ i ∈ ((cfg3.win 4).blk t).view.set := by
  have hN : grid3.N = 25 := N_3
  have hi0 : (i 0).val < 50000 := (i 0).isLt
  have hi1 : (i 1).val < 64 := (i 1).isLt
  have hlt : (i 0).val / 2000 < grid3.N := by omega
  obtain ⟨a0, a1, b0, b1, r0, r1, p0, p1, q0, q1⟩ := slab_index (⟨(i 0).val / 2000, hlt⟩ : Fin cfg3.N)
  have hv : ((⟨(i 0).val / 2000, hlt⟩ : Fin cfg3.N)).val = (i 0).val / 2000 := rfl
  refine ⟨⟨(i 0).val / 2000, hlt⟩, flush3_4 _, ?_⟩
  rw [mem_tile4]
  intro a
  match a with
  | ⟨0, _⟩ =>
    show win3_4.index _ (0 : Fin 2) * 2000 ≤ (i 0).val ∧ (i 0).val < win3_4.index _ (0 : Fin 2) * 2000 + 2000
    omega
  | ⟨1, _⟩ =>
    show win3_4.index _ (1 : Fin 2) * 64 ≤ (i 1).val ∧ (i 1).val < win3_4.index _ (1 : Fin 2) * 64 + 64
    omega

/-- After the region the fifth array holds `(r + (a + b)) · k` of the arrays the region found. -/
theorem array_total (c : Dev nD) :
    (dat3 V c).arrAt 4 cfg3.N = Cert.Combine.total (Scalar.ofBits .f32 0x3F800000#32) (V c main_v105) (V c main_v118) (V c main_v66_1) :=
  (dat3 V c).arrAt_eq_of_cover 4 _ (fun t _ => flushed_total V c t) cover4

end Cert.KernelIdeal.Slabs3

end
-- ==== Proof.Trace2.lean ====
/-
  The second layer, read off the program's run: the second stretch of host operations computes the
  five sparse products of the first layer's tables, and the next two regions leave the second
  layer's tables and running totals.
-/
import proofs.«171393_j41704132444584_1_alg».proof.Proof.Trace1
import proofs.«171393_j41704132444584_1_alg».proof.Proof.Slabs2
import proofs.«171393_j41704132444584_1_alg».proof.Proof.Slabs3
import Idealize.ShloMosaic.Lib.StableHlo.Run

set_option maxRecDepth 16384

noncomputable section

namespace Cert.KernelIdeal.Trace

open Cert.KernelIdeal Cert.KernelIdeal.Gen Idealize.ShloMosaic Idealize.ShloMosaic.TcCoe Idealize.SL.Sem Idealize.ShloMosaic.StableHlo
open Cert.Propagate

variable {F : FTy → Type} [FloatOps F]
variable (m : (ℓ : Loc nD τ sig) → Buf (Elt F) ℓ) (ρ : Dev nD → PrngReg)

/-! ## After the second stretch of host operations -/

set_option maxHeartbeats 4000000 in
theorem at4_main_v79 (c : Dev nD) : W4 m ρ c (Proc.devRef .tc main_v79) = ui (inputs m c) (item1 (inputs m c)) := by
  show after hostOps2 (W3 m ρ c) (Proc.devRef .tc main_v79) = _
  simp only [hostOps2]
  after_results_simp
  simp only [at3_main_arg8 m ρ c, at3_main_arg3 m ρ c, at3_main_v66_0 m ρ c, at3_main_arg9 m ρ c]
  rfl

set_option maxHeartbeats 4000000 in
theorem at4_main_v92 (c : Dev nD) : W4 m ρ c (Proc.devRef .tc main_v92) = uu (inputs m c) (user1 (inputs m c)) := by
  show after hostOps2 (W3 m ρ c) (Proc.devRef .tc main_v92) = _
  simp only [hostOps2]
  after_results_simp
  simp only [at3_main_arg12 m ρ c, at3_main_arg5 m ρ c, at3_main_v65_0 m ρ c, at3_main_arg13 m ρ c]
  rfl

set_option maxHeartbeats 4000000 in
theorem at4_main_v105 (c : Dev nD) : W4 m ρ c (Proc.devRef .tc main_v105) = iu (inputs m c) (user1 (inputs m c)) := by
  show after hostOps2 (W3 m ρ c) (Proc.devRef .tc main_v105) = _
  simp only [hostOps2]
  after_results_simp
  simp only [at3_main_arg10 m ρ c, at3_main_arg4 m ρ c, at3_main_v65_0 m ρ c, at3_main_arg11 m ρ c]
  rfl

set_option maxHeartbeats 4000000 in
theorem at4_main_v118 (c : Dev nD) : W4 m ρ c (Proc.devRef .tc main_v118) = ic (inputs m c) (cat1 (inputs m c)) := by
  show after hostOps2 (W3 m ρ c) (Proc.devRef .tc main_v118) = _
  simp only [hostOps2]
  after_results_simp
  simp only [at3_main_arg14 m ρ c, at3_main_arg6 m ρ c, at3_main_v64 m ρ c, at3_main_arg15 m ρ c]
  rfl

set_option maxHeartbeats 4000000 in
theorem at4_main_v131 (c : Dev nD) : W4 m ρ c (Proc.devRef .tc main_v131) = cat2 (inputs m c) := by
  show after hostOps2 (W3 m ρ c) (Proc.devRef .tc main_v131) = _
  simp only [hostOps2]
  after_results_simp
  simp only [at3_main_arg16 m ρ c, at3_main_arg7 m ρ c, at3_main_v66_0 m ρ c, at3_main_arg17 m ρ c]
  rfl

theorem at4_main_v65_1 (c : Dev nD) : W4 m ρ c (Proc.devRef .tc main_v65_1) = total1User (inputs m c) :=
  (Written.kept2 _ main_v65_1 (by decide)).trans (at3_main_v65_1 m ρ c)

theorem at4_main_v66_1 (c : Dev nD) : W4 m ρ c (Proc.devRef .tc main_v66_1) = total1Item (inputs m c) :=
  (Written.kept2 _ main_v66_1 (by decide)).trans (at3_main_v66_1 m ρ c)

/-! ## After the users' second combine -/

theorem at5_main_v132_0 (c : Dev nD) : W5 m ρ c (Proc.devRef .tc main_v132_0) = user2 (inputs m c) :=
  (W5_arr m ρ c 3).trans ((Slabs2.array_contrib (V4 m ρ) c).trans
    (Cert.Combine.contrib_congr (at4_main_v79 m ρ c) (at4_main_v92 m ρ c)))

theorem at5_main_v132_1 (c : Dev nD) : W5 m ρ c (Proc.devRef .tc main_v132_1) = total2User (inputs m c) :=
  (W5_arr m ρ c 4).trans ((Slabs2.array_total (V4 m ρ) c).trans
    (Cert.Combine.total_congr _ (at4_main_v79 m ρ c) (at4_main_v92 m ρ c) (at4_main_v65_1 m ρ c)))

theorem at5_main_v105 (c : Dev nD) : W5 m ρ c (Proc.devRef .tc main_v105) = iu (inputs m c) (user1 (inputs m c)) :=
  (W5_of_ne m ρ c main_v105 (by decide)).trans (at4_main_v105 m ρ c)

theorem at5_main_v118 (c : Dev nD) : W5 m ρ c (Proc.devRef .tc main_v118) = ic (inputs m c) (cat1 (inputs m c)) :=
  (W5_of_ne m ρ c main_v118 (by decide)).trans (at4_main_v118 m ρ c)

theorem at5_main_v131 (c : Dev nD) : W5 m ρ c (Proc.devRef .tc main_v131) = cat2 (inputs m c) :=
  (W5_of_ne m ρ c main_v131 (by decide)).trans (at4_main_v131 m ρ c)

theorem at5_main_v66_1 (c : Dev nD) : W5 m ρ c (Proc.devRef .tc main_v66_1) = total1Item (inputs m c) :=
  (W5_of_ne m ρ c main_v66_1 (by decide)).trans (at4_main_v66_1 m ρ c)

/-! ## After the items' second combine -/

theorem at6_main_v132_0 (c : Dev nD) : W6 m ρ c (Proc.devRef .tc main_v132_0) = user2 (inputs m c) :=
  (W6_of_ne m ρ c main_v132_0 (by decide)).trans (at5_main_v132_0 m ρ c)

theorem at6_main_v132_1 (c : Dev nD) : W6 m ρ c (Proc.devRef .tc main_v132_1) = total2User (inputs m c) :=
  (W6_of_ne m ρ c main_v132_1 (by decide)).trans (at5_main_v132_1 m ρ c)

theorem at6_main_v133_0 (c : Dev nD) : W6 m ρ c (Proc.devRef .tc main_v133_0) = item2 (inputs m c) :=
  (W6_arr m ρ c 3).trans ((Slabs3.array_contrib (V5 m ρ) c).trans
    (Cert.Combine.contrib_congr (at5_main_v105 m ρ c) (at5_main_v118 m ρ c)))

theorem at6_main_v133_1 (c : Dev nD) : W6 m ρ c (Proc.devRef .tc main_v133_1) = total2Item (inputs m c) :=
  (W6_arr m ρ c 4).trans ((Slabs3.array_total (V5 m ρ) c).trans
    (Cert.Combine.total_congr _ (at5_main_v105 m ρ c) (at5_main_v118 m ρ c) (at5_main_v66_1 m ρ c)))

theorem at6_main_v131 (c : Dev nD) : W6 m ρ c (Proc.devRef .tc main_v131) = cat2 (inputs m c) :=
  (W6_of_ne m ρ c main_v131 (by decide)).trans (at5_main_v131 m ρ c)

theorem at6_main_arg3 (c : Dev nD) : W6 m ρ c (Proc.devRef .tc main_arg3) = (inputs m c).uiVals :=
  (W6_of_ne m ρ c main_arg3 (by decide)).trans ((W5_of_ne m ρ c main_arg3 (by decide)).trans ((Written.kept2 _ main_arg3 (by decide)).trans (at3_main_arg3 m ρ c)))

theorem at6_main_arg4 (c : Dev nD) : W6 m ρ c (Proc.devRef .tc main_arg4) = (inputs m c).iuVals :=
  (W6_of_ne m ρ c main_arg4 (by decide)).trans ((W5_of_ne m ρ c main_arg4 (by decide)).trans ((Written.kept2 _ main_arg4 (by decide)).trans (at3_main_arg4 m ρ c)))

theorem at6_main_arg5 (c : Dev nD) : W6 m ρ c (Proc.devRef .tc main_arg5) = (inputs m c).uuVals :=
  (W6_of_ne m ρ c main_arg5 (by decide)).trans ((W5_of_ne m ρ c main_arg5 (by decide)).trans ((Written.kept2 _ main_arg5 (by decide)).trans (at3_main_arg5 m ρ c)))

theorem at6_main_arg6 (c : Dev nD) : W6 m ρ c (Proc.devRef .tc main_arg6) = (inputs m c).icVals :=
  (W6_of_ne m ρ c main_arg6 (by decide)).trans ((W5_of_ne m ρ c main_arg6 (by decide)).trans ((Written.kept2 _ main_arg6 (by decide)).trans (at3_main_arg6 m ρ c)))

theorem at6_main_arg7 (c : Dev nD) : W6 m ρ c (Proc.devRef .tc main_arg7) = (inputs m c).ciVals :=
  (W6_of_ne m ρ c main_arg7 (by decide)).trans ((W5_of_ne m ρ c main_arg7 (by decide)).trans ((Written.kept2 _ main_arg7 (by decide)).trans (at3_main_arg7 m ρ c)))

theorem at6_main_arg8 (c : Dev nD) : W6 m ρ c (Proc.devRef .tc main_arg8) = (inputs m c).uiRows :=
  (W6_of_ne m ρ c main_arg8 (by decide)).trans ((W5_of_ne m ρ c main_arg8 (by decide)).trans ((Written.kept2 _ main_arg8 (by decide)).trans (at3_main_arg8 m ρ c)))

theorem at6_main_arg9 (c : Dev nD) : W6 m ρ c (Proc.devRef .tc main_arg9) = (inputs m c).uiCols :=
  (W6_of_ne m ρ c main_arg9 (by decide)).trans ((W5_of_ne m ρ c main_arg9 (by decide)).trans ((Written.kept2 _ main_arg9 (by decide)).trans (at3_main_arg9 m ρ c)))

theorem at6_main_arg10 (c : Dev nD) : W6 m ρ c (Proc.devRef .tc main_arg10) = (inputs m c).iuRows :=
  (W6_of_ne m ρ c main_arg10 (by decide)).trans ((W5_of_ne m ρ c main_arg10 (by decide)).trans ((Written.kept2 _ main_arg10 (by decide)).trans (at3_main_arg10 m ρ c)))

theorem at6_main_arg11 (c : Dev nD) : W6 m ρ c (Proc.devRef .tc main_arg11) = (inputs m c).iuCols :=
  (W6_of_ne m ρ c main_arg11 (by decide)).trans ((W5_of_ne m ρ c main_arg11 (by decide)).trans ((Written.kept2 _ main_arg11 (by decide)).trans (at3_main_arg11 m ρ c)))

theorem at6_main_arg12 (c : Dev nD) : W6 m ρ c (Proc.devRef .tc main_arg12) = (inputs m c).uuRows :=
  (W6_of_ne m ρ c main_arg12 (by decide)).trans ((W5_of_ne m ρ c main_arg12 (by decide)).trans ((Written.kept2 _ main_arg12 (by decide)).trans (at3_main_arg12 m ρ c)))

theorem at6_main_arg13 (c : Dev nD) : W6 m ρ c (Proc.devRef .tc main_arg13) = (inputs m c).uuCols :=
  (W6_of_ne m ρ c main_arg13 (by decide)).trans ((W5_of_ne m ρ c main_arg13 (by decide)).trans ((Written.kept2 _ main_arg13 (by decide)).trans (at3_main_arg13 m ρ c)))

theorem at6_main_arg14 (c : Dev nD) : W6 m ρ c (Proc.devRef .tc main_arg14) = (inputs m c).icRows :=
  (W6_of_ne m ρ c main_arg14 (by decide)).trans ((W5_of_ne m ρ c main_arg14 (by decide)).trans ((Written.kept2 _ main_arg14 (by decide)).trans (at3_main_arg14 m ρ c)))

theorem at6_main_arg15 (c : Dev nD) : W6 m ρ c (Proc.devRef .tc main_arg15) = (inputs m c).icCols :=
  (W6_of_ne m ρ c main_arg15 (by decide)).trans ((W5_of_ne m ρ c main_arg15 (by decide)).trans ((Written.kept2 _ main_arg15 (by decide)).trans (at3_main_arg15 m ρ c)))

theorem at6_main_arg16 (c : Dev nD) : W6 m ρ c (Proc.devRef .tc main_arg16) = (inputs m c).ciRows :=
  (W6_of_ne m ρ c main_arg16 (by decide)).trans ((W5_of_ne m ρ c main_arg16 (by decide)).trans ((Written.kept2 _ main_arg16 (by decide)).trans (at3_main_arg16 m ρ c)))

theorem at6_main_arg17 (c : Dev nD) : W6 m ρ c (Proc.devRef .tc main_arg17) = (inputs m c).ciCols :=
  (W6_of_ne m ρ c main_arg17 (by decide)).trans ((W5_of_ne m ρ c main_arg17 (by decide)).trans ((Written.kept2 _ main_arg17 (by decide)).trans (at3_main_arg17 m ρ c)))

end Cert.KernelIdeal.Trace

end
-- ==== Proof.Slabs4.lean ====
/-
  The combine step of region 4, read as two whole-array functions.
  The region tiles its arrays into slabs of 2000 rows and all 64 columns: grid point `t` works on rows
  `2000·t … 2000·t + 1999` of every one of its five arrays. On a slab it stores `a + b` into its
  fourth array and `(r + (a + b)) · k` into its fifth, where `k` is the scalar with the word of 0.25. Both are
  pointwise, every input slab sits at the same rows as the output slab, and the 50 slabs cover the
  100000 rows, so after the region the fourth array is `a + b` and the fifth is `(r + (a + b)) · k`
  of the whole arrays as the region found them, whatever those contents are.
-/
import proofs.«171393_j41704132444584_1_alg».proof.Proof.Gen.KernelIdeal.Frame
import proofs.«171393_j41704132444584_1_alg».proof.Proof.Combine
import Idealize.ShloMosaic.Lib.Pipeline.Value

set_option maxRecDepth 16384

noncomputable section

namespace Cert.KernelIdeal.Slabs4

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The body's one load and its two stores go through the whole staging buffer: the offset is the origin. -/
theorem origin : (![0, 0] : Fin 2 → Nat) = fun _ => 0 := funext fun a => by fin_cases a <;> rfl

/-- The first store's value: the sum of the two loaded contributions (the same-shape casts are the identity). -/
theorem stored_contrib (x0 x1 : Vec F S2000x64 .f32) : k4_pay1 x0 x1 = Cert.Combine.contrib x0 x1 := by
  unfold k4_pay1
  simp only [shapeCast_self]
  rfl

/-- The second store's value: the loaded running total plus that sum, times the scalar. -/
theorem stored_total (x0 x1 x2 : Vec F S2000x64 .f32) :
    k4_pay2 x0 x1 x2 = Cert.Combine.total (Scalar.ofBits .f32 0x3E800000#32) x0 x1 x2 := by
  unfold k4_pay2
  simp only [shapeCast_self, stored_contrib]
  rfl

/-- Every window's block at point `t` is slab `t`: block row `t`, block column 0 (decided over the grid). -/
theorem slab_index : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-! ## The fourth array: the sum of the two contributions -/

/-- What point `t` writes back to the fourth array is slab `t` of `a + b`. -/
theorem flushed_contrib (c : Dev nD) (t : Fin cfg4.N) :
    (dat4 V c).flushed 3 t = ((cfg4.win 3).blk t).view.read (Elt F) (Cert.Combine.contrib (V c main_v146) (V c main_v159)) := by
  show (cfg4.win 3).cut (grid4.coords t) ((dat4 V c).after 3 t) = _
  rw [after4_3]
  unfold out4_3
  rw [View.canon_unit_zero origin]
  simp only [View.ld_unit_zero (S := S2000x64) origin]
  rw [stored_contrib]
  obtain ⟨a0, a1, b0, b1, r0, r1, p0, p1, q0, q1⟩ := slab_index t
  funext j
  show FloatOps.addf (V c main_v146 (((cfg4.win 0).blk t).view.emb j)) (V c main_v159 (((cfg4.win 1).blk t).view.emb j))
    = FloatOps.addf (V c main_v146 (((cfg4.win 3).blk t).view.emb j)) (V c main_v159 (((cfg4.win 3).blk t).view.emb j))
  have h0 : ((cfg4.win 0).blk t).view.emb j = ((cfg4.win 3).blk t).view.emb j := by
    funext a; apply Fin.ext
    match a with
    | ⟨0, _⟩ => show win4_0.index t (0 : Fin 2) * 2000 + 1 * (j 0).val = win4_3.index t (0 : Fin 2) * 2000 + 1 * (j 0).val; omega
    | ⟨1, _⟩ => show win4_0.index t (1 : Fin 2) * 64 + 1 * (j 1).val = win4_3.index t (1 : Fin 2) * 64 + 1 * (j 1).val; omega
  have h1 : ((cfg4.win 1).blk t).view.emb j = ((cfg4.win 3).blk t).view.emb j := by
    funext a; apply Fin.ext
    match a with
    | ⟨0, _⟩ => show win4_1.index t (0 : Fin 2) * 2000 + 1 * (j 0).val = win4_3.index t (0 : Fin 2) * 2000 + 1 * (j 0).val; omega
    | ⟨1, _⟩ => show win4_1.index t (1 : Fin 2) * 64 + 1 * (j 1).val = win4_3.index t (1 : Fin 2) * 64 + 1 * (j 1).val; omega
  rw [h0, h1]

/-- An index of the array lies in point `t`'s block of output 3 exactly when each coordinate lies in the block's range. -/
theorem mem_tile3 (t : Fin cfg4.N) (i : S100000x64.Idx) :
    i ∈ ((cfg4.win 3).blk t).view.set ↔ ∀ a : Fin 2, win4_3.index t a * S2000x64.size a ≤ (i a).val ∧ (i a).val < win4_3.index t a * S2000x64.size a + S2000x64.size a := by
  show i ∈ ((View.whole main_v199_0).slice (win4_3.rect t)).set ↔ _
  rw [View.set_slice_whole, Rect.mem_set_unit]
  exact Iff.rfl

/-- The slabs cover the array: row `r` lies in the slab of point `r / 2000`. -/
theorem cover3 (i : S100000x64.Idx) :
    ∃ t : Fin cfg4.N, (cfg4.win 3).flush t = true ∧ i ∈ ((cfg4.win 3).blk t).view.set := by
  have hN : grid4.N = 50 := N_4
  have hi0 : (i 0).val < 100000 := (i 0).isLt
  have hi1 : (i 1).val < 64 := (i 1).isLt
  have hlt : (i 0).val / 2000 < grid4.N := by omega
  obtain ⟨a0, a1, b0, b1, r0, r1, p0, p1, q0, q1⟩ := slab_index (⟨(i 0).val / 2000, hlt⟩ : Fin cfg4.N)
  have hv : ((⟨(i 0).val / 2000, hlt⟩ : Fin cfg4.N)).val = (i 0).val / 2000 := rfl
  refine ⟨⟨(i 0).val / 2000, hlt⟩, flush4_3 _, ?_⟩
  rw [mem_tile3]
  intro a
  match a with
  | ⟨0, _⟩ =>
    show win4_3.index _ (0 : Fin 2) * 2000 ≤ (i 0).val ∧ (i 0).val < win4_3.index _ (0 : Fin 2) * 2000 + 2000
    omega
  | ⟨1, _⟩ =>
    show win4_3.index _ (1 : Fin 2) * 64 ≤ (i 1).val ∧ (i 1).val < win4_3.index _ (1 : Fin 2) * 64 + 64
    omega

/-- After the region the fourth array holds `a + b` of the arrays the region found. -/
theorem array_contrib (c : Dev nD) :
    (dat4 V c).arrAt 3 cfg4.N = Cert.Combine.contrib (V c main_v146) (V c main_v159) :=
  (dat4 V c).arrAt_eq_of_cover 3 _ (fun t _ => flushed_contrib V c t) cover3

/-! ## The fifth array: the new running total -/

/-- What point `t` writes back to the fifth array is slab `t` of `(r + (a + b)) · k`. -/
theorem flushed_total (c : Dev nD) (t : Fin cfg4.N) :
    (dat4 V c).flushed 4 t = ((cfg4.win 4).blk t).view.read (Elt F)
      (Cert.Combine.total (Scalar.ofBits .f32 0x3E800000#32) (V c main_v146) (V c main_v159) (V c main_v132_1)) := by
  show (cfg4.win 4).cut (grid4.coords t) ((dat4 V c).after 4 t) = _
  rw [after4_4]
  unfold out4_4
  rw [View.canon_unit_zero origin]
  simp only [View.ld_unit_zero (S := S2000x64) origin]
  rw [stored_total]
  obtain ⟨a0, a1, b0, b1, r0, r1, p0, p1, q0, q1⟩ := slab_index t
  funext j
  show FloatOps.mulf (FloatOps.addf (V c main_v132_1 (((cfg4.win 2).blk t).view.emb j))
        (FloatOps.addf (V c main_v146 (((cfg4.win 0).blk t).view.emb j)) (V c main_v159 (((cfg4.win 1).blk t).view.emb j)))) (Scalar.ofBits .f32 0x3E800000#32)
    = FloatOps.mulf (FloatOps.addf (V c main_v132_1 (((cfg4.win 4).blk t).view.emb j))
        (FloatOps.addf (V c main_v146 (((cfg4.win 4).blk t).view.emb j)) (V c main_v159 (((cfg4.win 4).blk t).view.emb j)))) (Scalar.ofBits .f32 0x3E800000#32)
  have h0 : ((cfg4.win 0).blk t).view.emb j = ((cfg4.win 4).blk t).view.emb j := by
    funext a; apply Fin.ext
    match a with
    | ⟨0, _⟩ => show win4_0.index t (0 : Fin 2) * 2000 + 1 * (j 0).val = win4_4.index t (0 : Fin 2) * 2000 + 1 * (j 0).val; omega
    | ⟨1, _⟩ => show win4_0.index t (1 : Fin 2) * 64 + 1 * (j 1).val = win4_4.index t (1 : Fin 2) * 64 + 1 * (j 1).val; omega
  have h1 : ((cfg4.win 1).blk t).view.emb j = ((cfg4.win 4).blk t).view.emb j := by
    funext a; apply Fin.ext
    match a with
    | ⟨0, _⟩ => show win4_1.index t (0 : Fin 2) * 2000 + 1 * (j 0).val = win4_4.index t (0 : Fin 2) * 2000 + 1 * (j 0).val; omega
    | ⟨1, _⟩ => show win4_1.index t (1 : Fin 2) * 64 + 1 * (j 1).val = win4_4.index t (1 : Fin 2) * 64 + 1 * (j 1).val; omega
  have h2 : ((cfg4.win 2).blk t).view.emb j = ((cfg4.win 4).blk t).view.emb j := by
    funext a; apply Fin.ext
    match a with
    | ⟨0, _⟩ => show win4_2.index t (0 : Fin 2) * 2000 + 1 * (j 0).val = win4_4.index t (0 : Fin 2) * 2000 + 1 * (j 0).val; omega
    | ⟨1, _⟩ => show win4_2.index t (1 : Fin 2) * 64 + 1 * (j 1).val = win4_4.index t (1 : Fin 2) * 64 + 1 * (j 1).val; omega
  rw [h0, h1, h2]

/-- An index of the array lies in point `t`'s block of output 4 exactly when each coordinate lies in the block's range. -/
theorem mem_tile4 (t : Fin cfg4.N) (i : S100000x64.Idx) :
    i ∈ ((cfg4.win 4).blk t).view.set ↔ ∀ a : Fin 2, win4_4.index t a * S2000x64.size a ≤ (i a).val ∧ (i a).val < win4_4.index t a * S2000x64.size a + S2000x64.size a := by
  show i ∈ ((View.whole main_v199_1).slice (win4_4.rect t)).set ↔ _
  rw [View.set_slice_whole, Rect.mem_set_unit]
  exact Iff.rfl

/-- The slabs cover the array: row `r` lies in the slab of point `r / 2000`. -/
theorem cover4 (i : S100000x64.Idx) :
    ∃ t : Fin cfg4.N, (cfg4.win 4).flush t = true ∧ i ∈ ((cfg4.win 4).blk t).view.set := by
  have hN : grid4.N = 50 := N_4
  have hi0 : (i 0).val < 100000 := (i 0).isLt
  have hi1 : (i 1).val < 64 := (i 1).isLt
  have hlt : (i 0).val / 2000 < grid4.N := by omega
  obtain ⟨a0, a1, b0, b1, r0, r1, p0, p1, q0, q1⟩ := slab_index (⟨(i 0).val / 2000, hlt⟩ : Fin cfg4.N)
  have hv : ((⟨(i 0).val / 2000, hlt⟩ : Fin cfg4.N)).val = (i 0).val / 2000 := rfl
  refine ⟨⟨(i 0).val / 2000, hlt⟩, flush4_4 _, ?_⟩
  rw [mem_tile4]
  intro a
  match a with
  | ⟨0, _⟩ =>
    show win4_4.index _ (0 : Fin 2) * 2000 ≤ (i 0).val ∧ (i 0).val < win4_4.index _ (0 : Fin 2) * 2000 + 2000
    omega
  | ⟨1, _⟩ =>
    show win4_4.index _ (1 : Fin 2) * 64 ≤ (i 1).val ∧ (i 1).val < win4_4.index _ (1 : Fin 2) * 64 + 64
    omega

/-- After the region the fifth array holds `(r + (a + b)) · k` of the arrays the region found. -/
theorem array_total (c : Dev nD) :
    (dat4 V c).arrAt 4 cfg4.N = Cert.Combine.total (Scalar.ofBits .f32 0x3E800000#32) (V c main_v146) (V c main_v159) (V c main_v132_1) :=
  (dat4 V c).arrAt_eq_of_cover 4 _ (fun t _ => flushed_total V c t) cover4

end Cert.KernelIdeal.Slabs4

end
-- ==== Proof.Slabs5.lean ====
/-
  The combine step of region 5, read as two whole-array functions.
  The region tiles its arrays into slabs of 2000 rows and all 64 columns: grid point `t` works on rows
  `2000·t … 2000·t + 1999` of every one of its five arrays. On a slab it stores `a + b` into its
  fourth array and `(r + (a + b)) · k` into its fifth, where `k` is the scalar with the word of 0.25. Both are
  pointwise, every input slab sits at the same rows as the output slab, and the 25 slabs cover the
  50000 rows, so after the region the fourth array is `a + b` and the fifth is `(r + (a + b)) · k`
  of the whole arrays as the region found them, whatever those contents are.
-/
import proofs.«171393_j41704132444584_1_alg».proof.Proof.Gen.KernelIdeal.Frame
import proofs.«171393_j41704132444584_1_alg».proof.Proof.Combine
import Idealize.ShloMosaic.Lib.Pipeline.Value

set_option maxRecDepth 16384

noncomputable section

namespace Cert.KernelIdeal.Slabs5

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The body's one load and its two stores go through the whole staging buffer: the offset is the origin. -/
theorem origin : (![0, 0] : Fin 2 → Nat) = fun _ => 0 := funext fun a => by fin_cases a <;> rfl

/-- The first store's value: the sum of the two loaded contributions (the same-shape casts are the identity). -/
theorem stored_contrib (x0 x1 : Vec F S2000x64 .f32) : k5_pay1 x0 x1 = Cert.Combine.contrib x0 x1 := by
  unfold k5_pay1
  simp only [shapeCast_self]
  rfl

/-- The second store's value: the loaded running total plus that sum, times the scalar. -/
theorem stored_total (x0 x1 x2 : Vec F S2000x64 .f32) :
    k5_pay2 x0 x1 x2 = Cert.Combine.total (Scalar.ofBits .f32 0x3E800000#32) x0 x1 x2 := by
  unfold k5_pay2
  simp only [shapeCast_self, stored_contrib]
  rfl

/-- Every window's block at point `t` is slab `t`: block row `t`, block column 0 (decided over the grid). -/
theorem slab_index : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0 :=
  (by decide +kernel : ∀ t : Fin grid5.N, _)

/-! ## The fourth array: the sum of the two contributions -/

/-- What point `t` writes back to the fourth array is slab `t` of `a + b`. -/
theorem flushed_contrib (c : Dev nD) (t : Fin cfg5.N) :
    (dat5 V c).flushed 3 t = ((cfg5.win 3).blk t).view.read (Elt F) (Cert.Combine.contrib (V c main_v172) (V c main_v185)) := by
  show (cfg5.win 3).cut (grid5.coords t) ((dat5 V c).after 3 t) = _
  rw [after5_3]
  unfold out5_3
  rw [View.canon_unit_zero origin]
  simp only [View.ld_unit_zero (S := S2000x64) origin]
  rw [stored_contrib]
  obtain ⟨a0, a1, b0, b1, r0, r1, p0, p1, q0, q1⟩ := slab_index t
  funext j
  show FloatOps.addf (V c main_v172 (((cfg5.win 0).blk t).view.emb j)) (V c main_v185 (((cfg5.win 1).blk t).view.emb j))
    = FloatOps.addf (V c main_v172 (((cfg5.win 3).blk t).view.emb j)) (V c main_v185 (((cfg5.win 3).blk t).view.emb j))
  have h0 : ((cfg5.win 0).blk t).view.emb j = ((cfg5.win 3).blk t).view.emb j := by
    funext a; apply Fin.ext
    match a with
    | ⟨0, _⟩ => show win5_0.index t (0 : Fin 2) * 2000 + 1 * (j 0).val = win5_3.index t (0 : Fin 2) * 2000 + 1 * (j 0).val; omega
    | ⟨1, _⟩ => show win5_0.index t (1 : Fin 2) * 64 + 1 * (j 1).val = win5_3.index t (1 : Fin 2) * 64 + 1 * (j 1).val; omega
  have h1 : ((cfg5.win 1).blk t).view.emb j = ((cfg5.win 3).blk t).view.emb j := by
    funext a; apply Fin.ext
    match a with
    | ⟨0, _⟩ => show win5_1.index t (0 : Fin 2) * 2000 + 1 * (j 0).val = win5_3.index t (0 : Fin 2) * 2000 + 1 * (j 0).val; omega
    | ⟨1, _⟩ => show win5_1.index t (1 : Fin 2) * 64 + 1 * (j 1).val = win5_3.index t (1 : Fin 2) * 64 + 1 * (j 1).val; omega
  rw [h0, h1]

/-- An index of the array lies in point `t`'s block of output 3 exactly when each coordinate lies in the block's range. -/
theorem mem_tile3 (t : Fin cfg5.N) (i : S50000x64.Idx) :
    i ∈ ((cfg5.win 3).blk t).view.set ↔ ∀ a : Fin 2, win5_3.index t a * S2000x64.size a ≤ (i a).val ∧ (i a).val < win5_3.index t a * S2000x64.size a + S2000x64.size a := by
  show i ∈ ((View.whole main_v200_0).slice (win5_3.rect t)).set ↔ _
  rw [View.set_slice_whole, Rect.mem_set_unit]
  exact Iff.rfl

/-- The slabs cover the array: row `r` lies in the slab of point `r / 2000`. -/
theorem cover3 (i : S50000x64.Idx) :
    ∃ t : Fin cfg5.N, (cfg5.win 3).flush t = true ∧ i ∈ ((cfg5.win 3).blk t).view.set := by
  have hN : grid5.N = 25 := N_5
  have hi0 : (i 0).val < 50000 := (i 0).isLt
  have hi1 : (i 1).val < 64 := (i 1).isLt
  have hlt : (i 0).val / 2000 < grid5.N := by omega
  obtain ⟨a0, a1, b0, b1, r0, r1, p0, p1, q0, q1⟩ := slab_index (⟨(i 0).val / 2000, hlt⟩ : Fin cfg5.N)
  have hv : ((⟨(i 0).val / 2000, hlt⟩ : Fin cfg5.N)).val = (i 0).val / 2000 := rfl
  refine ⟨⟨(i 0).val / 2000, hlt⟩, flush5_3 _, ?_⟩
  rw [mem_tile3]
  intro a
  match a with
  | ⟨0, _⟩ =>
    show win5_3.index _ (0 : Fin 2) * 2000 ≤ (i 0).val ∧ (i 0).val < win5_3.index _ (0 : Fin 2) * 2000 + 2000
    omega
  | ⟨1, _⟩ =>
    show win5_3.index _ (1 : Fin 2) * 64 ≤ (i 1).val ∧ (i 1).val < win5_3.index _ (1 : Fin 2) * 64 + 64
    omega

/-- After the region the fourth array holds `a + b` of the arrays the region found. -/
theorem array_contrib (c : Dev nD) :
    (dat5 V c).arrAt 3 cfg5.N = Cert.Combine.contrib (V c main_v172) (V c main_v185) :=
  (dat5 V c).arrAt_eq_of_cover 3 _ (fun t _ => flushed_contrib V c t) cover3

/-! ## The fifth array: the new running total -/

/-- What point `t` writes back to the fifth array is slab `t` of `(r + (a + b)) · k`. -/
theorem flushed_total (c : Dev nD) (t : Fin cfg5.N) :
    (dat5 V c).flushed 4 t = ((cfg5.win 4).blk t).view.read (Elt F)
      (Cert.Combine.total (Scalar.ofBits .f32 0x3E800000#32) (V c main_v172) (V c main_v185) (V c main_v133_1)) := by
  show (cfg5.win 4).cut (grid5.coords t) ((dat5 V c).after 4 t) = _
  rw [after5_4]
  unfold out5_4
  rw [View.canon_unit_zero origin]
  simp only [View.ld_unit_zero (S := S2000x64) origin]
  rw [stored_total]
  obtain ⟨a0, a1, b0, b1, r0, r1, p0, p1, q0, q1⟩ := slab_index t
  funext j
  show FloatOps.mulf (FloatOps.addf (V c main_v133_1 (((cfg5.win 2).blk t).view.emb j))
        (FloatOps.addf (V c main_v172 (((cfg5.win 0).blk t).view.emb j)) (V c main_v185 (((cfg5.win 1).blk t).view.emb j)))) (Scalar.ofBits .f32 0x3E800000#32)
    = FloatOps.mulf (FloatOps.addf (V c main_v133_1 (((cfg5.win 4).blk t).view.emb j))
        (FloatOps.addf (V c main_v172 (((cfg5.win 4).blk t).view.emb j)) (V c main_v185 (((cfg5.win 4).blk t).view.emb j)))) (Scalar.ofBits .f32 0x3E800000#32)
  have h0 : ((cfg5.win 0).blk t).view.emb j = ((cfg5.win 4).blk t).view.emb j := by
    funext a; apply Fin.ext
    match a with
    | ⟨0, _⟩ => show win5_0.index t (0 : Fin 2) * 2000 + 1 * (j 0).val = win5_4.index t (0 : Fin 2) * 2000 + 1 * (j 0).val; omega
    | ⟨1, _⟩ => show win5_0.index t (1 : Fin 2) * 64 + 1 * (j 1).val = win5_4.index t (1 : Fin 2) * 64 + 1 * (j 1).val; omega
  have h1 : ((cfg5.win 1).blk t).view.emb j = ((cfg5.win 4).blk t).view.emb j := by
    funext a; apply Fin.ext
    match a with
    | ⟨0, _⟩ => show win5_1.index t (0 : Fin 2) * 2000 + 1 * (j 0).val = win5_4.index t (0 : Fin 2) * 2000 + 1 * (j 0).val; omega
    | ⟨1, _⟩ => show win5_1.index t (1 : Fin 2) * 64 + 1 * (j 1).val = win5_4.index t (1 : Fin 2) * 64 + 1 * (j 1).val; omega
  have h2 : ((cfg5.win 2).blk t).view.emb j = ((cfg5.win 4).blk t).view.emb j := by
    funext a; apply Fin.ext
    match a with
    | ⟨0, _⟩ => show win5_2.index t (0 : Fin 2) * 2000 + 1 * (j 0).val = win5_4.index t (0 : Fin 2) * 2000 + 1 * (j 0).val; omega
    | ⟨1, _⟩ => show win5_2.index t (1 : Fin 2) * 64 + 1 * (j 1).val = win5_4.index t (1 : Fin 2) * 64 + 1 * (j 1).val; omega
  rw [h0, h1, h2]

/-- An index of the array lies in point `t`'s block of output 4 exactly when each coordinate lies in the block's range. -/
theorem mem_tile4 (t : Fin cfg5.N) (i : S50000x64.Idx) :
    i ∈ ((cfg5.win 4).blk t).view.set ↔ ∀ a : Fin 2, win5_4.index t a * S2000x64.size a ≤ (i a).val ∧ (i a).val < win5_4.index t a * S2000x64.size a + S2000x64.size a := by
  show i ∈ ((View.whole main_v200_1).slice (win5_4.rect t)).set ↔ _
  rw [View.set_slice_whole, Rect.mem_set_unit]
  exact Iff.rfl

/-- The slabs cover the array: row `r` lies in the slab of point `r / 2000`. -/
theorem cover4 (i : S50000x64.Idx) :
    ∃ t : Fin cfg5.N, (cfg5.win 4).flush t = true ∧ i ∈ ((cfg5.win 4).blk t).view.set := by
  have hN : grid5.N = 25 := N_5
  have hi0 : (i 0).val < 50000 := (i 0).isLt
  have hi1 : (i 1).val < 64 := (i 1).isLt
  have hlt : (i 0).val / 2000 < grid5.N := by omega
  obtain ⟨a0, a1, b0, b1, r0, r1, p0, p1, q0, q1⟩ := slab_index (⟨(i 0).val / 2000, hlt⟩ : Fin cfg5.N)
  have hv : ((⟨(i 0).val / 2000, hlt⟩ : Fin cfg5.N)).val = (i 0).val / 2000 := rfl
  refine ⟨⟨(i 0).val / 2000, hlt⟩, flush5_4 _, ?_⟩
  rw [mem_tile4]
  intro a
  match a with
  | ⟨0, _⟩ =>
    show win5_4.index _ (0 : Fin 2) * 2000 ≤ (i 0).val ∧ (i 0).val < win5_4.index _ (0 : Fin 2) * 2000 + 2000
    omega
  | ⟨1, _⟩ =>
    show win5_4.index _ (1 : Fin 2) * 64 ≤ (i 1).val ∧ (i 1).val < win5_4.index _ (1 : Fin 2) * 64 + 64
    omega

/-- After the region the fifth array holds `(r + (a + b)) · k` of the arrays the region found. -/
theorem array_total (c : Dev nD) :
    (dat5 V c).arrAt 4 cfg5.N = Cert.Combine.total (Scalar.ofBits .f32 0x3E800000#32) (V c main_v172) (V c main_v185) (V c main_v133_1) :=
  (dat5 V c).arrAt_eq_of_cover 4 _ (fun t _ => flushed_total V c t) cover4

end Cert.KernelIdeal.Slabs5

end
-- ==== Proof.Trace3.lean ====
/-
  The third layer, read off the program's run: the third stretch of host operations computes the
  five sparse products of the second layer's tables, among them the last category table, and the last
  two regions leave the scaled running totals, which are the user and item results.
-/
import proofs.«171393_j41704132444584_1_alg».proof.Proof.Trace2
import proofs.«171393_j41704132444584_1_alg».proof.Proof.Slabs4
import proofs.«171393_j41704132444584_1_alg».proof.Proof.Slabs5
import Idealize.ShloMosaic.Lib.StableHlo.Run

set_option maxRecDepth 16384

noncomputable section

namespace Cert.KernelIdeal.Trace

open Cert.KernelIdeal Cert.KernelIdeal.Gen Idealize.ShloMosaic Idealize.ShloMosaic.TcCoe Idealize.SL.Sem Idealize.ShloMosaic.StableHlo
open Cert.Propagate

variable {F : FTy → Type} [FloatOps F]
variable (m : (ℓ : Loc nD τ sig) → Buf (Elt F) ℓ) (ρ : Dev nD → PrngReg)

/-! ## After the third stretch of host operations -/

set_option maxHeartbeats 4000000 in
theorem at7_main_v146 (c : Dev nD) : W7 m ρ c (Proc.devRef .tc main_v146) = ui (inputs m c) (item2 (inputs m c)) := by
  show after hostOps4 (W6 m ρ c) (Proc.devRef .tc main_v146) = _
  simp only [hostOps4]
  after_results_simp
  simp only [at6_main_arg8 m ρ c, at6_main_arg3 m ρ c, at6_main_v133_0 m ρ c, at6_main_arg9 m ρ c]
  rfl

set_option maxHeartbeats 4000000 in
theorem at7_main_v159 (c : Dev nD) : W7 m ρ c (Proc.devRef .tc main_v159) = uu (inputs m c) (user2 (inputs m c)) := by
  show after hostOps4 (W6 m ρ c) (Proc.devRef .tc main_v159) = _
  simp only [hostOps4]
  after_results_simp
  simp only [at6_main_arg12 m ρ c, at6_main_arg5 m ρ c, at6_main_v132_0 m ρ c, at6_main_arg13 m ρ c]
  rfl

set_option maxHeartbeats 4000000 in
theorem at7_main_v172 (c : Dev nD) : W7 m ρ c (Proc.devRef .tc main_v172) = iu (inputs m c) (user2 (inputs m c)) := by
  show after hostOps4 (W6 m ρ c) (Proc.devRef .tc main_v172) = _
  simp only [hostOps4]
  after_results_simp
  simp only [at6_main_arg10 m ρ c, at6_main_arg4 m ρ c, at6_main_v132_0 m ρ c, at6_main_arg11 m ρ c]
  rfl

set_option maxHeartbeats 4000000 in
theorem at7_main_v185 (c : Dev nD) : W7 m ρ c (Proc.devRef .tc main_v185) = ic (inputs m c) (cat2 (inputs m c)) := by
  show after hostOps4 (W6 m ρ c) (Proc.devRef .tc main_v185) = _
  simp only [hostOps4]
  after_results_simp
  simp only [at6_main_arg14 m ρ c, at6_main_arg6 m ρ c, at6_main_v131 m ρ c, at6_main_arg15 m ρ c]
  rfl

set_option maxHeartbeats 4000000 in
theorem at7_main_v198 (c : Dev nD) : W7 m ρ c (Proc.devRef .tc main_v198) = cat3 (inputs m c) := by
  show after hostOps4 (W6 m ρ c) (Proc.devRef .tc main_v198) = _
  simp only [hostOps4]
  after_results_simp
  simp only [at6_main_arg16 m ρ c, at6_main_arg7 m ρ c, at6_main_v133_0 m ρ c, at6_main_arg17 m ρ c]
  rfl

theorem at7_main_v132_1 (c : Dev nD) : W7 m ρ c (Proc.devRef .tc main_v132_1) = total2User (inputs m c) :=
  (Written.kept4 _ main_v132_1 (by decide)).trans (at6_main_v132_1 m ρ c)

theorem at7_main_v133_1 (c : Dev nD) : W7 m ρ c (Proc.devRef .tc main_v133_1) = total2Item (inputs m c) :=
  (Written.kept4 _ main_v133_1 (by decide)).trans (at6_main_v133_1 m ρ c)

/-! ## After the users' last combine -/

theorem at8_main_v199_1 (c : Dev nD) : W8 m ρ c (Proc.devRef .tc main_v199_1) = total3User (inputs m c) :=
  (W8_arr m ρ c 4).trans ((Slabs4.array_total (V7 m ρ) c).trans
    (Cert.Combine.total_congr _ (at7_main_v146 m ρ c) (at7_main_v159 m ρ c) (at7_main_v132_1 m ρ c)))

theorem at8_main_v172 (c : Dev nD) : W8 m ρ c (Proc.devRef .tc main_v172) = iu (inputs m c) (user2 (inputs m c)) :=
  (W8_of_ne m ρ c main_v172 (by decide)).trans (at7_main_v172 m ρ c)

theorem at8_main_v185 (c : Dev nD) : W8 m ρ c (Proc.devRef .tc main_v185) = ic (inputs m c) (cat2 (inputs m c)) :=
  (W8_of_ne m ρ c main_v185 (by decide)).trans (at7_main_v185 m ρ c)

theorem at8_main_v133_1 (c : Dev nD) : W8 m ρ c (Proc.devRef .tc main_v133_1) = total2Item (inputs m c) :=
  (W8_of_ne m ρ c main_v133_1 (by decide)).trans (at7_main_v133_1 m ρ c)

theorem at8_main_v198 (c : Dev nD) : W8 m ρ c (Proc.devRef .tc main_v198) = cat3 (inputs m c) :=
  (W8_of_ne m ρ c main_v198 (by decide)).trans (at7_main_v198 m ρ c)

/-! ## After the items' last combine -/

theorem at9_main_v199_1 (c : Dev nD) : W9 m ρ c (Proc.devRef .tc main_v199_1) = total3User (inputs m c) :=
  (W9_of_ne m ρ c main_v199_1 (by decide)).trans (at8_main_v199_1 m ρ c)

theorem at9_main_v200_1 (c : Dev nD) : W9 m ρ c (Proc.devRef .tc main_v200_1) = total3Item (inputs m c) :=
  (W9_arr m ρ c 4).trans ((Slabs5.array_total (V8 m ρ) c).trans
    (Cert.Combine.total_congr _ (at8_main_v172 m ρ c) (at8_main_v185 m ρ c) (at8_main_v133_1 m ρ c)))

theorem at9_main_v198 (c : Dev nD) : W9 m ρ c (Proc.devRef .tc main_v198) = cat3 (inputs m c) :=
  (W9_of_ne m ρ c main_v198 (by decide)).trans (at8_main_v198 m ρ c)

end Cert.KernelIdeal.Trace

end
-- ==== Proof.FinalMemory.lean ====
/-
  The run of the whole idealized program with its final memory named.
  The program is nine segments: three stretches of host operations and six kernel regions. The
  generated frame gives, for each boundary between segments, the contents of every buffer there
  (`Gen.W1` … `Gen.W9`), and proves that each segment takes the thread from one boundary's contents to
  the next. Applying the launch theorem for a list of segments to those nine, and reading the last
  thread state against the final memory, every weakly fair execution terminates with each unscoped
  buffer holding what the last boundary `Gen.W9` says. The three results are then read off `Gen.W9`.
-/
import proofs.«171393_j41704132444584_1_alg».proof.Proof.Gen.KernelIdeal.Frame

set_option maxRecDepth 16384

noncomputable section

namespace Cert.KernelIdeal.Final

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, and in every final state each
    unscoped buffer of each core holds the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- The final contents of one unscoped buffer. -/
theorem read (b : Ref sig .tc) (hb : ¬ (Proc.devRef .tc b : DevRef τ sig).isScoped)
    {r : PUnit × MemSt nD τ sig (Elt F)}
    (h : ∀ c : Dev nD, ∀ b ∈ Pipeline.ucRefs τ sig, r.2.mem (((c : Thread nD τ)).1, b) = W9 m ρ c b) (c : Dev nD) :
    r.2.mem ((c.tc : Thread nD τ).loc b) = W9 m ρ c (Proc.devRef .tc b) :=
  h c _ (mem_uc b hb)

end Cert.KernelIdeal.Final

end
-- ==== Proof.KernelValue.lean ====
/-
  The tiled program's results.
  Every weakly fair execution ends with the user result buffer at the third running user total, the
  item result buffer at the third running item total, the category result buffer at the third
  category table, all as functions of the launched inputs, and with the input arrays unchanged: the
  final memory is the last boundary's contents, and the last boundary's contents at these buffers
  were traced layer by layer.
-/
import proofs.«171393_j41704132444584_1_alg».proof.Proof.Trace3
import proofs.«171393_j41704132444584_1_alg».proof.Proof.FinalMemory

set_option maxRecDepth 16384

noncomputable section

namespace Cert.KernelIdeal.Trace

open Cert.KernelIdeal Cert.KernelIdeal.Gen Idealize.ShloMosaic Idealize.ShloMosaic.TcCoe Idealize.SL.Sem
open Cert.Propagate

variable {F : FTy → Type} [FloatOps F]
variable (m : (ℓ : Loc nD τ sig) → Buf (Elt F) ℓ) (ρ : Dev nD → PrngReg)

theorem run_results : θ_run defs (onTc (τ := τ) (main (F := F))) ⟨m, fun _ => 0, ρ⟩ (fun r => ∀ c : Dev nD,
      r.2.mem ((c.tc : Thread nD τ).loc main_v199_1) = total3User (inputs m c)
      ∧ r.2.mem ((c.tc : Thread nD τ).loc main_v200_1) = total3Item (inputs m c)
      ∧ r.2.mem ((c.tc : Thread nD τ).loc main_v198) = cat3 (inputs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨(Final.read m ρ main_v199_1 (by decide) h c).trans (at9_main_v199_1 m ρ c),
     (Final.read m ρ main_v200_1 (by decide) h c).trans (at9_main_v200_1 m ρ c),
     (Final.read m ρ main_v198 (by decide) h c).trans (at9_main_v198 m ρ c),
     (Final.read m ρ main_arg0 (by decide) h c).trans (W9_main_arg0 m ρ c),
     (Final.read m ρ main_arg1 (by decide) h c).trans (W9_main_arg1 m ρ c),
     (Final.read m ρ main_arg2 (by decide) h c).trans (W9_main_arg2 m ρ c),
     (Final.read m ρ main_arg3 (by decide) h c).trans (W9_main_arg3 m ρ c),
     (Final.read m ρ main_arg4 (by decide) h c).trans (W9_main_arg4 m ρ c),
     (Final.read m ρ main_arg5 (by decide) h c).trans (W9_main_arg5 m ρ c),
     (Final.read m ρ main_arg6 (by decide) h c).trans (W9_main_arg6 m ρ c),
     (Final.read m ρ main_arg7 (by decide) h c).trans (W9_main_arg7 m ρ c),
     (Final.read m ρ main_arg8 (by decide) h c).trans (W9_main_arg8 m ρ c),
     (Final.read m ρ main_arg9 (by decide) h c).trans (W9_main_arg9 m ρ c),
     (Final.read m ρ main_arg10 (by decide) h c).trans (W9_main_arg10 m ρ c),
     (Final.read m ρ main_arg11 (by decide) h c).trans (W9_main_arg11 m ρ c),
     (Final.read m ρ main_arg12 (by decide) h c).trans (W9_main_arg12 m ρ c),
     (Final.read m ρ main_arg13 (by decide) h c).trans (W9_main_arg13 m ρ c),
     (Final.read m ρ main_arg14 (by decide) h c).trans (W9_main_arg14 m ρ c),
     (Final.read m ρ main_arg15 (by decide) h c).trans (W9_main_arg15 m ρ c),
     (Final.read m ρ main_arg16 (by decide) h c).trans (W9_main_arg16 m ρ c),
     (Final.read m ρ main_arg17 (by decide) h c).trans (W9_main_arg17 m ρ c)⟩)
    (Final.run m ρ)

end Cert.KernelIdeal.Trace

end
-- ==== Proof.Reference.lean ====
/-
  The whole-array program computes the propagation's functions.
  Its run states each result as the composed term of its host operations, with the first two layers'
  user and item tables named. Those terms are, operation for operation, the sparse products and sums
  of the propagation's definitions read at this program's input buffers: the first layer's tables by
  unfolding alone, the second layer's after replacing the first layer's names, and the three results
  after replacing the second layer's.
-/
import proofs.«171393_j41704132444584_1_alg».proof.Proof.Gen.ReferenceIdeal.Run
import proofs.«171393_j41704132444584_1_alg».proof.Proof.Layers

set_option maxRecDepth 16384

noncomputable section

namespace Cert.ReferenceIdeal.Spec

open Cert.ReferenceIdeal Cert.ReferenceIdeal.Value Idealize.ShloMosaic Idealize.ShloMosaic.TcCoe Idealize.SL.Sem Idealize.ShloMosaic.StableHlo
open Cert.Propagate

variable {F : FTy → Type} [FloatOps F]

/-- The eighteen input arrays as a valuation of this program's buffers holds them. -/
def inputsOf (V0 : Valuation τ sig (Elt F)) : Inputs F where
  user := V0 (Proc.devRef .tc main_arg0)
  item := V0 (Proc.devRef .tc main_arg1)
  cat := V0 (Proc.devRef .tc main_arg2)
  uiVals := V0 (Proc.devRef .tc main_arg3)
  iuVals := V0 (Proc.devRef .tc main_arg4)
  uuVals := V0 (Proc.devRef .tc main_arg5)
  icVals := V0 (Proc.devRef .tc main_arg6)
  ciVals := V0 (Proc.devRef .tc main_arg7)
  uiRows := V0 (Proc.devRef .tc main_arg8)
  uiCols := V0 (Proc.devRef .tc main_arg9)
  iuRows := V0 (Proc.devRef .tc main_arg10)
  iuCols := V0 (Proc.devRef .tc main_arg11)
  uuRows := V0 (Proc.devRef .tc main_arg12)
  uuCols := V0 (Proc.devRef .tc main_arg13)
  icRows := V0 (Proc.devRef .tc main_arg14)
  icCols := V0 (Proc.devRef .tc main_arg15)
  ciRows := V0 (Proc.devRef .tc main_arg16)
  ciCols := V0 (Proc.devRef .tc main_arg17)

set_option maxHeartbeats 4000000 in
/-- The first layer's user table. -/
theorem user1_eq (V0 : Valuation τ sig (Elt F)) : res_main_v26 V0 = user1 (inputsOf V0) := rfl

set_option maxHeartbeats 4000000 in
/-- The first layer's item table. -/
theorem item1_eq (V0 : Valuation τ sig (Elt F)) : res_main_v53 V0 = item1 (inputsOf V0) := rfl

set_option maxHeartbeats 4000000 in
/-- The second layer's user table: the products of the first layer's tables. -/
theorem user2_eq (V0 : Valuation τ sig (Elt F)) : res_main_v95 V0 = user2 (inputsOf V0) := by
  unfold res_main_v95
  rw [user1_eq, item1_eq]
  rfl

set_option maxHeartbeats 4000000 in
/-- The second layer's item table; the first layer's category table appears in it spelled out. -/
theorem item2_eq (V0 : Valuation τ sig (Elt F)) : res_main_v122 V0 = item2 (inputsOf V0) := by
  unfold res_main_v122
  rw [user1_eq]
  rfl

set_option maxHeartbeats 4000000 in
/-- The user result is the average of the four user tables. -/
theorem outUser_eq (V0 : Valuation τ sig (Elt F)) : val5 V0 (Proc.devRef .tc main_v208) = outUser (inputsOf V0) := by
  rw [val5_main_v208, user1_eq, user2_eq, item2_eq]
  rfl

set_option maxHeartbeats 4000000 in
/-- The item result is the average of the four item tables. -/
theorem outItem_eq (V0 : Valuation τ sig (Elt F)) : val5 V0 (Proc.devRef .tc main_v210) = outItem (inputsOf V0) := by
  rw [val5_main_v210, item1_eq, item2_eq, user2_eq]
  rfl

set_option maxHeartbeats 4000000 in
/-- The category result is the third category table. -/
theorem outCat_eq (V0 : Valuation τ sig (Elt F)) : val5 V0 (Proc.devRef .tc main_v204) = outCat (inputsOf V0) := by
  rw [val5_main_v204, item2_eq]
  rfl

end Cert.ReferenceIdeal.Spec

end
-- ==== Proof.Scaling.lean ====
/-
  The two scalings of the running total, at the exact instance.
  The first two layers scale the running total by the float 1, whose word `0x3F800000` has sign 0,
  exponent field 127 (the bias) and fraction 0, so it denotes `2^23 · 2^(127 - 127 - 23) = 1`; and
  `x · 1 = x` for every extended real, the infinities included. So those two layers' totals are plain
  sums. The last layer scales by the word `0x3E800000`; nothing is evaluated there: a splat of that
  scalar over a tile and a host broadcast of the zero-dimensional constant are the same constant
  function, so the scaled total is the product with the host's broadcast constant as it stands.
-/
import Idealize.ShloMosaic.PureOps.Ideal
import Idealize.ShloMosaic.PureOps.Ideal.Laws
import proofs.«171393_j41704132444584_1_alg».proof.Proof.Combine

noncomputable section

namespace Cert.Combine

open Idealize.ShloMosaic

variable {ι : Type}

/-- The word `0x3F800000` denotes the real number 1. -/
theorem word_one : Ideal.ofBits .f32 0x3F800000#32 = 1 := by
  simp [Ideal.ofBits, Ideal.ieee]
  rw [← EReal.coe_mul, ← EReal.coe_one]
  congr 1
  norm_num

/-- Scaled by the float 1, the new running total is the old total plus the new embedding. -/
theorem total_one (a b r : ι → Ideal .f32) :
    total (F := Ideal) (Scalar.ofBits .f32 0x3F800000#32) a b r = fun i => FloatOps.addf (r i) (FloatOps.addf (a i) (b i)) := by
  funext i
  show FloatOps.mulf (FloatOps.addf (r i) (FloatOps.addf (a i) (b i))) (Ideal.ofBits .f32 0x3F800000#32) = _
  rw [word_one]
  exact mul_one _

/-- Three combine steps in a row, the first two scaled by the float 1 and the last by `k`: the last total is the
    starting array plus the three layers' sums, added in layer order, times `k`. -/
theorem total_chain (k : Ideal .f32) (a1 b1 a2 b2 a3 b3 r : ι → Ideal .f32) :
    total (F := Ideal) k a3 b3 (total (Scalar.ofBits .f32 0x3F800000#32) a2 b2 (total (Scalar.ofBits .f32 0x3F800000#32) a1 b1 r))
      = fun i => FloatOps.mulf (FloatOps.addf (FloatOps.addf (FloatOps.addf (r i) (FloatOps.addf (a1 i) (b1 i)))
          (FloatOps.addf (a2 i) (b2 i))) (FloatOps.addf (a3 i) (b3 i))) k := by
  rw [total_one, total_one]
  rfl

/-- The same chain with the whole-array operations spelled out: the last total is the product of the layered sum with
    any array `K` that is constantly `k`. -/
theorem total_chain_whole {S : Shape} (k : Ideal .f32) (K : FVec Ideal S .f32) (hK : K = fun _ => k)
    (a1 b1 a2 b2 a3 b3 r : FVec Ideal S .f32) :
    total (F := Ideal) k a3 b3 (total (Scalar.ofBits .f32 0x3F800000#32) a2 b2 (total (Scalar.ofBits .f32 0x3F800000#32) a1 b1 r))
      = mulf (addf (addf (addf r (contrib a1 b1)) (contrib a2 b2)) (contrib a3 b3)) K := by
  subst hK
  rw [total_chain]
  rfl

end Cert.Combine

end
-- ==== Proof.Averages.lean ====
/-
  At the exact instance the tiled totals are the averages.
  Spelled out, the third tiled total is three combine steps in a row over six sparse products, and the
  average is the product of the layered sum of those same six products with the broadcast constant.
  The first two scalings are by the float 1 and drop out (`x · 1 = x` on the extended reals), and a
  splat of the last scalar is the constant the whole-array program broadcasts, so the two are equal.
  The sparse products stay closed throughout: both sides are the same expression over them.
-/
import proofs.«171393_j41704132444584_1_alg».proof.Proof.Layers
import proofs.«171393_j41704132444584_1_alg».proof.Proof.Scaling

set_option maxRecDepth 16384

noncomputable section

namespace Cert.Propagate

open Cert.KernelIdeal Cert.KernelIdeal.Facts₀ Idealize.ShloMosaic

section Spelled

variable {F : FTy → Type} [FloatOps F]

/-- The third tiled user total, spelled out. -/
theorem total3User_spelled (g : Inputs F) : total3User g =
    Cert.Combine.total (ι := S100000x64.Idx) (Scalar.ofBits (F := F) .f32 0x3E800000#32) (ui g (item2 g)) (uu g (user2 g)) (Cert.Combine.total (ι := S100000x64.Idx) (Scalar.ofBits (F := F) .f32 0x3F800000#32) (ui g (item1 g)) (uu g (user1 g)) (Cert.Combine.total (ι := S100000x64.Idx) (Scalar.ofBits (F := F) .f32 0x3F800000#32) (ui g g.item) (uu g g.user) (g.user))) := rfl

/-- The user average, spelled out. -/
theorem outUser_spelled (g : Inputs F) : outUser g =
    mulf (addf (addf (addf g.user (Cert.Combine.contrib (ι := S100000x64.Idx) (ui g g.item) (uu g g.user))) (Cert.Combine.contrib (ι := S100000x64.Idx) (ui g (item1 g)) (uu g (user1 g)))) (Cert.Combine.contrib (ι := S100000x64.Idx) (ui g (item2 g)) (uu g (user2 g)))) (broadcastInDim S100000x64 ![] bcast_S_S100000x64 (constant (F := F) S_ .f32 0x3E800000#32)) := rfl

/-- The third tiled item total, spelled out. -/
theorem total3Item_spelled (g : Inputs F) : total3Item g =
    Cert.Combine.total (ι := S50000x64.Idx) (Scalar.ofBits (F := F) .f32 0x3E800000#32) (iu g (user2 g)) (ic g (cat2 g)) (Cert.Combine.total (ι := S50000x64.Idx) (Scalar.ofBits (F := F) .f32 0x3F800000#32) (iu g (user1 g)) (ic g (cat1 g)) (Cert.Combine.total (ι := S50000x64.Idx) (Scalar.ofBits (F := F) .f32 0x3F800000#32) (iu g g.user) (ic g g.cat) (g.item))) := rfl

/-- The item average, spelled out. -/
theorem outItem_spelled (g : Inputs F) : outItem g =
    mulf (addf (addf (addf g.item (Cert.Combine.contrib (ι := S50000x64.Idx) (iu g g.user) (ic g g.cat))) (Cert.Combine.contrib (ι := S50000x64.Idx) (iu g (user1 g)) (ic g (cat1 g)))) (Cert.Combine.contrib (ι := S50000x64.Idx) (iu g (user2 g)) (ic g (cat2 g)))) (broadcastInDim S50000x64 ![] bcast_S_S50000x64 (constant (F := F) S_ .f32 0x3E800000#32)) := rfl

end Spelled

/-- The user output of the tiled accumulation is the average of the four user tables. -/
theorem total3User_eq (g : Inputs Ideal) : total3User g = outUser g := by
  rw [total3User_spelled, outUser_spelled]
  exact Cert.Combine.total_chain_whole (S := S100000x64) _ _ rfl _ _ _ _ _ _ _

/-- The item output of the tiled accumulation is the average of the four item tables. -/
theorem total3Item_eq (g : Inputs Ideal) : total3Item g = outItem g := by
  rw [total3Item_spelled, outItem_spelled]
  exact Cert.Combine.total_chain_whole (S := S50000x64) _ _ rfl _ _ _ _ _ _ _

end Cert.Propagate

end
-- ==== Proof.lean ====
/-
  Three embedding tables are propagated for three layers over five weighted relations, and the
  results are the averages of the user tables and of the item tables and the last category table.
  One program computes each layer's sums and running totals with whole-array host operations and
  scales by a quarter at the end. The other computes the same sparse products with the same host
  operations, but adds them up in a tiled kernel, six launches in all: each launch adds two
  contributions slab by slab, folds the sum into the running total, and scales the total by 1 in the
  first two layers and by a quarter in the last.
  On the extended reals the two agree. Within a launch every slab is the same pointwise function of
  the same rows, and the slabs cover the arrays, so a launch computes the whole-array sum and total.
  Scaling by 1 changes nothing (`x · 1 = x` holds for every extended real, so no finiteness of the
  inputs is used), which makes the tiled running totals the plain sums, and the last scaling is the
  product with the same constant the whole-array program broadcasts. The sparse products are never
  opened: both programs apply the same operations to tables already shown equal.
  The tiled program's frames are its generated frames; the whole-array program's frame is its
  generated run with the results dropped; no operation was rewritten by the idealization.
-/
import proofs.«171393_j41704132444584_1_alg».proof.Defs
import proofs.«171393_j41704132444584_1_alg».proof.Proof.Gen.Kernel
import proofs.«171393_j41704132444584_1_alg».proof.Proof.Gen.Kernel.Frame
import proofs.«171393_j41704132444584_1_alg».proof.Proof.Gen.KernelIdeal
import proofs.«171393_j41704132444584_1_alg».proof.Proof.Gen.KernelIdeal.Frame
import proofs.«171393_j41704132444584_1_alg».proof.Proof.Gen.ReferenceIdeal
import proofs.«171393_j41704132444584_1_alg».proof.Proof.Gen.ReferenceIdeal.Run
import proofs.«171393_j41704132444584_1_alg».proof.Proof.Gen.Pre_finite_inputs
import proofs.«171393_j41704132444584_1_alg».proof.Proof.KernelValue
import proofs.«171393_j41704132444584_1_alg».proof.Proof.Reference
import proofs.«171393_j41704132444584_1_alg».proof.Proof.Averages
import Idealize.ShloMosaic.Adequacy
import Idealize.ShloMosaic.Init

set_option maxRecDepth 16384

noncomputable section

namespace Cert.Proof

open Idealize.ShloMosaic Idealize.ShloMosaic.TcCoe Idealize.SL.Sem
open Cert.Propagate

/-- Memories that agree on the eighteen input buffers give the two programs the same inputs. -/
theorem inputs_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Cert.ReferenceIdeal.Spec.inputsOf (StableHlo.launchContents m' c) = Cert.KernelIdeal.Trace.inputs m c := by
  simp only [Cert.ReferenceIdeal.Spec.inputsOf, Cert.KernelIdeal.Trace.inputs, Inputs.mk.injEq]
  exact h

theorem frame_kernel : Cert.frame_Kernel := fun m ρ _ => Cert.Kernel.Gen.frame m ρ

theorem frame_tiled : Cert.frame_KernelIdeal := fun m ρ _ => Cert.KernelIdeal.Gen.frame m ρ

theorem frame_whole : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- Both programs end with the three results at the averages and the last category table of the
    shared inputs. -/
theorem algebraic : Cert.algebraic_KernelIdeal_ReferenceIdeal := by
  intro m ρ m' ρ' _ hagree
  refine ⟨fun c => total3User (Cert.KernelIdeal.Trace.inputs m c), fun c => total3Item (Cert.KernelIdeal.Trace.inputs m c),
    fun c => cat3 (Cert.KernelIdeal.Trace.inputs m c), Cert.KernelIdeal.Trace.run_results m ρ, ?_⟩
  refine (θ_run Cert.ReferenceIdeal.defs _ _).mono (fun _ h c => ?_) (Cert.ReferenceIdeal.Value.run (F := Ideal) m' ρ')
  have hin := inputs_agree m m' c (hagree c)
  refine ⟨(h c).1.trans ?_, (h c).2.1.trans ?_, (h c).2.2.1.trans ?_, (h c).2.2.2⟩
  · beta_reduce
    rw [total3User_eq, ← hin]
    exact (Cert.ReferenceIdeal.Value.val5_main_v208 _).symm.trans (Cert.ReferenceIdeal.Spec.outUser_eq _)
  · beta_reduce
    rw [total3Item_eq, ← hin]
    exact (Cert.ReferenceIdeal.Value.val5_main_v210 _).symm.trans (Cert.ReferenceIdeal.Spec.outItem_eq _)
  · beta_reduce
    rw [← hin]
    exact (Cert.ReferenceIdeal.Value.val5_main_v204 _).symm.trans (Cert.ReferenceIdeal.Spec.outCat_eq _)

theorem claim : Cert.Claim := ⟨Cert.Kernel.Gen.facts, Cert.KernelIdeal.Gen.facts, Cert.ReferenceIdeal.Gen.facts, Cert.Pre_finite_inputs.Gen.facts,
  frame_kernel, frame_tiled, frame_whole, preserves, algebraic⟩

end Cert.Proof

end
